-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v13) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x4096 : Shape := ⟨2, ![8192, 4096]⟩
abbrev S4096x4096 : Shape := ⟨2, ![4096, 4096]⟩
abbrev S4096 : Shape := ⟨1, ![4096]⟩
abbrev S_ : Shape := ⟨0, ![]⟩
abbrev S1x4096 : Shape := ⟨2, ![1, 4096]⟩

class Facts : Prop where
  bcast_S_S8192x4096 : S_.BroadcastsInDim S8192x4096 (![] : Fin 0 → Fin S8192x4096.rank)
  reducesTo_S8192x4096_S_d0_1 : S8192x4096.ReducesTo [0, 1] S_
  h_S_ : 0 < S_.numel
  bcast_S_S4096x4096 : S_.BroadcastsInDim S4096x4096 (![] : Fin 0 → Fin S4096x4096.rank)
  reducesTo_S4096x4096_S_d0_1 : S4096x4096.ReducesTo [0, 1] S_
  bcast_S_S4096 : S_.BroadcastsInDim S4096 (![] : Fin 0 → Fin S4096.rank)
  reducesTo_S4096_S_d0 : S4096.ReducesTo [0] S_
  slices_S4096x4096_S1x4096_0_0 : S4096x4096.Slices ![0, 0] S1x4096
  bcast_S1x4096_S4096x4096_0_1 : S1x4096.BroadcastsInDim S4096x4096 (![0, 1] : Fin 2 → Fin S4096x4096.rank)

variable [Facts]

def fn_part1 {F : FTy → Type} [FloatOps F] (main_v13 : IVec S_ 1) (main_v16 : IVec S4096x4096 1) (main_c_4 : IVec S_ 1) : IVec S_ 1 :=
  let main_v17 : IVec S_ 1 := (fun x v => Host.reduce IntOp.andi x v reducesTo_S4096x4096_S_d0_1 h_S_) main_v16 main_c_4
  let main_v18 : IVec S_ 1 := andi main_v13 main_v17
  main_v18

def fn {F : FTy → Type} [FloatOps F] (main_arg0 : FVec F S8192x4096 .f32) (main_arg1 : FVec F S4096x4096 .f32) (main_arg2 : FVec F S4096 .f32) (main_arg3 : IVec S4096x4096 32) (main_arg4 : IVec S4096x4096 32) : IVec S_ 1 :=
  let main_v0 : FVec F S8192x4096 .f32 := Host.absf main_arg0
  let main_cst : FVec F S_ .f32 := constant S_ .f32 0x7F800000#32
  let main_v1 : FVec F S8192x4096 .f32 := broadcastInDim S8192x4096 ![] bcast_S_S8192x4096 main_cst
  let main_v2 : IVec S8192x4096 1 := cmpf .olt main_v0 main_v1
  let main_c : IVec S_ 1 := constantI S_ 1 1#1
  let main_v3 : IVec S_ 1 := (fun x v => Host.reduce IntOp.andi x v reducesTo_S8192x4096_S_d0_1 h_S_) main_v2 main_c
  let main_v4 : FVec F S4096x4096 .f32 := Host.absf main_arg1
  let main_cst_0 : FVec F S_ .f32 := constant S_ .f32 0x7F800000#32
  let main_v5 : FVec F S4096x4096 .f32 := broadcastInDim S4096x4096 ![] bcast_S_S4096x4096 main_cst_0
  let main_v6 : IVec S4096x4096 1 := cmpf .olt main_v4 main_v5
  let main_c_1 : IVec S_ 1 := constantI S_ 1 1#1
  let main_v7 : IVec S_ 1 := (fun x v => Host.reduce IntOp.andi x v reducesTo_S4096x4096_S_d0_1 h_S_) main_v6 main_c_1
  let main_v8 : IVec S_ 1 := andi main_v3 main_v7
  let main_v9 : FVec F S4096 .f32 := Host.absf main_arg2
  let main_cst_2 : FVec F S_ .f32 := constant S_ .f32 0x7F800000#32
  let main_v10 : FVec F S4096 .f32 := broadcastInDim S4096 ![] bcast_S_S4096 main_cst_2
  let main_v11 : IVec S4096 1 := cmpf .olt main_v9 main_v10
  let main_c_3 : IVec S_ 1 := constantI S_ 1 1#1
  let main_v12 : IVec S_ 1 := (fun x v => Host.reduce IntOp.andi x v reducesTo_S4096_S_d0 h_S_) main_v11 main_c_3
  let main_v13 : IVec S_ 1 := andi main_v8 main_v12
  let main_v14 : IVec S1x4096 32 := (extractStridedSlice S1x4096 ![0, 0] · slices_S4096x4096_S1x4096_0_0) main_arg3
  let main_v15 : IVec S4096x4096 32 := broadcastInDim S4096x4096 ![0, 1] bcast_S1x4096_S4096x4096_0_1 main_v14
  let main_v16 : IVec S4096x4096 1 := cmpi .eq main_arg3 main_v15
  let main_c_4 : IVec S_ 1 := constantI S_ 1 1#1
  fn_part1 (F := F) main_v13 main_v16 main_c_4
-- ==== Kernel.lean ====
abbrev S8192x4096 : Shape := ⟨2, ![8192, 4096]⟩
abbrev S4096x4096 : Shape := ⟨2, ![4096, 4096]⟩
abbrev S4096 : Shape := ⟨1, ![4096]⟩
abbrev S1x4096 : Shape := ⟨2, ![1, 4096]⟩
abbrev S512x512 : Shape := ⟨2, ![512, 512]⟩
abbrev S1x512 : Shape := ⟨2, ![1, 512]⟩
abbrev S1024x256 : Shape := ⟨2, ![1024, 256]⟩
abbrev S2048x256 : Shape := ⟨2, ![2048, 256]⟩
abbrev S1x2048 : Shape := ⟨2, ![1, 2048]⟩
abbrev S1024x2048 : Shape := ⟨2, ![1024, 2048]⟩

abbrev nBuf : Space → Nat
  | .hbm => 9
  | .vmem => 17
  | .smem => 0
  | _ => 0

abbrev bufTy : (tb : Table) → Fin (tcTables nBuf tb) → BufTy
  | .hbm, ⟨0, _⟩ => ⟨S8192x4096, .f32⟩
  | .hbm, ⟨1, _⟩ => ⟨S4096x4096, .f32⟩
  | .hbm, ⟨2, _⟩ => ⟨S4096, .f32⟩
  | .hbm, ⟨3, _⟩ => ⟨S4096x4096, .i32⟩
  | .hbm, ⟨4, _⟩ => ⟨S4096x4096, .i32⟩
  | .hbm, ⟨5, _⟩ => ⟨S1x4096, .i32⟩
  | .hbm, ⟨6, _⟩ => ⟨S4096x4096, .bf16⟩
  | .hbm, ⟨7, _⟩ => ⟨S1x4096, .f32⟩
  | .hbm, ⟨8, _⟩ => ⟨S8192x4096, .f32⟩
  | .local _ .vmem, ⟨0, _⟩ => ⟨S512x512, .f32⟩
  | .local _ .vmem, ⟨1, _⟩ => ⟨S512x512, .f32⟩
  | .local _ .vmem, ⟨2, _⟩ => ⟨S1x512, .i32⟩
  | .local _ .vmem, ⟨3, _⟩ => ⟨S1x512, .i32⟩
  | .local _ .vmem, ⟨4, _⟩ => ⟨S512x512, .i32⟩
  | .local _ .vmem, ⟨5, _⟩ => ⟨S512x512, .i32⟩
  | .local _ .vmem, ⟨6, _⟩ => ⟨S512x512, .bf16⟩
  | .local _ .vmem, ⟨7, _⟩ => ⟨S512x512, .bf16⟩
  | .local _ .vmem, ⟨8, _⟩ => ⟨S1024x256, .f32⟩
  | .local _ .vmem, ⟨9, _⟩ => ⟨S1024x256, .f32⟩
  | .local _ .vmem, ⟨10, _⟩ => ⟨S2048x256, .bf16⟩
  | .local _ .vmem, ⟨11, _⟩ => ⟨S2048x256, .bf16⟩
  | .local _ .vmem, ⟨12, _⟩ => ⟨S1x2048, .f32⟩
  | .local _ .vmem, ⟨13, _⟩ => ⟨S1x2048, .f32⟩
  | .local _ .vmem, ⟨14, _⟩ => ⟨S1024x2048, .f32⟩
  | .local _ .vmem, ⟨15, _⟩ => ⟨S1024x2048, .f32⟩
  | .local _ .vmem, ⟨16, _⟩ => ⟨S1024x2048, .f32⟩
  | _, _ => ⟨S8192x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg1_1 : Ref sig .tc := ⟨.vmem, 11, rfl⟩
abbrev cc1_stg2_0 : Ref sig .tc := ⟨.vmem, 12, rfl⟩
abbrev cc1_stg2_1 : Ref sig .tc := ⟨.vmem, 13, rfl⟩
abbrev cc1_stg3_0 : Ref sig .tc := ⟨.vmem, 14, rfl⟩
abbrev cc1_stg3_1 : Ref sig .tc := ⟨.vmem, 15, rfl⟩
abbrev cc1_scratch0 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc1_sem0_0 : DmaSem sig := 8
abbrev cc1_sem0_1 : DmaSem sig := 9
abbrev cc1_sem1_0 : DmaSem sig := 10
abbrev cc1_sem1_1 : DmaSem sig := 11
abbrev cc1_sem2_0 : DmaSem sig := 12
abbrev cc1_sem2_1 : DmaSem sig := 13
abbrev cc1_sem3_0 : DmaSem sig := 14
abbrev cc1_sem3_1 : DmaSem sig := 15

abbrev nD : Nat := 1
abbrev τ : Topo := Topo.v7x

variable {F : FTy → Type} [FloatOps F]

abbrev grid0 : Pipeline.Grid := ⟨2, ![8, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x512 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S512x512 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S512x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev grid1 : Pipeline.Grid := ⟨3, ![8, 2, 16], ![false, false, false]⟩

def k1_cond2 (i : grid1.Coords) : BitVec 1 :=
  let arg2 : BitVec 32 := BitVec.ofNat 32 (i 2).val
  let c15_i32 : BitVec 32 := 15#32
  let v13 : BitVec 1 := Scalar.cmpi .eq arg2 c15_i32
  let v14 : BitVec 32 := Scalar.extui v13
  let c0_i32_8 : BitVec 32 := 0#32
  let v15 : BitVec 1 := Scalar.cmpi .ne v14 c0_i32_8
  v15

def cc1_transform_0 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc1_transform_1 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc1_transform_2 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc1_transform_3 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage1_0 : Fin 2 → Memref sig .tc .vmem S1024x256 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false, true]

abbrev stage1_1 : Fin 2 → Memref sig .tc .vmem S2048x256 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true, true]

abbrev stage1_2 : Fin 2 → Memref sig .tc .vmem S1x2048 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![false, true, false]

abbrev stage1_3 : Fin 2 → Memref sig .tc .vmem S1024x2048 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true, false]

class Facts₀ : Prop where
  slices_S4096x4096_S1x4096_0_0 : S4096x4096.Slices ![0, 0] S1x4096
  inb_S512x512_S512x512_0_0 : ∀ a, (![0, 0] : Fin 2 → Nat) a + S512x512.size a ≤ S512x512.size a
  h_S512x512 : 0 < S512x512.numel
  inb_S1x512_S1x512_0_0 : ∀ a, (![0, 0] : Fin 2 → Nat) a + S1x512.size a ≤ S1x512.size a
  h_S1x512 : 0 < S1x512.numel
  shapeCasts_S1x512_S1x512 : S1x512.ShapeCasts S1x512
  broadcasts_S1x512_S512x512 : S1x512.Broadcasts S512x512
  bitsLt_bf16_f32 : FTy.bits .bf16 < FTy.bits .f32
  packedbf16_S512x512_S512x512_0_0 : (Rect.unit (s := S512x512) ![0, 0] S512x512.size inb_S512x512_S512x512_0_0).PackedRows (EltTy.packing .bf16)
  shapeCasts_S4096_S1x4096 : S4096.ShapeCasts S1x4096
  inb_S1024x2048_S1024x2048_0_0 : ∀ a, (![0, 0] : Fin 2 → Nat) a + S1024x2048.size a ≤ S1024x2048.size a
  h_S1024x2048 : 0 < S1024x2048.numel
  shapeCasts_S1024x2048_S1024x2048 : S1024x2048.ShapeCasts S1024x2048
  inb_S1024x256_S1024x256_0_0 : ∀ a, (![0, 0] : Fin 2 → Nat) a + S1024x256.size a ≤ S1024x256.size a
  h_S1024x256 : 0 < S1024x256.numel
  inb_S2048x256_S2048x256_0_0 : ∀ a, (![0, 0] : Fin 2 → Nat) a + S2048x256.size a ≤ S2048x256.size a
  h_S2048x256 : 0 < S2048x256.numel
  shapeCasts_S2048x256_S2048x256 : S2048x256.ShapeCasts S2048x256
  inb_S1x2048_S1x2048_0_0 : ∀ a, (![0, 0] : Fin 2 → Nat) a + S1x2048.size a ≤ S1x2048.size a
  h_S1x2048 : 0 < S1x2048.numel
  shapeCasts_S1x2048_S1x2048 : S1x2048.ShapeCasts S1x2048
  broadcasts_S1x2048_S1024x2048 : S1x2048.Broadcasts S1024x2048
  dot_S1024x256_S2048x256_S1024x2048_1_1_0_0_n_n_wf : DotDims.WF S1024x256 S2048x256 S1024x2048 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x512.size a ≤ S4096x4096.size a
  hwx0_0 : ∀ i : grid0.Coords, EltTy.bits .f32 = 32 ∨ (Rect.block (s := S4096x4096) S512x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x512.size a ≤ S1x4096.size a
  hwx0_1 : ∀ i : grid0.Coords, EltTy.bits .i32 = 32 ∨ (Rect.block (s := S1x4096) S1x512.size (cc0_transform_1 i) (hinb0_1 i)).WholeWords (EltTy.packing .i32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S512x512.size a ≤ S4096x4096.size a
  hwx0_2 : ∀ i : grid0.Coords, EltTy.bits .i32 = 32 ∨ (Rect.block (s := S4096x4096) S512x512.size (cc0_transform_2 i) (hinb0_2 i)).WholeWords (EltTy.packing .i32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S512x512.size a ≤ S4096x4096.size a
  hwx0_3 : ∀ i : grid0.Coords, EltTy.bits .bf16 = 32 ∨ (Rect.block (s := S4096x4096) S512x512.size (cc0_transform_3 i) (hinb0_3 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1024x256.size a ≤ S8192x4096.size a
  hwx1_0 : ∀ i : grid1.Coords, EltTy.bits .f32 = 32 ∨ (Rect.block (s := S8192x4096) S1024x256.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2048x256.size a ≤ S4096x4096.size a
  hwx1_1 : ∀ i : grid1.Coords, EltTy.bits .bf16 = 32 ∨ (Rect.block (s := S4096x4096) S2048x256.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1x2048.size a ≤ S1x4096.size a
  hwx1_2 : ∀ i : grid1.Coords, EltTy.bits .f32 = 32 ∨ (Rect.block (s := S1x4096) S1x2048.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1024x2048.size a ≤ S8192x4096.size a
  hwx1_3 : ∀ i : grid1.Coords, EltTy.bits .f32 = 32 ∨ (Rect.block (s := S8192x4096) S1024x2048.size (cc1_transform_3 i) (hinb1_3 i)).WholeWords (EltTy.packing .f32)

variable [Facts₀]

def dot_S1024x256_S2048x256_S1024x2048_1_1_0_0_n_n : DotDims S1024x256 S2048x256 S1024x2048 where
  lhsContracting := [1]
  rhsContracting := [1]
  lhsNonContracting := [0]
  rhsNonContracting := [0]
  lhsBatch := []
  rhsBatch := []
  wf := dot_S1024x256_S2048x256_S1024x2048_1_1_0_0_n_n_wf

abbrev win0_0 : Pipeline.Window sig grid0 :=
  Pipeline.Window.ofSpec (Memref.whole main_arg1) S512x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S1x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg4) S512x512.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v1) S512x512.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_arg0) S1024x256.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v1) S2048x256.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v2) S1x2048.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v3) S1024x2048.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev idle1 : Fin 4 → grid1.Coords → Bool := fun | 0 => fun _ => false | 1 => fun _ => false | 2 => fun _ => false | 3 => fun i => !(k1_cond2 i == 1#1) | ⟨_ + 4, h⟩ => absurd h (Nat.not_lt.2 (Nat.le_add_left _ _))

class Facts : Prop extends Facts₀ where

variable [Facts]
-- ==== ReferenceIdeal.lean ====
abbrev S8192x4096 : Shape := ⟨2, ![8192, 4096]⟩
abbrev S4096x4096 : Shape := ⟨2, ![4096, 4096]⟩
abbrev S4096 : Shape := ⟨1, ![4096]⟩
abbrev S_ : Shape := ⟨0, ![]⟩
abbrev S1x4096 : Shape := ⟨2, ![1, 4096]⟩

abbrev nBuf : Space → Nat
  | .hbm => 22
  | .vmem => 0
  | .smem => 0
  | _ => 0

abbrev bufTy : (tb : Table) → Fin (tcTables nBuf tb) → BufTy
  | .hbm, ⟨0, _⟩ => ⟨S8192x4096, .f32⟩
  | .hbm, ⟨1, _⟩ => ⟨S4096x4096, .f32⟩
  | .hbm, ⟨2, _⟩ => ⟨S4096, .f32⟩
  | .hbm, ⟨3, _⟩ => ⟨S4096x4096, .i32⟩
  | .hbm, ⟨4, _⟩ => ⟨S4096x4096, .i32⟩
  | .hbm, ⟨5, _⟩ => ⟨S4096x4096, .f32⟩
  | .hbm, ⟨6, _⟩ => ⟨S4096x4096, .f32⟩
  | .hbm, ⟨7, _⟩ => ⟨S_, .i32⟩
  | .hbm, ⟨8, _⟩ => ⟨S4096x4096, .i32⟩
  | .hbm, ⟨9, _⟩ => ⟨S4096x4096, .i1⟩
  | .hbm, ⟨10, _⟩ => ⟨S_, .f32⟩
  | .hbm, ⟨11, _⟩ => ⟨S4096x4096, .f32⟩
  | .hbm, ⟨12, _⟩ => ⟨S4096x4096, .f32⟩
  | .hbm, ⟨13, _⟩ => ⟨S_, .f32⟩
  | .hbm, ⟨14, _⟩ => ⟨S4096x4096, .f32⟩
  | .hbm, ⟨15, _⟩ => ⟨S4096x4096, .f32⟩
  | .hbm, ⟨16, _⟩ => ⟨S4096x4096, .f32⟩
  | .hbm, ⟨17, _⟩ => ⟨S4096x4096, .f32⟩
  | .hbm, ⟨18, _⟩ => ⟨S8192x4096, .f32⟩
  | .hbm, ⟨19, _⟩ => ⟨S1x4096, .f32⟩
  | .hbm, ⟨20, _⟩ => ⟨S8192x4096, .f32⟩
  | .hbm, ⟨21, _⟩ => ⟨S8192x4096, .f32⟩
  | _, _ => ⟨S8192x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_c : Ref sig .tc := ⟨.hbm, 7, rfl⟩
abbrev main_v2 : Ref sig .tc := ⟨.hbm, 8, rfl⟩
abbrev main_v3 : Ref sig .tc := ⟨.hbm, 9, rfl⟩
abbrev main_cst : Ref sig .tc := ⟨.hbm, 10, rfl⟩
abbrev main_v4 : Ref sig .tc := ⟨.hbm, 11, rfl⟩
abbrev main_v5 : Ref sig .tc := ⟨.hbm, 12, rfl⟩
abbrev main_cst_0 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩

abbrev nD : Nat := 1
abbrev τ : Topo := Topo.v7x

variable {F : FTy → Type} [FloatOps F]

class Facts₀ : Prop where
  bcast_S_S4096x4096 : S_.BroadcastsInDim S4096x4096 (![] : Fin 0 → Fin S4096x4096.rank)
  transposes_S4096x4096_S4096x4096_1_0 : S4096x4096.Transposes [1, 0] S4096x4096
  bcast_S4096_S1x4096_1 : S4096.BroadcastsInDim S1x4096 (![1] : Fin 1 → Fin S1x4096.rank)
  bcast_S1x4096_S8192x4096_0_1 : S1x4096.BroadcastsInDim S8192x4096 (![0, 1] : Fin 2 → Fin S8192x4096.rank)
  dot_S8192x4096_S4096x4096_S8192x4096_1_0_0_1_n_n_wf : DotDims.WF S8192x4096 S4096x4096 S8192x4096 [1] [0] [0] [1] [] []

variable [Facts₀]

def dot_S8192x4096_S4096x4096_S8192x4096_1_0_0_1_n_n : DotDims S8192x4096 S4096x4096 S8192x4096 where
  lhsContracting := [1]
  rhsContracting := [0]
  lhsNonContracting := [0]
  rhsNonContracting := [1]
  lhsBatch := []
  rhsBatch := []
  wf := dot_S8192x4096_S4096x4096_S8192x4096_1_0_0_1_n_n_wf

class Facts : Prop extends Facts₀ where

variable [Facts]
-- ==== Proof.K.Mask.lean ====
/-
  Region 0: the mask kernel's pipeline, at any entry contents.

  At every grid point (i, j) the body reads three blocks — the weight block (i, j), the block (0, j) of the kind
  row and the connection block (i, j) — and writes one block (i, j) of the masked weight: a single whole-block store
  of one elementwise function of the three blocks read. This file states what each staging buffer holds before and
  after the body at a point, proves the body's triple, and discharges the pipeline's body obligation.
-/
import proofs.«155001_j23046794510859_2_alg».proof.Proof.Gen.Kernel.Launch
import proofs.«155001_j23046794510859_2_alg».proof.Proof.Gen.Kernel.Skeleton
import proofs.«155001_j23046794510859_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle of 512 x 512 extents: the elaborator's structural look recurses once per coordinate
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window w's block at point t, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The weight window's staging buffer holds its block at every point, for any proof data whose array is the entry
    contents and whose body leaves the block in place: the window is an input, uncut and never idle. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- The same of the kind-row window. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- The same of the connection window. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses -/

/-- The whole 512 x 512 block. -/
abbrev r0_0 : Rect S512x512 := Rect.unit (s := S512x512) ![0, 0] S512x512.size inb_S512x512_S512x512_0_0
/-- The whole 1 x 512 row block. -/
abbrev r0_1 : Rect S1x512 := Rect.unit (s := S1x512) ![0, 0] S1x512.size inb_S1x512_S1x512_0_0

/-! ## What the body leaves in the output window's buffer -/

/-- The output buffer after the body, from the three input blocks: its one store, of the whole block. -/
def out0_3 (x0 : Vec F S512x512 .f32) (x1 : Vec F S1x512 .i32) (x2 : Vec F S512x512 .i32) : Vec F S512x512 .bf16 :=
  View.canon [⟨r0_0, k0_pay1 (View.ld x0 r0_0) (View.ld x2 r0_0) (View.ld x1 r0_1)⟩]

/-- The one store covers the buffer. -/
theorem cover0_3 (p0 : Vec F S512x512 .bf16) (y : S512x512.Idx) :
    ∃ pc ∈ ([⟨r0_0, p0⟩] : List (View.Piece (Elt F) S512x512 .bf16)), y ∈ pc.1.set :=
  View.cover_of_tiled [⟨r0_0, p0⟩] S512x512.size (by rfl) y

/-! ## The body's triple -/

set_option maxHeartbeats 1000000 in
/-- The body on whole staging memrefs, the inputs' at read contents and the output's at anything, runs to the
    continuation holding the inputs' as they were and the output's at out0_3 of the inputs'. -/
theorem sound_kernel0 (c : Dev nD) (E : Set ℕ) (i : grid0.Coords)
    (arg2 : Memref sig .tc .vmem S512x512 .f32) (harg2 : arg2.IsWhole) (arg3 : Memref sig .tc .vmem S1x512 .i32) (harg3 : arg3.IsWhole)
    (arg4 : Memref sig .tc .vmem S512x512 .i32) (harg4 : arg4.IsWhole) (arg5 : Memref sig .tc .vmem S512x512 .bf16) (harg5 : arg5.IsWhole)
    (x0 : Vec F S512x512 .f32) (x1 : Vec F S1x512 .i32) (x2 : Vec F S512x512 .i32) (K : PUnit → sProp 𝕄) :
    iprop(owns (c : Thread nD τ) arg2 fullShare x0 ∗ owns (c : Thread nD τ) arg3 fullShare x1 ∗ owns (c : Thread nD τ) arg4 fullShare x2
        ∗ (∃ d, owns (c : Thread nD τ) arg5 fullShare d)
        ∗ (iprop(owns (c : Thread nD τ) arg2 fullShare x0 ∗ owns (c : Thread nD τ) arg3 fullShare x1 ∗ owns (c : Thread nD τ) arg4 fullShare x2
            ∗ owns (c : Thread nD τ) arg5 fullShare (out0_3 x0 x1 x2)) -∗ K ⟨⟩))
      ⊢ wp frame (wpE (defs₀ (F := F)) Variants.none c none) E (cc0__mask_kernel i arg2 harg2 arg3 harg3 arg4 harg4 arg5 harg5) K := by
  simp only [cc0__mask_kernel_eq_skeleton]; unfold cc0__mask_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover0_3 _)

/-! ## The pipeline's proof data -/

/-- The proof data of the pipeline on core c: the arrays as the region finds them; after the body at point t each
    input's buffer at its block and the output's at out0_3 of the three input blocks; the invariant is the scoped
    rest and the generator register, untouched; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => out0_3 (iblk0 V c 0 t) (iblk0 V c 1 t) (iblk0 V c 2 t)
  Φ _ := Pipeline.ΦA spec0 c
  q _ := fullShare
  owed _ := 0

/-- The proof data's arrays are the region-entry contents. -/
theorem A_eq0 (c : Dev nD) (w : Fin cfg0.W) : (dat0 V c).A w = V c (Pipeline.arrRef spec0 w) := by
  dsimp only [dat0]

/-- What the body leaves, window by window. -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) :
    (dat0 V c).after 3 t = out0_3 (iblk0 V c 0 t) (iblk0 V c 1 t) (iblk0 V c 2 t) := by dsimp only [dat0]

/-- Each input's current staging buffer holds its block at every point. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

/-! ## The body obligation, at a generic point -/

/-- What the body is called with at point t, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t))

/-- The body at any point: the inputs' memrefs hold their blocks, so the body's triple applies; the invariant and
    the core's debts pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).Φ t.succ = (dat0 V c).Φ t.castSucc from rfl,
    show (dat0 V c).owesAt () t.succ = (dat0 V c).owesAt () t.castSucc from rfl,
    after0_0, after0_1, after0_2, after0_3]
  iintro ⟨HΦ, Ho, ⟨%d0, H0⟩, ⟨%d1, H1⟩, ⟨%d2, H2⟩, ⟨%d3, H3⟩⟩
  iapply (sound_kernel0 c Set.univ _ _ _ _ _ _ _ _ _ (iblk0 V c 0 t) (iblk0 V c 1 t) (iblk0 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation0 (c : Dev nD) : BodyObligation (dat0 (F := F) V c) (defs₀ (F := F)) Variants.none () Set.univ := fun t => by
  rw [bigSep_W0, bigSep_W0]
  exact sound_body0 V c t

end Cert.Kernel.Hand

end
-- ==== Proof.K.MatmulShared.lean ====
/- The matmul region's body, what its three control cases share: the two branch conditions in
   closed form over the grid (the reduction coordinate is the innermost, 16 steps), where the
   windows are idle, and the staging and scratch memrefs the body is run on. -/
import proofs.«155001_j23046794510859_2_alg».proof.Proof.Gen.Kernel.Launch
import proofs.«155001_j23046794510859_2_alg».proof.Proof.Gen.Kernel.Skeleton
import proofs.«155001_j23046794510859_2_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The body's branch conditions -/

/-- The first conditional's condition (the accumulator is zeroed), from the grid coordinates:
    the reduction coordinate is 0. -/
abbrev cond1_0 (i : grid1.Coords) : Prop := (Scalar.cmpi .ne (Scalar.extui (Scalar.cmpi .eq (BitVec.ofNat 32 (i 2).val) 0#32)) 0#32) = 1#1
/-- It holds at the points ≡ 0 (mod 16) — decided over the grid. -/
theorem hcond1_0 : ∀ t : Fin cfg1.N, cond1_0 (grid1.coords t) ↔ t.val % 16 = 0 :=
  (by decide +kernel : ∀ t : Fin grid1.N, cond1_0 (grid1.coords t) ↔ t.val % 16 = 0)

/-- The second conditional's condition (the output block is stored): the reduction coordinate
    is the last, 15. -/
abbrev cond1_1 (i : grid1.Coords) : Prop := k1_cond2 i = 1#1
/-- It holds at the points ≡ 15 (mod 16) — decided over the grid. -/
theorem hcond1_1 : ∀ t : Fin cfg1.N, cond1_1 (grid1.coords t) ↔ t.val % 16 = 15 :=
  (by decide +kernel : ∀ t : Fin grid1.N, cond1_1 (grid1.coords t) ↔ t.val % 16 = 15)

/-! ## Where the windows are idle -/

/-- Window 0 (the activations' block) is never idle. -/
theorem liveAt1_0 : ∀ t : Fin cfg1.N, cfg1.idle 0 (grid1.coords t) = false := by decide +kernel
/-- Window 1 (the masked weight's block) is never idle. -/
theorem liveAt1_1 : ∀ t : Fin cfg1.N, cfg1.idle 1 (grid1.coords t) = false := by decide +kernel
/-- Window 2 (the bias row) is never idle. -/
theorem liveAt1_2 : ∀ t : Fin cfg1.N, cfg1.idle 2 (grid1.coords t) = false := by decide +kernel
/-- At the first step of a reduction the output window is idle: nothing is stored into it. -/
theorem idleAt1_3_A : ∀ t : Fin cfg1.N, cond1_0 (grid1.coords t) → ¬cond1_1 (grid1.coords t) → cfg1.idle 3 (grid1.coords t) = true := by decide +kernel
/-- And its block is not written back there. -/
theorem noFlush1_3_A : ∀ t : Fin cfg1.N, cond1_0 (grid1.coords t) → ¬cond1_1 (grid1.coords t) → (cfg1.win 3).flush t = false := by decide +kernel
/-- At the inner steps of a reduction the output window is idle. -/
theorem idleAt1_3_B : ∀ t : Fin cfg1.N, ¬cond1_0 (grid1.coords t) → ¬cond1_1 (grid1.coords t) → cfg1.idle 3 (grid1.coords t) = true := by decide +kernel
/-- And its block is not written back there. -/
theorem noFlush1_3_B : ∀ t : Fin cfg1.N, ¬cond1_0 (grid1.coords t) → ¬cond1_1 (grid1.coords t) → (cfg1.win 3).flush t = false := by decide +kernel
/-- At the last step of a reduction the output window is live: the block is stored. -/
theorem liveAt1_3_C : ∀ t : Fin cfg1.N, ¬cond1_0 (grid1.coords t) → cond1_1 (grid1.coords t) → cfg1.idle 3 (grid1.coords t) = false := by decide +kernel

/-! ## The memrefs the body is run on -/

/-- One staging buffer of the output window, through which its contents are stated. -/
abbrev VO1_3 : View sig .tc .vmem S1024x2048 .f32 := (Memref.whole cc1_stg3_0 : Memref sig .tc .vmem S1024x2048 .f32).view
/-- Each window's current staging memref at point `t`, as the pipeline passes it, and its wholeness. -/
abbrev ms1_0 (t : Fin cfg1.N) : Memref sig .tc .vmem S1024x256 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S2048x256 .bf16 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1x2048 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S1024x2048 .f32 := win1_3.stage (cfg1.slots t 3)
abbrev hs1_3 (t : Fin cfg1.N) : (ms1_3 t).IsWhole := hstage1_3 ((cfg1.slots t 3).cast nbuf1_3)
/-- The scratch accumulator: a whole scoped buffer of the kernel's own, passed beside the windows. -/
abbrev scM1_0 : Memref sig .tc .vmem S1024x2048 .f32 := Memref.whole cc1_scratch0
/-- The accumulator as a view: what it holds between points is stated through it. -/
abbrev VS1_0 : View sig .tc .vmem S1024x2048 .f32 := scM1_0.view

end Cert.Kernel.Hand

end
-- ==== Proof.K.MatmulRunA.lean ====
/- The matmul body run at the FIRST step of a reduction (the reduction coordinate is 0): the
   accumulator is zeroed, then the product of the two staged blocks is added into it; the
   bias row is not read and nothing is stored into the output block, which is handed back as
   it was found. The pieces the accumulator ends with are the witness the run finds. -/
import proofs.«155001_j23046794510859_2_alg».proof.Proof.K.MatmulShared

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The body's triple at the first step of a reduction, on any whole memrefs: the inputs at
    their contents, the output block at contents `xi3` handed back untouched, the accumulator
    at anything; it ends with the accumulator's pieces `LS0` written (the zero store, then
    the accumulated store) and no piece for the output. -/
noncomputable def kernelRun1_A (c : Dev nD) (i : grid1.Coords) (arg3 : Memref sig .tc .vmem S1024x256 .f32) (harg3 : arg3.IsWhole) (arg4 : Memref sig .tc .vmem S2048x256 .bf16) (harg4 : arg4.IsWhole) (arg5 : Memref sig .tc .vmem S1x2048 .f32) (harg5 : arg5.IsWhole) (arg6 : Memref sig .tc .vmem S1024x2048 .f32) (harg6 : arg6.IsWhole) (arg7 : Memref sig .tc .vmem S1024x2048 .f32) (harg7 : arg7.IsWhole) (hc0 : cond1_0 i) (hc1 : ¬cond1_1 i)
    (x0 : Vec F S1024x256 .f32) (x1 : Vec F S2048x256 .bf16) (x2 : Vec F S1x2048 .f32) :
    Σ' (L3 : List (View.Piece (Elt F) S1024x2048 .f32)), { LS0 : List (View.Piece (Elt F) S1024x2048 .f32) //
      ∀ (xi3 : Vec F S1024x2048 .f32) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare xi3 ∗ (∃ d, owns (c : Thread nD τ) arg7 fullShare d)
            ∗ (iprop(owns (c : Thread nD τ) arg3 fullShare x0 ∗ owns (c : Thread nD τ) arg4 fullShare x1 ∗ owns (c : Thread nD τ) arg5 fullShare x2 ∗ owns (c : Thread nD τ) arg6 fullShare xi3 ∗ (∃ f, arg7.view.loc (c : Thread nD τ) ↦[arg7.view.set]{fullShare} arg7.view.writes (Elt F) f LS0)) -∗ K ⟨⟩))
          ⊢ wp frame (wpE (defs₀ (F := F)) Variants.none c none) E (cc1__matmul_kernel i arg3 harg3 arg4 harg4 arg5 harg5 arg6 harg6 arg7 harg7) K } := by
  refine ⟨[], ?_, fun xi3 E K => ?run⟩
  case run =>
    simp only [cc1__matmul_kernel_eq_skeleton]; unfold cc1__matmul_kernel_skel
    unfold owns
    iintro ⟨⟨%f0, %hf0, H0⟩, ⟨%f1, %hf1, H1⟩, ⟨%f2, %hf2, H2⟩, ⟨%f3, %hf3, H3⟩, ⟨%ds0, %fs0, -, HS0⟩, Hk⟩
    obtain rfl := harg3.eq_unread hf0; obtain rfl := harg4.eq_unread hf1; obtain rfl := harg5.eq_unread hf2; obtain rfl := harg6.eq_unread hf3
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    iexists _; iexact HS0

end Cert.Kernel.Hand

end
-- ==== Proof.K.MatmulRunB.lean ====
/- The matmul body run at an INNER step of a reduction (the reduction coordinate is neither 0
   nor the last): the product of the two staged blocks is added into the accumulator, which
   enters at the contents the step before left; the bias row is not read and nothing is
   stored into the output block, which is handed back as it was found. -/
import proofs.«155001_j23046794510859_2_alg».proof.Proof.K.MatmulRunA

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The body's triple at an inner step of a reduction, on any whole memrefs: the inputs at
    their contents, the output block at contents `xi3` handed back untouched, the accumulator
    at the contents `xs0` the step before left; it ends with the accumulator's pieces `LS0`
    written (the accumulated store) and no piece for the output. -/
noncomputable def kernelRun1_B (c : Dev nD) (i : grid1.Coords) (arg3 : Memref sig .tc .vmem S1024x256 .f32) (harg3 : arg3.IsWhole) (arg4 : Memref sig .tc .vmem S2048x256 .bf16) (harg4 : arg4.IsWhole) (arg5 : Memref sig .tc .vmem S1x2048 .f32) (harg5 : arg5.IsWhole) (arg6 : Memref sig .tc .vmem S1024x2048 .f32) (harg6 : arg6.IsWhole) (arg7 : Memref sig .tc .vmem S1024x2048 .f32) (harg7 : arg7.IsWhole) (hc0 : ¬cond1_0 i) (hc1 : ¬cond1_1 i)
    (x0 : Vec F S1024x256 .f32) (x1 : Vec F S2048x256 .bf16) (x2 : Vec F S1x2048 .f32) (xs0 : Vec F S1024x2048 .f32) :
    Σ' (L3 : List (View.Piece (Elt F) S1024x2048 .f32)), { LS0 : List (View.Piece (Elt F) S1024x2048 .f32) //
      ∀ (xi3 : Vec F S1024x2048 .f32) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare xi3 ∗ owns (c : Thread nD τ) arg7 fullShare xs0
            ∗ (iprop(owns (c : Thread nD τ) arg3 fullShare x0 ∗ owns (c : Thread nD τ) arg4 fullShare x1 ∗ owns (c : Thread nD τ) arg5 fullShare x2 ∗ owns (c : Thread nD τ) arg6 fullShare xi3 ∗ (∃ f, arg7.view.loc (c : Thread nD τ) ↦[arg7.view.set]{fullShare} arg7.view.writes (Elt F) f LS0)) -∗ K ⟨⟩))
          ⊢ wp frame (wpE (defs₀ (F := F)) Variants.none c none) E (cc1__matmul_kernel i arg3 harg3 arg4 harg4 arg5 harg5 arg6 harg6 arg7 harg7) K } := by
  refine ⟨[], ?_, fun xi3 E K => ?run⟩
  case run =>
    simp only [cc1__matmul_kernel_eq_skeleton]; unfold cc1__matmul_kernel_skel
    unfold owns
    iintro ⟨⟨%f0, %hf0, H0⟩, ⟨%f1, %hf1, H1⟩, ⟨%f2, %hf2, H2⟩, ⟨%f3, %hf3, H3⟩, ⟨%fs0, %hfs0, HS0⟩, Hk⟩
    obtain rfl := harg3.eq_unread hf0; obtain rfl := harg4.eq_unread hf1; obtain rfl := harg5.eq_unread hf2; obtain rfl := harg6.eq_unread hf3; obtain rfl := harg7.eq_unread hfs0
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    iexists _; iexact HS0

end Cert.Kernel.Hand

end
-- ==== Proof.K.MatmulRunC.lean ====
/- The matmul body run at the LAST step of a reduction (the reduction coordinate is 15): the
   product of the two staged blocks is added into the accumulator, which enters at the
   contents the step before left; then the accumulator plus the bias row, broadcast along
   the rows, is stored as the output block. -/
import proofs.«155001_j23046794510859_2_alg».proof.Proof.K.MatmulRunB

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The body's triple at the last step of a reduction, on any whole memrefs: the inputs at
    their contents, the output block at anything, the accumulator at the contents `xs0` the
    step before left; it ends with the accumulator's pieces `LS0` written (the accumulated
    store) and the output's pieces `L3` written (the biased sum). -/
noncomputable def kernelRun1_C (c : Dev nD) (i : grid1.Coords) (arg3 : Memref sig .tc .vmem S1024x256 .f32) (harg3 : arg3.IsWhole) (arg4 : Memref sig .tc .vmem S2048x256 .bf16) (harg4 : arg4.IsWhole) (arg5 : Memref sig .tc .vmem S1x2048 .f32) (harg5 : arg5.IsWhole) (arg6 : Memref sig .tc .vmem S1024x2048 .f32) (harg6 : arg6.IsWhole) (arg7 : Memref sig .tc .vmem S1024x2048 .f32) (harg7 : arg7.IsWhole) (hc0 : ¬cond1_0 i) (hc1 : cond1_1 i)
    (x0 : Vec F S1024x256 .f32) (x1 : Vec F S2048x256 .bf16) (x2 : Vec F S1x2048 .f32) (xs0 : Vec F S1024x2048 .f32) :
    Σ' (L3 : List (View.Piece (Elt F) S1024x2048 .f32)), { LS0 : List (View.Piece (Elt F) S1024x2048 .f32) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ (∃ d, owns (c : Thread nD τ) arg6 fullShare d) ∗ owns (c : Thread nD τ) arg7 fullShare xs0
            ∗ (iprop(owns (c : Thread nD τ) arg3 fullShare x0 ∗ owns (c : Thread nD τ) arg4 fullShare x1 ∗ owns (c : Thread nD τ) arg5 fullShare x2 ∗ (∃ f, arg6.view.loc (c : Thread nD τ) ↦[arg6.view.set]{fullShare} arg6.view.writes (Elt F) f L3) ∗ (∃ f, arg7.view.loc (c : Thread nD τ) ↦[arg7.view.set]{fullShare} arg7.view.writes (Elt F) f LS0)) -∗ K ⟨⟩))
          ⊢ wp frame (wpE (defs₀ (F := F)) Variants.none c none) E (cc1__matmul_kernel i arg3 harg3 arg4 harg4 arg5 harg5 arg6 harg6 arg7 harg7) K } := by
  refine ⟨?_, ?_, fun E K => ?run⟩
  case run =>
    simp only [cc1__matmul_kernel_eq_skeleton]; unfold cc1__matmul_kernel_skel
    unfold owns
    iintro ⟨⟨%f0, %hf0, H0⟩, ⟨%f1, %hf1, H1⟩, ⟨%f2, %hf2, H2⟩, ⟨%d3, %f3, -, H3⟩, ⟨%fs0, %hfs0, HS0⟩, Hk⟩
    obtain rfl := harg3.eq_unread hf0; obtain rfl := harg4.eq_unread hf1; obtain rfl := harg5.eq_unread hf2; obtain rfl := harg7.eq_unread hfs0
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]; · iexists _; iexact H3
    iexists _; iexact HS0

end Cert.Kernel.Hand

end
-- ==== Proof.K.MatmulPieces.lean ====
/- What each control case of the matmul body leaves in the accumulator and in the output
   block, read back from the pieces its run found, and that these are the body's arithmetic:
   the accumulator ends at (entry contents, or zero at a reduction's first step) plus the
   product of the two staged blocks; the output block, at a reduction's last step, at that
   sum plus the bias row broadcast along the rows. -/
import proofs.«155001_j23046794510859_2_alg».proof.Proof.K.MatmulRunC
import Idealize.ShloMosaic.Lib.Pipeline.Value

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The zero offsets of a whole-block rectangle, however spelt. -/
theorem matmul_hz : (![0, 0] : Fin 2 → Nat) = fun _ => 0 := funext fun a => by fin_cases a <;> rfl

/-! ## First step of a reduction -/

/-- The accumulator's pieces at a first step (the zero store, then the accumulated store) cover it. -/
theorem scover1_A (c : Dev nD) (i : grid1.Coords) (arg3 : Memref sig .tc .vmem S1024x256 .f32) (harg3 : arg3.IsWhole) (arg4 : Memref sig .tc .vmem S2048x256 .bf16) (harg4 : arg4.IsWhole) (arg5 : Memref sig .tc .vmem S1x2048 .f32) (harg5 : arg5.IsWhole) (arg6 : Memref sig .tc .vmem S1024x2048 .f32) (harg6 : arg6.IsWhole) (arg7 : Memref sig .tc .vmem S1024x2048 .f32) (harg7 : arg7.IsWhole) (hc0 : cond1_0 i) (hc1 : ¬cond1_1 i)
    (x0 : Vec F S1024x256 .f32) (x1 : Vec F S2048x256 .bf16) (x2 : Vec F S1x2048 .f32) (y : S1024x2048.Idx) :
    ∃ pc ∈ (kernelRun1_A c i arg3 harg3 arg4 harg4 arg5 harg5 arg6 harg6 arg7 harg7 hc0 hc1 x0 x1 x2).2.1, y ∈ pc.1.set :=
  View.cover_of_tiledL (kernelRun1_A c i arg3 harg3 arg4 harg4 arg5 harg5 arg6 harg6 arg7 harg7 hc0 hc1 x0 x1 x2).2.1 S1024x2048.size (by sl_kernel_rfl) y

/-- What a first step leaves in the accumulator: its pieces read back over junk. -/
def sout1_A (c : Dev nD) (i : grid1.Coords) (arg3 : Memref sig .tc .vmem S1024x256 .f32) (harg3 : arg3.IsWhole) (arg4 : Memref sig .tc .vmem S2048x256 .bf16) (harg4 : arg4.IsWhole) (arg5 : Memref sig .tc .vmem S1x2048 .f32) (harg5 : arg5.IsWhole) (arg6 : Memref sig .tc .vmem S1024x2048 .f32) (harg6 : arg6.IsWhole) (arg7 : Memref sig .tc .vmem S1024x2048 .f32) (harg7 : arg7.IsWhole) (hc0 : cond1_0 i) (hc1 : ¬cond1_1 i)
    (x0 : Vec F S1024x256 .f32) (x1 : Vec F S2048x256 .bf16) (x2 : Vec F S1x2048 .f32) : Vec F S1024x2048 .f32 :=
  VS1_0.read (Elt F) (VS1_0.writes (Elt F) VS1_0.junk (kernelRun1_A c i arg3 harg3 arg4 harg4 arg5 harg5 arg6 harg6 arg7 harg7 hc0 hc1 x0 x1 x2).2.1)

set_option maxHeartbeats 1000000 in
/-- A first step leaves zero plus the product of the two blocks: the zero block is stored, read
    back, and the product added to it. -/
theorem sout1_A_eq (c : Dev nD) (i : grid1.Coords) (arg3 : Memref sig .tc .vmem S1024x256 .f32) (harg3 : arg3.IsWhole) (arg4 : Memref sig .tc .vmem S2048x256 .bf16) (harg4 : arg4.IsWhole) (arg5 : Memref sig .tc .vmem S1x2048 .f32) (harg5 : arg5.IsWhole) (arg6 : Memref sig .tc .vmem S1024x2048 .f32) (harg6 : arg6.IsWhole) (arg7 : Memref sig .tc .vmem S1024x2048 .f32) (harg7 : arg7.IsWhole) (hc0 : cond1_0 i) (hc1 : ¬cond1_1 i)
    (x0 : Vec F S1024x256 .f32) (x1 : Vec F S2048x256 .bf16) (x2 : Vec F S1x2048 .f32) :
    sout1_A c i arg3 harg3 arg4 harg4 arg5 harg5 arg6 harg6 arg7 harg7 hc0 hc1 x0 x1 x2 = k1_pay2 x0 x1 (k1_pay1 (F := F)) := by
  unfold sout1_A
  rw [View.read_writes_eq_canon _ _ _ (scover1_A c i arg3 harg3 arg4 harg4 arg5 harg5 arg6 harg6 arg7 harg7 hc0 hc1 x0 x1 x2)]
  unfold kernelRun1_A
  dsimp only
  sl_unfold_words
  rw [View.canon_cons_unit_zero (S := S1024x2048) matmul_hz, View.readCov_unit_zero (S := S1024x2048) _ matmul_hz]
  simp only [View.readAt_eq_ld, harg3.read_unread, harg4.read_unread, View.ld_unit_zero (S := S1024x256) matmul_hz,
    View.ld_unit_zero (S := S2048x256) matmul_hz]

/-! ## Inner step of a reduction -/

/-- The accumulator's one piece at an inner step covers it. -/
theorem scover1_B (c : Dev nD) (i : grid1.Coords) (arg3 : Memref sig .tc .vmem S1024x256 .f32) (harg3 : arg3.IsWhole) (arg4 : Memref sig .tc .vmem S2048x256 .bf16) (harg4 : arg4.IsWhole) (arg5 : Memref sig .tc .vmem S1x2048 .f32) (harg5 : arg5.IsWhole) (arg6 : Memref sig .tc .vmem S1024x2048 .f32) (harg6 : arg6.IsWhole) (arg7 : Memref sig .tc .vmem S1024x2048 .f32) (harg7 : arg7.IsWhole) (hc0 : ¬cond1_0 i) (hc1 : ¬cond1_1 i)
    (x0 : Vec F S1024x256 .f32) (x1 : Vec F S2048x256 .bf16) (x2 : Vec F S1x2048 .f32) (xs0 : Vec F S1024x2048 .f32) (y : S1024x2048.Idx) :
    ∃ pc ∈ (kernelRun1_B c i arg3 harg3 arg4 harg4 arg5 harg5 arg6 harg6 arg7 harg7 hc0 hc1 x0 x1 x2 xs0).2.1, y ∈ pc.1.set :=
  View.cover_of_tiledL (kernelRun1_B c i arg3 harg3 arg4 harg4 arg5 harg5 arg6 harg6 arg7 harg7 hc0 hc1 x0 x1 x2 xs0).2.1 S1024x2048.size (by sl_kernel_rfl) y

/-- What an inner step leaves in the accumulator: its piece read back over junk. -/
def sout1_B (c : Dev nD) (i : grid1.Coords) (arg3 : Memref sig .tc .vmem S1024x256 .f32) (harg3 : arg3.IsWhole) (arg4 : Memref sig .tc .vmem S2048x256 .bf16) (harg4 : arg4.IsWhole) (arg5 : Memref sig .tc .vmem S1x2048 .f32) (harg5 : arg5.IsWhole) (arg6 : Memref sig .tc .vmem S1024x2048 .f32) (harg6 : arg6.IsWhole) (arg7 : Memref sig .tc .vmem S1024x2048 .f32) (harg7 : arg7.IsWhole) (hc0 : ¬cond1_0 i) (hc1 : ¬cond1_1 i)
    (x0 : Vec F S1024x256 .f32) (x1 : Vec F S2048x256 .bf16) (x2 : Vec F S1x2048 .f32) (xs0 : Vec F S1024x2048 .f32) : Vec F S1024x2048 .f32 :=
  VS1_0.read (Elt F) (VS1_0.writes (Elt F) VS1_0.junk (kernelRun1_B c i arg3 harg3 arg4 harg4 arg5 harg5 arg6 harg6 arg7 harg7 hc0 hc1 x0 x1 x2 xs0).2.1)

set_option maxHeartbeats 1000000 in
/-- An inner step leaves the entry contents plus the product of the two blocks. -/
theorem sout1_B_eq (c : Dev nD) (i : grid1.Coords) (arg3 : Memref sig .tc .vmem S1024x256 .f32) (harg3 : arg3.IsWhole) (arg4 : Memref sig .tc .vmem S2048x256 .bf16) (harg4 : arg4.IsWhole) (arg5 : Memref sig .tc .vmem S1x2048 .f32) (harg5 : arg5.IsWhole) (arg6 : Memref sig .tc .vmem S1024x2048 .f32) (harg6 : arg6.IsWhole) (arg7 : Memref sig .tc .vmem S1024x2048 .f32) (harg7 : arg7.IsWhole) (hc0 : ¬cond1_0 i) (hc1 : ¬cond1_1 i)
    (x0 : Vec F S1024x256 .f32) (x1 : Vec F S2048x256 .bf16) (x2 : Vec F S1x2048 .f32) (xs0 : Vec F S1024x2048 .f32) :
    sout1_B c i arg3 harg3 arg4 harg4 arg5 harg5 arg6 harg6 arg7 harg7 hc0 hc1 x0 x1 x2 xs0 = k1_pay2 x0 x1 xs0 := by
  unfold sout1_B
  rw [View.read_writes_eq_canon _ _ _ (scover1_B c i arg3 harg3 arg4 harg4 arg5 harg5 arg6 harg6 arg7 harg7 hc0 hc1 x0 x1 x2 xs0)]
  unfold kernelRun1_B
  dsimp only
  sl_unfold_words
  rw [View.canon_unit_zero (S := S1024x2048) matmul_hz]
  simp only [View.readAt_eq_ld, harg3.read_unread, harg4.read_unread, harg7.read_unread, View.ld_unit_zero (S := S1024x256) matmul_hz,
    View.ld_unit_zero (S := S2048x256) matmul_hz, View.ld_unit_zero (S := S1024x2048) matmul_hz]

/-! ## Last step of a reduction -/

/-- The accumulator's one piece at a last step covers it. -/
theorem scover1_C (c : Dev nD) (i : grid1.Coords) (arg3 : Memref sig .tc .vmem S1024x256 .f32) (harg3 : arg3.IsWhole) (arg4 : Memref sig .tc .vmem S2048x256 .bf16) (harg4 : arg4.IsWhole) (arg5 : Memref sig .tc .vmem S1x2048 .f32) (harg5 : arg5.IsWhole) (arg6 : Memref sig .tc .vmem S1024x2048 .f32) (harg6 : arg6.IsWhole) (arg7 : Memref sig .tc .vmem S1024x2048 .f32) (harg7 : arg7.IsWhole) (hc0 : ¬cond1_0 i) (hc1 : cond1_1 i)
    (x0 : Vec F S1024x256 .f32) (x1 : Vec F S2048x256 .bf16) (x2 : Vec F S1x2048 .f32) (xs0 : Vec F S1024x2048 .f32) (y : S1024x2048.Idx) :
    ∃ pc ∈ (kernelRun1_C c i arg3 harg3 arg4 harg4 arg5 harg5 arg6 harg6 arg7 harg7 hc0 hc1 x0 x1 x2 xs0).2.1, y ∈ pc.1.set :=
  View.cover_of_tiledL (kernelRun1_C c i arg3 harg3 arg4 harg4 arg5 harg5 arg6 harg6 arg7 harg7 hc0 hc1 x0 x1 x2 xs0).2.1 S1024x2048.size (by sl_kernel_rfl) y

/-- What a last step leaves in the accumulator: its piece read back over junk. -/
def sout1_C (c : Dev nD) (i : grid1.Coords) (arg3 : Memref sig .tc .vmem S1024x256 .f32) (harg3 : arg3.IsWhole) (arg4 : Memref sig .tc .vmem S2048x256 .bf16) (harg4 : arg4.IsWhole) (arg5 : Memref sig .tc .vmem S1x2048 .f32) (harg5 : arg5.IsWhole) (arg6 : Memref sig .tc .vmem S1024x2048 .f32) (harg6 : arg6.IsWhole) (arg7 : Memref sig .tc .vmem S1024x2048 .f32) (harg7 : arg7.IsWhole) (hc0 : ¬cond1_0 i) (hc1 : cond1_1 i)
    (x0 : Vec F S1024x256 .f32) (x1 : Vec F S2048x256 .bf16) (x2 : Vec F S1x2048 .f32) (xs0 : Vec F S1024x2048 .f32) : Vec F S1024x2048 .f32 :=
  VS1_0.read (Elt F) (VS1_0.writes (Elt F) VS1_0.junk (kernelRun1_C c i arg3 harg3 arg4 harg4 arg5 harg5 arg6 harg6 arg7 harg7 hc0 hc1 x0 x1 x2 xs0).2.1)

/-- The output block's one piece at a last step covers it. -/
theorem cover1_C_3 (c : Dev nD) (i : grid1.Coords) (arg3 : Memref sig .tc .vmem S1024x256 .f32) (harg3 : arg3.IsWhole) (arg4 : Memref sig .tc .vmem S2048x256 .bf16) (harg4 : arg4.IsWhole) (arg5 : Memref sig .tc .vmem S1x2048 .f32) (harg5 : arg5.IsWhole) (arg6 : Memref sig .tc .vmem S1024x2048 .f32) (harg6 : arg6.IsWhole) (arg7 : Memref sig .tc .vmem S1024x2048 .f32) (harg7 : arg7.IsWhole) (hc0 : ¬cond1_0 i) (hc1 : cond1_1 i)
    (x0 : Vec F S1024x256 .f32) (x1 : Vec F S2048x256 .bf16) (x2 : Vec F S1x2048 .f32) (xs0 : Vec F S1024x2048 .f32) (y : S1024x2048.Idx) :
    ∃ pc ∈ (kernelRun1_C c i arg3 harg3 arg4 harg4 arg5 harg5 arg6 harg6 arg7 harg7 hc0 hc1 x0 x1 x2 xs0).1, y ∈ pc.1.set :=
  View.cover_of_tiledL (kernelRun1_C c i arg3 harg3 arg4 harg4 arg5 harg5 arg6 harg6 arg7 harg7 hc0 hc1 x0 x1 x2 xs0).1 S1024x2048.size (by sl_kernel_rfl) y

/-- What a last step leaves in the output block: its piece read back over junk. -/
def out1_C_3 (c : Dev nD) (i : grid1.Coords) (arg3 : Memref sig .tc .vmem S1024x256 .f32) (harg3 : arg3.IsWhole) (arg4 : Memref sig .tc .vmem S2048x256 .bf16) (harg4 : arg4.IsWhole) (arg5 : Memref sig .tc .vmem S1x2048 .f32) (harg5 : arg5.IsWhole) (arg6 : Memref sig .tc .vmem S1024x2048 .f32) (harg6 : arg6.IsWhole) (arg7 : Memref sig .tc .vmem S1024x2048 .f32) (harg7 : arg7.IsWhole) (hc0 : ¬cond1_0 i) (hc1 : cond1_1 i)
    (x0 : Vec F S1024x256 .f32) (x1 : Vec F S2048x256 .bf16) (x2 : Vec F S1x2048 .f32) (xs0 : Vec F S1024x2048 .f32) : Vec F S1024x2048 .f32 :=
  VO1_3.read (Elt F) (VO1_3.writes (Elt F) VO1_3.junk (kernelRun1_C c i arg3 harg3 arg4 harg4 arg5 harg5 arg6 harg6 arg7 harg7 hc0 hc1 x0 x1 x2 xs0).1)

set_option maxHeartbeats 1000000 in
/-- A last step leaves in the accumulator the entry contents plus the product of the two blocks. -/
theorem sout1_C_eq (c : Dev nD) (i : grid1.Coords) (arg3 : Memref sig .tc .vmem S1024x256 .f32) (harg3 : arg3.IsWhole) (arg4 : Memref sig .tc .vmem S2048x256 .bf16) (harg4 : arg4.IsWhole) (arg5 : Memref sig .tc .vmem S1x2048 .f32) (harg5 : arg5.IsWhole) (arg6 : Memref sig .tc .vmem S1024x2048 .f32) (harg6 : arg6.IsWhole) (arg7 : Memref sig .tc .vmem S1024x2048 .f32) (harg7 : arg7.IsWhole) (hc0 : ¬cond1_0 i) (hc1 : cond1_1 i)
    (x0 : Vec F S1024x256 .f32) (x1 : Vec F S2048x256 .bf16) (x2 : Vec F S1x2048 .f32) (xs0 : Vec F S1024x2048 .f32) :
    sout1_C c i arg3 harg3 arg4 harg4 arg5 harg5 arg6 harg6 arg7 harg7 hc0 hc1 x0 x1 x2 xs0 = k1_pay2 x0 x1 xs0 := by
  unfold sout1_C
  rw [View.read_writes_eq_canon _ _ _ (scover1_C c i arg3 harg3 arg4 harg4 arg5 harg5 arg6 harg6 arg7 harg7 hc0 hc1 x0 x1 x2 xs0)]
  unfold kernelRun1_C
  dsimp only
  sl_unfold_words
  rw [View.canon_unit_zero (S := S1024x2048) matmul_hz]
  simp only [View.readAt_eq_ld, harg3.read_unread, harg4.read_unread, harg7.read_unread, View.ld_unit_zero (S := S1024x256) matmul_hz,
    View.ld_unit_zero (S := S2048x256) matmul_hz, View.ld_unit_zero (S := S1024x2048) matmul_hz]

set_option maxHeartbeats 1000000 in
/-- And in the output block that sum, read back from the accumulator, plus the bias row
    broadcast along the rows. -/
theorem out1_C_3_eq (c : Dev nD) (i : grid1.Coords) (arg3 : Memref sig .tc .vmem S1024x256 .f32) (harg3 : arg3.IsWhole) (arg4 : Memref sig .tc .vmem S2048x256 .bf16) (harg4 : arg4.IsWhole) (arg5 : Memref sig .tc .vmem S1x2048 .f32) (harg5 : arg5.IsWhole) (arg6 : Memref sig .tc .vmem S1024x2048 .f32) (harg6 : arg6.IsWhole) (arg7 : Memref sig .tc .vmem S1024x2048 .f32) (harg7 : arg7.IsWhole) (hc0 : ¬cond1_0 i) (hc1 : cond1_1 i)
    (x0 : Vec F S1024x256 .f32) (x1 : Vec F S2048x256 .bf16) (x2 : Vec F S1x2048 .f32) (xs0 : Vec F S1024x2048 .f32) :
    out1_C_3 c i arg3 harg3 arg4 harg4 arg5 harg5 arg6 harg6 arg7 harg7 hc0 hc1 x0 x1 x2 xs0 = k1_pay3 (k1_pay2 x0 x1 xs0) x2 := by
  unfold out1_C_3
  rw [View.read_writes_eq_canon _ _ _ (cover1_C_3 c i arg3 harg3 arg4 harg4 arg5 harg5 arg6 harg6 arg7 harg7 hc0 hc1 x0 x1 x2 xs0)]
  unfold kernelRun1_C
  dsimp only
  sl_unfold_words
  rw [View.canon_unit_zero (S := S1024x2048) matmul_hz, View.readCov_unit_zero (S := S1024x2048) _ matmul_hz]
  simp only [View.readAt_eq_ld, harg3.read_unread, harg4.read_unread, harg5.read_unread, harg7.read_unread,
    View.ld_unit_zero (S := S1024x256) matmul_hz, View.ld_unit_zero (S := S2048x256) matmul_hz,
    View.ld_unit_zero (S := S1024x2048) matmul_hz, View.ld_unit_zero (S := S1x2048) matmul_hz]

end Cert.Kernel.Hand

end
-- ==== Proof.K.MatmulData.lean ====
/-
  The matrix-product region's proof data. The accumulator the body carries from one grid point to the next holds,
  after the body at a point, the product of that point's activation block and masked-weight block added to what the
  point before left, or to zero at the first step of a reduction; the output block stored at the last step of a
  reduction is that accumulator plus the bias row. The region's invariant names the accumulator's contents between points.
-/
import proofs.«155001_j23046794510859_2_alg».proof.Proof.K.MatmulShared

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The scoped buffers that are none of this region's staging buffers -/

/-- The other region's staging buffers, each whole at some contents. -/
def otherStg (c : Dev nD) : sProp 𝕄 :=
  iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg3_1), ((c : Thread nD τ).loc cc0_stg3_1) ↦{fullShare} f))

/-- They, beside the accumulator's buffer in state `S`. -/
def stgRest (c : Dev nD) (S : sProp 𝕄) : sProp 𝕄 :=
  iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg3_1), ((c : Thread nD τ).loc cc0_stg3_1) ↦{fullShare} f) ∗ S)

theorem stgRest_out (c : Dev nD) (S : sProp 𝕄) : stgRest (F := F) c S ⊢ iprop(otherStg (F := F) c ∗ S) := by
  unfold stgRest otherStg
  iintro ⟨H1, H2, H3, H4, H5, H6, H7, H8, HS⟩
  isplitl [H1 H2 H3 H4 H5 H6 H7 H8]
  · isplitl [H1]; · iexact H1
    isplitl [H2]; · iexact H2
    isplitl [H3]; · iexact H3
    isplitl [H4]; · iexact H4
    isplitl [H5]; · iexact H5
    isplitl [H6]; · iexact H6
    isplitl [H7]; · iexact H7
    iexact H8
  iexact HS

theorem stgRest_in (c : Dev nD) (S : sProp 𝕄) : iprop(otherStg (F := F) c ∗ S) ⊢ stgRest (F := F) c S := by
  unfold stgRest otherStg
  iintro ⟨⟨H1, H2, H3, H4, H5, H6, H7, H8⟩, HS⟩
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  iexact HS

/-- The class invariant with the accumulator as a memref owned at some contents. -/
theorem PhiA1_eq (c : Dev nD) :
    (Pipeline.ΦA spec1 c : sProp 𝕄)
      = iprop(stgRest (F := F) c (iprop(∃ d, owns (c : Thread nD τ) scM1_0 fullShare d)) ∗ (∃ r, prngReg c r)) := by
  unfold Pipeline.ΦA stgRest; rw [scopedRest1_eq]; simp only [scM1_0, owns_whole]; try rfl

variable (V : (c : Dev nD) → (b : Ref sig .tc) → Buf (Elt F) ((c : Thread nD τ).loc b))

/-! ## The windows' blocks -/

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's current staging buffer holds its block at every point, fetched there or not. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-! ## The accumulator after each point -/

/-- What the accumulator holds after the body at position `n`: this point's product added to zero at the first step
    of a reduction (positions ≡ 0 mod 16), to what the point before left otherwise. -/
def acc1 (c : Dev nD) : (n : ℕ) → n < cfg1.N → Vec F S1024x2048 .f32
  | 0, hn => k1_pay2 (iblk1 V c 0 ⟨0, hn⟩) (iblk1 V c 1 ⟨0, hn⟩) (k1_pay1 (F := F))
  | n + 1, hn =>
    if (n + 1) % 16 = 0 then k1_pay2 (iblk1 V c 0 ⟨n + 1, hn⟩) (iblk1 V c 1 ⟨n + 1, hn⟩) (k1_pay1 (F := F))
    else k1_pay2 (iblk1 V c 0 ⟨n + 1, hn⟩) (iblk1 V c 1 ⟨n + 1, hn⟩) (acc1 c n (Nat.lt_of_succ_lt hn))

theorem acc1_first (c : Dev nD) (t : Fin cfg1.N) (h0 : t.val % 16 = 0) :
    acc1 V c t.val t.isLt = k1_pay2 (iblk1 V c 0 t) (iblk1 V c 1 t) (k1_pay1 (F := F)) := by
  obtain ⟨n, hn⟩ := t
  cases n with
  | zero => exact rfl
  | succ n => exact (if_pos h0).trans rfl

theorem acc1_next (c : Dev nD) (t : Fin cfg1.N) (h0 : ¬t.val % 16 = 0) :
    acc1 V c t.val t.isLt = k1_pay2 (iblk1 V c 0 t) (iblk1 V c 1 t) (acc1 V c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact (if_neg h0).trans rfl

/-! ## The region's invariant -/

/-- Before position `n`: at the first point the class's invariant (every scoped buffer at anything); afterwards the
    accumulator at what the point before left, the other scoped buffers at anything, the generator register at some state. -/
def PhiS1 (c : Dev nD) : (n : ℕ) → n ≤ cfg1.N → sProp 𝕄
  | 0, _ => Pipeline.ΦA spec1 c
  | n + 1, hn => iprop(stgRest (F := F) c (owns (c : Thread nD τ) scM1_0 fullShare (acc1 V c n hn)) ∗ (∃ r, prngReg c r))

theorem PhiS1_zero (c : Dev nD) (n : ℕ) (h : n ≤ cfg1.N) (hz : n = 0) : PhiS1 V c n h = Pipeline.ΦA spec1 c := by
  subst hz; rfl
theorem PhiS1_succ (c : Dev nD) (n : ℕ) (hn : n < cfg1.N) :
    PhiS1 V c (n + 1) hn = iprop(stgRest (F := F) c (owns (c : Thread nD τ) scM1_0 fullShare (acc1 V c n hn)) ∗ (∃ r, prngReg c r)) := rfl
theorem PhiS1_pos (c : Dev nD) (n : ℕ) (h : n ≤ cfg1.N) (hz : n ≠ 0) :
    PhiS1 V c n h = iprop(stgRest (F := F) c (owns (c : Thread nD τ) scM1_0 fullShare (acc1 V c (n - 1) (by omega))) ∗ (∃ r, prngReg c r)) := by
  cases n with
  | zero => exact absurd rfl hz
  | succ n => rfl

/-! ## The proof data -/

/-- The arrays as the region finds them; after the body at a point each input's buffer at its block and the output's at
    the accumulator plus the bias row (consulted only where the block is stored); the invariant above; nothing owed. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => k1_pay3 (acc1 V c t.val t.isLt) (iblk1 V c 2 t)
  Φ t := PhiS1 V c t.val (Nat.le_of_lt_succ t.isLt)
  q _ := fullShare
  owed _ := 0

theorem A_eq1 (c : Dev nD) (w : Fin cfg1.W) : (dat1 V c).A w = V c (Pipeline.arrRef spec1 w) := by
  dsimp only [dat1]
theorem PhiS1_castSucc (c : Dev nD) (t : Fin cfg1.N) :
    (dat1 V c).Φ t.castSucc = PhiS1 V c t.val (Nat.le_of_lt t.isLt) := by
  dsimp only [dat1]; simp only [Fin.coe_castSucc]
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = k1_pay3 (acc1 V c t.val t.isLt) (iblk1 V c 2 t) := by dsimp only [dat1]
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

end Cert.Kernel.Hand

end
-- ==== Proof.K.Matmul.lean ====
/-
  The matrix-product region's body obligation: the body's run in each of its three control cases (first step of a
  reduction, inner step, last step) meets the invariant that names the accumulator's contents between points.
-/
import proofs.«155001_j23046794510859_2_alg».proof.Proof.K.MatmulPieces
import proofs.«155001_j23046794510859_2_alg».proof.Proof.K.MatmulData

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The body obligation -/

def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d)))

def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t)

set_option maxHeartbeats 4800000 in
/-- The body at any point: the inputs' memrefs hold their blocks; the position modulo 16 says which control case the
    point is in; the invariant hands the body the accumulator at what the point before left (at anything at the first
    point) and takes it back at this point's contents; the output's buffer is handed back untouched except at the last
    step of a reduction, where it is stored whole. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).owesAt () t.succ = (dat1 V c).owesAt () t.castSucc from rfl]
  rw [show (dat1 V c).Φ t.succ = PhiS1 V c (t.val + 1) t.isLt from rfl, PhiS1_succ]
  have hN : t.val < 256 := lt_of_lt_of_eq t.isLt (show cfg1.N = 256 from N_1)
  rw [show (dat1 V c).leavesExact 0 t = owns (c : Thread nD τ) (ms1_0 t) fullShare ((dat1 V c).after 0 t) from by
    unfold Dat.leavesExact; rw [liveAt1_0 t], after1_0]
  rw [show (dat1 V c).leavesExact 1 t = owns (c : Thread nD τ) (ms1_1 t) fullShare ((dat1 V c).after 1 t) from by
    unfold Dat.leavesExact; rw [liveAt1_1 t], after1_1]
  rw [show (dat1 V c).leavesExact 2 t = owns (c : Thread nD τ) (ms1_2 t) fullShare ((dat1 V c).after 2 t) from by
    unfold Dat.leavesExact; rw [liveAt1_2 t], after1_2]
  by_cases h0 : t.val % 16 = 0
  · by_cases h1 : t.val % 16 = 15
    · exfalso; omega
    · rw [Dat.leavesExact_idle (dat1 V c) 3 t (idleAt1_3_A t ((hcond1_0 t).mpr h0) (fun h => h1 ((hcond1_1 t).mp h))) (noFlush1_3_A t ((hcond1_0 t).mpr h0) (fun h => h1 ((hcond1_1 t).mp h)))]
      rw [acc1_first V c t h0, ← sout1_A_eq c (grid1.coords t) (ms1_0 t) (hs1_0 t) (ms1_1 t) (hs1_1 t) (ms1_2 t) (hs1_2 t) (ms1_3 t) (hs1_3 t) scM1_0 (Memref.isWhole_whole _) ((hcond1_0 t).mpr h0) (fun h => h1 ((hcond1_1 t).mp h)) (iblk1 V c 0 t) (iblk1 V c 1 t) (iblk1 V c 2 t)]
      unfold sout1_A; (try dsimp only)
      by_cases hz : t.val = 0
      · rw [PhiS1_castSucc V c t, PhiS1_zero V c _ _ hz, PhiA1_eq]
        iintro ⟨⟨HR, Hg⟩, Ho, ⟨%d0, H0⟩, ⟨%d1, H1⟩, ⟨%d2, H2⟩, ⟨%d3, H3⟩⟩
        ihave HR' := (stgRest_out c _) $$ HR
        icases HR' with ⟨Hoth, HS0⟩
        iapply ((kernelRun1_A c (grid1.coords t) (ms1_0 t) (hs1_0 t) (ms1_1 t) (hs1_1 t) (ms1_2 t) (hs1_2 t) (ms1_3 t) (hs1_3 t) scM1_0 (Memref.isWhole_whole _) ((hcond1_0 t).mpr h0) (fun h => h1 ((hcond1_1 t).mp h)) (iblk1 V c 0 t) (iblk1 V c 1 t) (iblk1 V c 2 t)).2.2 _ Set.univ _)
        isplitl [H0]; · iexact H0
        isplitl [H1]; · iexact H1
        isplitl [H2]; · iexact H2
        isplitl [H3]; · iexact H3
        isplitl [HS0]; · iexact HS0
        iintro ⟨H0, H1, H2, H3, ⟨%es0, HS0⟩⟩
        isplitl [HS0 Hoth Hg]
        · isplitl [HS0 Hoth]
          · iapply (stgRest_in c _)
            isplitl [Hoth]; · iexact Hoth
            unfold owns; iexists _; isplitr
            swap; · iexact HS0
            ipureintro; exact View.read_writes_of_cover _ _ _ _ _ (scover1_A c (grid1.coords t) (ms1_0 t) (hs1_0 t) (ms1_1 t) (hs1_1 t) (ms1_2 t) (hs1_2 t) (ms1_3 t) (hs1_3 t) scM1_0 (Memref.isWhole_whole _) ((hcond1_0 t).mpr h0) (fun h => h1 ((hcond1_1 t).mp h)) (iblk1 V c 0 t) (iblk1 V c 1 t) (iblk1 V c 2 t))
          iexact Hg
        isplitl [Ho]; · iexact Ho
        isplitl [H0]; · iexact H0
        isplitl [H1]; · iexact H1
        isplitl [H2]; · iexact H2
        iexists _; iexact H3
      · rw [PhiS1_castSucc V c t, PhiS1_pos V c _ _ hz]
        iintro ⟨⟨HR, Hg⟩, Ho, ⟨%d0, H0⟩, ⟨%d1, H1⟩, ⟨%d2, H2⟩, ⟨%d3, H3⟩⟩
        ihave HR' := (stgRest_out c _) $$ HR
        icases HR' with ⟨Hoth, HS0⟩
        iapply ((kernelRun1_A c (grid1.coords t) (ms1_0 t) (hs1_0 t) (ms1_1 t) (hs1_1 t) (ms1_2 t) (hs1_2 t) (ms1_3 t) (hs1_3 t) scM1_0 (Memref.isWhole_whole _) ((hcond1_0 t).mpr h0) (fun h => h1 ((hcond1_1 t).mp h)) (iblk1 V c 0 t) (iblk1 V c 1 t) (iblk1 V c 2 t)).2.2 _ Set.univ _)
        isplitl [H0]; · iexact H0
        isplitl [H1]; · iexact H1
        isplitl [H2]; · iexact H2
        isplitl [H3]; · iexact H3
        isplitl [HS0]; · iexists _; iexact HS0
        iintro ⟨H0, H1, H2, H3, ⟨%es0, HS0⟩⟩
        isplitl [HS0 Hoth Hg]
        · isplitl [HS0 Hoth]
          · iapply (stgRest_in c _)
            isplitl [Hoth]; · iexact Hoth
            unfold owns; iexists _; isplitr
            swap; · iexact HS0
            ipureintro; exact View.read_writes_of_cover _ _ _ _ _ (scover1_A c (grid1.coords t) (ms1_0 t) (hs1_0 t) (ms1_1 t) (hs1_1 t) (ms1_2 t) (hs1_2 t) (ms1_3 t) (hs1_3 t) scM1_0 (Memref.isWhole_whole _) ((hcond1_0 t).mpr h0) (fun h => h1 ((hcond1_1 t).mp h)) (iblk1 V c 0 t) (iblk1 V c 1 t) (iblk1 V c 2 t))
          iexact Hg
        isplitl [Ho]; · iexact Ho
        isplitl [H0]; · iexact H0
        isplitl [H1]; · iexact H1
        isplitl [H2]; · iexact H2
        iexists _; iexact H3
  · by_cases h1 : t.val % 16 = 15
    · rw [show (dat1 V c).leavesExact 3 t = owns (c : Thread nD τ) (ms1_3 t) fullShare ((dat1 V c).after 3 t) from by
        unfold Dat.leavesExact; rw [liveAt1_3_C t (fun h => h0 ((hcond1_0 t).mp h)) ((hcond1_1 t).mpr h1)], after1_3]
      rw [acc1_next V c t h0, ← out1_C_3_eq c (grid1.coords t) (ms1_0 t) (hs1_0 t) (ms1_1 t) (hs1_1 t) (ms1_2 t) (hs1_2 t) (ms1_3 t) (hs1_3 t) scM1_0 (Memref.isWhole_whole _) (fun h => h0 ((hcond1_0 t).mp h)) ((hcond1_1 t).mpr h1) (iblk1 V c 0 t) (iblk1 V c 1 t) (iblk1 V c 2 t) (acc1 V c (t.val - 1) (Nat.lt_of_le_of_lt (Nat.sub_le _ _) t.isLt)),
        ← sout1_C_eq c (grid1.coords t) (ms1_0 t) (hs1_0 t) (ms1_1 t) (hs1_1 t) (ms1_2 t) (hs1_2 t) (ms1_3 t) (hs1_3 t) scM1_0 (Memref.isWhole_whole _) (fun h => h0 ((hcond1_0 t).mp h)) ((hcond1_1 t).mpr h1) (iblk1 V c 0 t) (iblk1 V c 1 t) (iblk1 V c 2 t) (acc1 V c (t.val - 1) (Nat.lt_of_le_of_lt (Nat.sub_le _ _) t.isLt))]
      unfold out1_C_3 sout1_C; (try dsimp only)
      by_cases hz : t.val = 0
      · exfalso; omega
      · rw [PhiS1_castSucc V c t, PhiS1_pos V c _ _ hz]
        iintro ⟨⟨HR, Hg⟩, Ho, ⟨%d0, H0⟩, ⟨%d1, H1⟩, ⟨%d2, H2⟩, ⟨%d3, H3⟩⟩
        ihave HR' := (stgRest_out c _) $$ HR
        icases HR' with ⟨Hoth, HS0⟩
        iapply ((kernelRun1_C c (grid1.coords t) (ms1_0 t) (hs1_0 t) (ms1_1 t) (hs1_1 t) (ms1_2 t) (hs1_2 t) (ms1_3 t) (hs1_3 t) scM1_0 (Memref.isWhole_whole _) (fun h => h0 ((hcond1_0 t).mp h)) ((hcond1_1 t).mpr h1) (iblk1 V c 0 t) (iblk1 V c 1 t) (iblk1 V c 2 t) _).2.2 Set.univ _)
        isplitl [H0]; · iexact H0
        isplitl [H1]; · iexact H1
        isplitl [H2]; · iexact H2
        isplitl [H3]; · iexists _; iexact H3
        isplitl [HS0]; · iexact HS0
        iintro ⟨H0, H1, H2, ⟨%e3, H3⟩, ⟨%es0, HS0⟩⟩
        isplitl [HS0 Hoth Hg]
        · isplitl [HS0 Hoth]
          · iapply (stgRest_in c _)
            isplitl [Hoth]; · iexact Hoth
            unfold owns; iexists _; isplitr
            swap; · iexact HS0
            ipureintro; exact View.read_writes_of_cover _ _ _ _ _ (scover1_C c (grid1.coords t) (ms1_0 t) (hs1_0 t) (ms1_1 t) (hs1_1 t) (ms1_2 t) (hs1_2 t) (ms1_3 t) (hs1_3 t) scM1_0 (Memref.isWhole_whole _) (fun h => h0 ((hcond1_0 t).mp h)) ((hcond1_1 t).mpr h1) (iblk1 V c 0 t) (iblk1 V c 1 t) (iblk1 V c 2 t) _)
          iexact Hg
        isplitl [Ho]; · iexact Ho
        isplitl [H0]; · iexact H0
        isplitl [H1]; · iexact H1
        isplitl [H2]; · iexact H2
        unfold owns; iexists _; isplitr
        swap; · iexact H3
        ipureintro; exact View.read_writes_of_cover _ _ _ _ _ (cover1_C_3 c (grid1.coords t) (ms1_0 t) (hs1_0 t) (ms1_1 t) (hs1_1 t) (ms1_2 t) (hs1_2 t) (ms1_3 t) (hs1_3 t) scM1_0 (Memref.isWhole_whole _) (fun h => h0 ((hcond1_0 t).mp h)) ((hcond1_1 t).mpr h1) (iblk1 V c 0 t) (iblk1 V c 1 t) (iblk1 V c 2 t) _)
    · rw [Dat.leavesExact_idle (dat1 V c) 3 t (idleAt1_3_B t (fun h => h0 ((hcond1_0 t).mp h)) (fun h => h1 ((hcond1_1 t).mp h))) (noFlush1_3_B t (fun h => h0 ((hcond1_0 t).mp h)) (fun h => h1 ((hcond1_1 t).mp h)))]
      rw [acc1_next V c t h0, ← sout1_B_eq c (grid1.coords t) (ms1_0 t) (hs1_0 t) (ms1_1 t) (hs1_1 t) (ms1_2 t) (hs1_2 t) (ms1_3 t) (hs1_3 t) scM1_0 (Memref.isWhole_whole _) (fun h => h0 ((hcond1_0 t).mp h)) (fun h => h1 ((hcond1_1 t).mp h)) (iblk1 V c 0 t) (iblk1 V c 1 t) (iblk1 V c 2 t) (acc1 V c (t.val - 1) (Nat.lt_of_le_of_lt (Nat.sub_le _ _) t.isLt))]
      unfold sout1_B; (try dsimp only)
      by_cases hz : t.val = 0
      · exfalso; omega
      · rw [PhiS1_castSucc V c t, PhiS1_pos V c _ _ hz]
        iintro ⟨⟨HR, Hg⟩, Ho, ⟨%d0, H0⟩, ⟨%d1, H1⟩, ⟨%d2, H2⟩, ⟨%d3, H3⟩⟩
        ihave HR' := (stgRest_out c _) $$ HR
        icases HR' with ⟨Hoth, HS0⟩
        iapply ((kernelRun1_B c (grid1.coords t) (ms1_0 t) (hs1_0 t) (ms1_1 t) (hs1_1 t) (ms1_2 t) (hs1_2 t) (ms1_3 t) (hs1_3 t) scM1_0 (Memref.isWhole_whole _) (fun h => h0 ((hcond1_0 t).mp h)) (fun h => h1 ((hcond1_1 t).mp h)) (iblk1 V c 0 t) (iblk1 V c 1 t) (iblk1 V c 2 t) _).2.2 _ Set.univ _)
        isplitl [H0]; · iexact H0
        isplitl [H1]; · iexact H1
        isplitl [H2]; · iexact H2
        isplitl [H3]; · iexact H3
        isplitl [HS0]; · iexact HS0
        iintro ⟨H0, H1, H2, H3, ⟨%es0, HS0⟩⟩
        isplitl [HS0 Hoth Hg]
        · isplitl [HS0 Hoth]
          · iapply (stgRest_in c _)
            isplitl [Hoth]; · iexact Hoth
            unfold owns; iexists _; isplitr
            swap; · iexact HS0
            ipureintro; exact View.read_writes_of_cover _ _ _ _ _ (scover1_B c (grid1.coords t) (ms1_0 t) (hs1_0 t) (ms1_1 t) (hs1_1 t) (ms1_2 t) (hs1_2 t) (ms1_3 t) (hs1_3 t) scM1_0 (Memref.isWhole_whole _) (fun h => h0 ((hcond1_0 t).mp h)) (fun h => h1 ((hcond1_1 t).mp h)) (iblk1 V c 0 t) (iblk1 V c 1 t) (iblk1 V c 2 t) _)
          iexact Hg
        isplitl [Ho]; · iexact Ho
        isplitl [H0]; · iexact H0
        isplitl [H1]; · iexact H1
        isplitl [H2]; · iexact H2
        iexists _; iexact H3

/-- The library's body obligation, at every point. -/
theorem body_obligation1 (c : Dev nD) : BodyObligation (dat1 (F := F) V c) (defs₀ (F := F)) Variants.none () Set.univ := fun t => by
  rw [bigSep_W1, bigSep_W1]
  exact sound_body1 V c t

/-- What the launch hands the region is the invariant before the first point. -/
theorem hin1 (c : Dev nD) : Pipeline.ΦA spec1 c ⊢ (dat1 V c).Φ 0 := by
  rw [show (dat1 V c).Φ 0 = PhiS1 V c 0 (Nat.zero_le _) from rfl, PhiS1_zero V c 0 _ rfl]
  try exact Idealize.SL.BI.Entails.refl _

/-- After any point but the first the invariant gives the class's back: the accumulator's contents are forgotten. -/
theorem Phi_out1 (c : Dev nD) (t : Fin (cfg1.N + 1)) (ht : t.val ≠ 0) : (dat1 V c).Φ t ⊢ Pipeline.ΦA spec1 c := by
  rw [show (dat1 V c).Φ t = PhiS1 V c t.val (Nat.le_of_lt_succ t.isLt) from rfl, PhiS1_pos V c _ _ ht, PhiA1_eq]
  iintro ⟨HR, Hg⟩
  ihave HR' := (stgRest_out c _) $$ HR
  icases HR' with ⟨Hoth, HS0⟩
  isplitl [Hoth HS0]
  · iapply (stgRest_in c _)
    isplitl [Hoth]; · iexact Hoth
    iexists _; iexact HS0
  iexact Hg

theorem hout1 (c : Dev nD) : (dat1 V c).Φ (Fin.last cfg1.N) ⊢ Pipeline.ΦA spec1 c :=
  Phi_out1 V c _ (by rw [Fin.val_last]; have : cfg1.N = 256 := N_1; omega)

end Cert.Kernel.Hand

end
-- ==== Proof.K.Run.lean ====
/-
  The whole run of the program: a host slice, the masking region, a host reshape, the matrix-product region.
  Between two items a core holds every unscoped buffer whole; a region takes its windows' arrays out of them, runs its
  pipeline over its proof data, and puts the arrays back at what the write-backs leave. The last state read against the
  final memory gives every unscoped buffer's final contents: the arguments as launched, the result at what region 1's
  write-backs leave.
-/
import proofs.«155001_j23046794510859_2_alg».proof.Proof.K.Mask
import proofs.«155001_j23046794510859_2_alg».proof.Proof.K.Matmul

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers' contents between items -/

/-- Core `c`'s buffers at launch. -/
abbrev B0 : Dev nD → Valuation τ sig (Elt F) := fun c b => (s₀ m ρ).mem ((c : Dev nD), b)
/-- After the slice of the kind matrix's first row. -/
abbrev B1 : Dev nD → Valuation τ sig (Elt F) := fun c => StableHlo.after hostOps0 (B0 m ρ c)
/-- The same at the TensorCore's references: what the masking region is entered from. -/
abbrev E1 : (c : Dev nD) → (b : Ref sig .tc) → Buf (Elt F) ((c : Thread nD τ).loc b) := fun c b => B1 m ρ c b
/-- After the masking region: its arrays at what its pipeline leaves, every other buffer as entered. -/
def B2 (c : Dev nD) : Valuation τ sig (Elt F) :=
  Pipeline.withArrays spec0 c (B1 m ρ c) fun w => (dat0 (E1 m ρ) c).arrAt w cfg0.N
theorem B2_arr (c : Dev nD) (w : Fin cfg0.W) :
    B2 m ρ c (Proc.devRef .tc (Pipeline.arrRef spec0 w)) = (dat0 (E1 m ρ) c).arrAt w cfg0.N := by
  unfold B2; exact Pipeline.withArrays_arr spec0 launch0.win.arr_inj c _ _ w
theorem B2_of_ne (c : Dev nD) (b : Ref sig .tc) (hb : ∀ w, Pipeline.arrRef spec0 w ≠ b) :
    B2 m ρ c (Proc.devRef .tc b) = B1 m ρ c (Proc.devRef .tc b) := by
  unfold B2; exact Pipeline.withArrays_of_ne spec0 c _ _ b hb
abbrev E2 : (c : Dev nD) → (b : Ref sig .tc) → Buf (Elt F) ((c : Thread nD τ).loc b) := fun c b => B2 m ρ c b
theorem hF0 (c : Dev nD) (w : Fin cfg0.W) : (dat0 (E1 m ρ) c).arrAt w cfg0.N = E2 m ρ c (Pipeline.arrRef spec0 w) :=
  (B2_arr m ρ c w).symm
theorem hrest0 (c : Dev nD) : ∀ b, b ∉ Finset.univ.image (Pipeline.arrRef spec0) → E2 m ρ c b = E1 m ρ c b :=
  fun b hb => B2_of_ne m ρ c b fun w e => hb (Finset.mem_image.mpr ⟨w, Finset.mem_univ _, e⟩)

/-- After the reshape of the bias to one row. -/
abbrev B3 : Dev nD → Valuation τ sig (Elt F) := fun c => StableHlo.after hostOps1 (B2 m ρ c)
/-- What the matrix-product region is entered from. -/
abbrev E3 : (c : Dev nD) → (b : Ref sig .tc) → Buf (Elt F) ((c : Thread nD τ).loc b) := fun c b => B3 m ρ c b
/-- After the matrix-product region. -/
def B4 (c : Dev nD) : Valuation τ sig (Elt F) :=
  Pipeline.withArrays spec1 c (B3 m ρ c) fun w => (dat1 (E3 m ρ) c).arrAt w cfg1.N
theorem B4_arr (c : Dev nD) (w : Fin cfg1.W) :
    B4 m ρ c (Proc.devRef .tc (Pipeline.arrRef spec1 w)) = (dat1 (E3 m ρ) c).arrAt w cfg1.N := by
  unfold B4; exact Pipeline.withArrays_arr spec1 launch1.win.arr_inj c _ _ w
theorem B4_of_ne (c : Dev nD) (b : Ref sig .tc) (hb : ∀ w, Pipeline.arrRef spec1 w ≠ b) :
    B4 m ρ c (Proc.devRef .tc b) = B3 m ρ c (Proc.devRef .tc b) := by
  unfold B4; exact Pipeline.withArrays_of_ne spec1 c _ _ b hb
abbrev E4 : (c : Dev nD) → (b : Ref sig .tc) → Buf (Elt F) ((c : Thread nD τ).loc b) := fun c b => B4 m ρ c b
theorem hF1 (c : Dev nD) (w : Fin cfg1.W) : (dat1 (E3 m ρ) c).arrAt w cfg1.N = E4 m ρ c (Pipeline.arrRef spec1 w) :=
  (B4_arr m ρ c w).symm
theorem hrest1 (c : Dev nD) : ∀ b, b ∉ Finset.univ.image (Pipeline.arrRef spec1) → E4 m ρ c b = E3 m ρ c b :=
  fun b hb => B4_of_ne m ρ c b fun w e => hb (Finset.mem_image.mpr ⟨w, Finset.mem_univ _, e⟩)

/-! ## A host stretch leaves every buffer it does not write -/

theorem hostOps0_keeps (Wv : Valuation τ sig (Elt F)) (b : Ref sig .tc) (hb : b ≠ main_v0) :
    StableHlo.after hostOps0 Wv (Proc.devRef .tc b) = Wv (Proc.devRef .tc b) :=
  StableHlo.after_of_forall_not_mem (b := Proc.devRef .tc b) _ _ (List.forall_iff_forall_mem.mp (by
    simp only [hostOps0, List.Forall, StableHlo.unary_writes, StableHlo.reshape_writes, Finset.mem_singleton]
    exact StableHlo.devRef_ne_of_ne hb))
theorem hostOps1_keeps (Wv : Valuation τ sig (Elt F)) (b : Ref sig .tc) (hb : b ≠ main_v2) :
    StableHlo.after hostOps1 Wv (Proc.devRef .tc b) = Wv (Proc.devRef .tc b) :=
  StableHlo.after_of_forall_not_mem (b := Proc.devRef .tc b) _ _ (List.forall_iff_forall_mem.mp (by
    simp only [hostOps1, List.Forall, StableHlo.unary_writes, StableHlo.reshape_writes, Finset.mem_singleton]
    exact StableHlo.devRef_ne_of_ne hb))

/-! ## The arguments end as launched -/

theorem B4_main_arg0 (c : Dev nD) : B4 m ρ c (Proc.devRef .tc main_arg0) = m ((c : Thread nD τ).loc main_arg0) :=
  calc B4 m ρ c (Proc.devRef .tc main_arg0)
    _ = B3 m ρ c (Proc.devRef .tc main_arg0) := (B4_arr m ρ c 0).trans (((dat1 (E3 m ρ) c).arrAt_in 0 rfl _).trans (A_eq1 (E3 m ρ) c 0))
    _ = B2 m ρ c (Proc.devRef .tc main_arg0) := hostOps1_keeps _ main_arg0 (by decide)
    _ = B1 m ρ c (Proc.devRef .tc main_arg0) := B2_of_ne m ρ c main_arg0 (by decide)
    _ = B0 m ρ c (Proc.devRef .tc main_arg0) := hostOps0_keeps _ main_arg0 (by decide)
    _ = m ((c : Thread nD τ).loc main_arg0) := rfl
theorem B4_main_arg1 (c : Dev nD) : B4 m ρ c (Proc.devRef .tc main_arg1) = m ((c : Thread nD τ).loc main_arg1) :=
  calc B4 m ρ c (Proc.devRef .tc main_arg1)
    _ = B3 m ρ c (Proc.devRef .tc main_arg1) := B4_of_ne m ρ c main_arg1 (by decide)
    _ = B2 m ρ c (Proc.devRef .tc main_arg1) := hostOps1_keeps _ main_arg1 (by decide)
    _ = B1 m ρ c (Proc.devRef .tc main_arg1) := (B2_arr m ρ c 0).trans (((dat0 (E1 m ρ) c).arrAt_in 0 rfl _).trans (A_eq0 (E1 m ρ) c 0))
    _ = B0 m ρ c (Proc.devRef .tc main_arg1) := hostOps0_keeps _ main_arg1 (by decide)
    _ = m ((c : Thread nD τ).loc main_arg1) := rfl
theorem B4_main_arg2 (c : Dev nD) : B4 m ρ c (Proc.devRef .tc main_arg2) = m ((c : Thread nD τ).loc main_arg2) :=
  calc B4 m ρ c (Proc.devRef .tc main_arg2)
    _ = B3 m ρ c (Proc.devRef .tc main_arg2) := B4_of_ne m ρ c main_arg2 (by decide)
    _ = B2 m ρ c (Proc.devRef .tc main_arg2) := hostOps1_keeps _ main_arg2 (by decide)
    _ = B1 m ρ c (Proc.devRef .tc main_arg2) := B2_of_ne m ρ c main_arg2 (by decide)
    _ = B0 m ρ c (Proc.devRef .tc main_arg2) := hostOps0_keeps _ main_arg2 (by decide)
    _ = m ((c : Thread nD τ).loc main_arg2) := rfl
theorem B4_main_arg3 (c : Dev nD) : B4 m ρ c (Proc.devRef .tc main_arg3) = m ((c : Thread nD τ).loc main_arg3) :=
  calc B4 m ρ c (Proc.devRef .tc main_arg3)
    _ = B3 m ρ c (Proc.devRef .tc main_arg3) := B4_of_ne m ρ c main_arg3 (by decide)
    _ = B2 m ρ c (Proc.devRef .tc main_arg3) := hostOps1_keeps _ main_arg3 (by decide)
    _ = B1 m ρ c (Proc.devRef .tc main_arg3) := B2_of_ne m ρ c main_arg3 (by decide)
    _ = B0 m ρ c (Proc.devRef .tc main_arg3) := hostOps0_keeps _ main_arg3 (by decide)
    _ = m ((c : Thread nD τ).loc main_arg3) := rfl
theorem B4_main_arg4 (c : Dev nD) : B4 m ρ c (Proc.devRef .tc main_arg4) = m ((c : Thread nD τ).loc main_arg4) :=
  calc B4 m ρ c (Proc.devRef .tc main_arg4)
    _ = B3 m ρ c (Proc.devRef .tc main_arg4) := B4_of_ne m ρ c main_arg4 (by decide)
    _ = B2 m ρ c (Proc.devRef .tc main_arg4) := hostOps1_keeps _ main_arg4 (by decide)
    _ = B1 m ρ c (Proc.devRef .tc main_arg4) := (B2_arr m ρ c 2).trans (((dat0 (E1 m ρ) c).arrAt_in 2 rfl _).trans (A_eq0 (E1 m ρ) c 2))
    _ = B0 m ρ c (Proc.devRef .tc main_arg4) := hostOps0_keeps _ main_arg4 (by decide)
    _ = m ((c : Thread nD τ).loc main_arg4) := rfl

/-- The result buffer ends at what region 1's write-backs leave in its output window's array. -/
theorem B4_main_v3 (c : Dev nD) : B4 m ρ c (Proc.devRef .tc main_v3) = (dat1 (E3 m ρ) c).arrAt 3 cfg1.N :=
  B4_arr m ρ c 3

/-! ## The proof data family and the thread state -/

abbrev adm : (p : Fin 2) → (pcfgs (F := F) p).Adm := fun p => (cfgs p).toPCfg_adm
/-- Every pipeline's proof data, each at its region's entry contents. -/
def pdats : (p : Fin 2) → (c : Dev nD) → Dat τ (Elt F) Unit ℕ (UR sig nD τ) ℕ (Pipeline.pin (pcfgs (F := F)) adm p) c
  | ⟨0, _⟩ => fun c => dat0 (E1 m ρ) c
  | ⟨1, _⟩ => fun c => dat1 (E3 m ρ) c
abbrev 𝒱₀ : Variants := Variants.none
abbrev L : GSem nD τ sig → Finset Unit := fun _ => ∅
abbrev lv : GSem nD τ sig → Unit → ℕ := fun _ _ => 0
/-- What rides beside the buffers through every item: the core's generator register at some state and its dues, at nothing. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (Wv : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) Wv R

theorem hostOps0_fresh' : (hostOps0 : List (HloOp τ sig (Elt F))).Forall fun op => op.fresh = ∅ := by
  simp only [List.Forall]; repeat' constructor
theorem hostOps1_fresh' : (hostOps1 : List (HloOp τ sig (Elt F))).Forall fun op => op.fresh = ∅ := by
  simp only [List.Forall]; repeat' constructor
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the dues. -/
abbrev Tn (c : Dev nD) : sProp 𝕄 := iprop(StableHlo.held (c : Thread nD τ) (Pipeline.ucRefs τ sig) (B4 m ρ c) ∗ ∃ r, prngReg c r)

/-! ## The regions as segments -/

set_option backward.isDefEq.respectTransparency.types false in
/-- The masking region: entered from every unscoped buffer at `B1`, left at `B2`. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (E1 m ρ) c).loose
  hwaits := Pipeline.hwaits_of_owed_zero _ _ _ _ L lv 0 fun _ _ => rfl
  pre c := iprop(StableHlo.held (c : Thread nD τ) (Pipeline.ucRefs τ sig) (B1 m ρ c) ∗ R c)
  post c := iprop(StableHlo.held (c : Thread nD τ) (Pipeline.ucRefs τ sig) (B2 m ρ c) ∗ R c)
  X c := iprop(∃ r, prngReg c r)
  Y c := iprop(∃ r, prngReg c r)
  Z c := Pipeline.unscopedRest (Ix := Unit) (Name := ℕ) (U := UR sig nD τ) (Lvl := ℕ) spec0 c (E1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (E1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (E1 m ρ c) (E2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The matrix-product region: entered from every unscoped buffer at `B3`, left at `B4`. Its invariant starts as
    the scoped rest with the generator register and ends as it, the accumulator's contents forgotten. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (E3 m ρ) c).loose
  hwaits := Pipeline.hwaits_of_owed_zero _ _ _ _ L lv 1 fun _ _ => rfl
  pre c := iprop(StableHlo.held (c : Thread nD τ) (Pipeline.ucRefs τ sig) (B3 m ρ c) ∗ R c)
  post c := iprop(Tn m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (E3 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (E3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none]
    have hgive : (Pipeline.ΦA spec1 c : sProp 𝕄)
        ⊢ iprop((∃ r, prngReg c r) ∗ BI.emp ∗ Pipeline.scopedRest (Pipeline.pin (pcfgs (F := F)) adm 1).spec c) := by
      unfold Pipeline.ΦA
      iintro ⟨Hr, Hp⟩
      isplitl [Hp]; · iexact Hp
      isplitr; · iempintro
      iexact Hr
    exact (hout1 (E3 m ρ) c).trans hgive
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (E3 m ρ c) (E4 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## The program as its items, and the launch -/

abbrev segs : List (Pipeline.Seg (pcfgs (F := F)) adm (pdats m ρ) () defs₀ 𝒱₀ L lv) :=
  [ .host (hseg hostOps0 hostOps0_sub hostOps0_fresh' (B0 m ρ)),
    .region (reg0 m ρ),
    .host (hseg hostOps1 hostOps1_sub hostOps1_fresh' (B2 m ρ)),
    .region (reg1 m ρ) ]
theorem main_run (c : Dev nD) : main (F := F) c = Pipeline.Seg.run (segs m ρ) := (main_chain c).trans (by chain_rfl)

set_option backward.isDefEq.respectTransparency.types false in
/-- Every weakly fair execution of the program from memory `m` with zero counters terminates, nothing faulting, and every
    final memory holds each unscoped buffer at `B4`. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = B4 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (B0 m ρ c) ∗ R c)) (Tₙ := Tn m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (B0 m ρ c)
        from Pipeline.unscopedBufs_held c (B0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = B4 m ρ c b)
    (hfin := fun c s' => by
      iintro ⟨⟨Hh, -⟩, HSI⟩
      unfold StableHlo.held
      imodintro
      iapply (pointsTo_read_all (Pipeline.ucRefs τ sig) (fun b => (((c : Thread nD τ)).1, b)) (B4 m ρ c) s')
      isplitl [Hh] <;> iassumption)
    (hQ := fun s h => h)

/-- The frame: every argument array ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c =>
    ⟨(h c _ (mem_uc main_arg0 (by decide))).trans (B4_main_arg0 m ρ c),
     (h c _ (mem_uc main_arg1 (by decide))).trans (B4_main_arg1 m ρ c),
     (h c _ (mem_uc main_arg2 (by decide))).trans (B4_main_arg2 m ρ c),
     (h c _ (mem_uc main_arg3 (by decide))).trans (B4_main_arg3 m ρ c),
     (h c _ (mem_uc main_arg4 (by decide))).trans (B4_main_arg4 m ρ c)⟩) (run_all m ρ)

/-- The run with the result named: the result buffer ends at what region 1's write-backs leave, the arguments as launched. -/
theorem run_result : θ_run defs (onTc (τ := τ) (main (F := F))) ⟨m, fun _ => 0, ρ⟩ (fun r => ∀ c : Dev nD,
      r.2.mem ((c.tc : Thread nD τ).loc main_v3) = (dat1 (E3 m ρ) c).arrAt 3 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c =>
    ⟨(h c _ (mem_uc main_v3 (by decide))).trans (B4_main_v3 m ρ c),
     (h c _ (mem_uc main_arg0 (by decide))).trans (B4_main_arg0 m ρ c),
     (h c _ (mem_uc main_arg1 (by decide))).trans (B4_main_arg1 m ρ c),
     (h c _ (mem_uc main_arg2 (by decide))).trans (B4_main_arg2 m ρ c),
     (h c _ (mem_uc main_arg3 (by decide))).trans (B4_main_arg3 m ρ c),
     (h c _ (mem_uc main_arg4 (by decide))).trans (B4_main_arg4 m ρ c)⟩) (run_all m ρ)

end Cert.Kernel.Hand

end
-- ==== Proof.KI.Mask.lean ====
/-
  Region 0: the mask kernel's pipeline, at any entry contents.

  At every grid point (i, j) the body reads three blocks — the weight block (i, j), the block (0, j) of the kind
  row and the connection block (i, j) — and writes one block (i, j) of the masked weight: a single whole-block store
  of one elementwise function of the three blocks read. This file states what each staging buffer holds before and
  after the body at a point, proves the body's triple, and discharges the pipeline's body obligation.
-/
import proofs.«155001_j23046794510859_2_alg».proof.Proof.Gen.KernelIdeal.Launch
import proofs.«155001_j23046794510859_2_alg».proof.Proof.Gen.KernelIdeal.Skeleton
import proofs.«155001_j23046794510859_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle of 512 x 512 extents: the elaborator's structural look recurses once per coordinate
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window w's block at point t, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The weight window's staging buffer holds its block at every point, for any proof data whose array is the entry
    contents and whose body leaves the block in place: the window is an input, uncut and never idle. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- The same of the kind-row window. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- The same of the connection window. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses -/

/-- The whole 512 x 512 block. -/
abbrev r0_0 : Rect S512x512 := Rect.unit (s := S512x512) ![0, 0] S512x512.size inb_S512x512_S512x512_0_0
/-- The whole 1 x 512 row block. -/
abbrev r0_1 : Rect S1x512 := Rect.unit (s := S1x512) ![0, 0] S1x512.size inb_S1x512_S1x512_0_0

/-! ## What the body leaves in the output window's buffer -/

/-- The output buffer after the body, from the three input blocks: its one store, of the whole block. -/
def out0_3 (x0 : Vec F S512x512 .f32) (x1 : Vec F S1x512 .i32) (x2 : Vec F S512x512 .i32) : Vec F S512x512 .bf16 :=
  View.canon [⟨r0_0, k0_pay1 (View.ld x0 r0_0) (View.ld x2 r0_0) (View.ld x1 r0_1)⟩]

/-- The one store covers the buffer. -/
theorem cover0_3 (p0 : Vec F S512x512 .bf16) (y : S512x512.Idx) :
    ∃ pc ∈ ([⟨r0_0, p0⟩] : List (View.Piece (Elt F) S512x512 .bf16)), y ∈ pc.1.set :=
  View.cover_of_tiled [⟨r0_0, p0⟩] S512x512.size (by rfl) y

/-! ## The body's triple -/

set_option maxHeartbeats 1000000 in
/-- The body on whole staging memrefs, the inputs' at read contents and the output's at anything, runs to the
    continuation holding the inputs' as they were and the output's at out0_3 of the inputs'. -/
theorem sound_kernel0 (c : Dev nD) (E : Set ℕ) (i : grid0.Coords)
    (arg2 : Memref sig .tc .vmem S512x512 .f32) (harg2 : arg2.IsWhole) (arg3 : Memref sig .tc .vmem S1x512 .i32) (harg3 : arg3.IsWhole)
    (arg4 : Memref sig .tc .vmem S512x512 .i32) (harg4 : arg4.IsWhole) (arg5 : Memref sig .tc .vmem S512x512 .bf16) (harg5 : arg5.IsWhole)
    (x0 : Vec F S512x512 .f32) (x1 : Vec F S1x512 .i32) (x2 : Vec F S512x512 .i32) (K : PUnit → sProp 𝕄) :
    iprop(owns (c : Thread nD τ) arg2 fullShare x0 ∗ owns (c : Thread nD τ) arg3 fullShare x1 ∗ owns (c : Thread nD τ) arg4 fullShare x2
        ∗ (∃ d, owns (c : Thread nD τ) arg5 fullShare d)
        ∗ (iprop(owns (c : Thread nD τ) arg2 fullShare x0 ∗ owns (c : Thread nD τ) arg3 fullShare x1 ∗ owns (c : Thread nD τ) arg4 fullShare x2
            ∗ owns (c : Thread nD τ) arg5 fullShare (out0_3 x0 x1 x2)) -∗ K ⟨⟩))
      ⊢ wp frame (wpE (defs₀ (F := F)) Variants.none c none) E (cc0__mask_kernel i arg2 harg2 arg3 harg3 arg4 harg4 arg5 harg5) K := by
  simp only [cc0__mask_kernel_eq_skeleton]; unfold cc0__mask_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover0_3 _)

/-! ## The pipeline's proof data -/

/-- The proof data of the pipeline on core c: the arrays as the region finds them; after the body at point t each
    input's buffer at its block and the output's at out0_3 of the three input blocks; the invariant is the scoped
    rest and the generator register, untouched; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => out0_3 (iblk0 V c 0 t) (iblk0 V c 1 t) (iblk0 V c 2 t)
  Φ _ := Pipeline.ΦA spec0 c
  q _ := fullShare
  owed _ := 0

/-- The proof data's arrays are the region-entry contents. -/
theorem A_eq0 (c : Dev nD) (w : Fin cfg0.W) : (dat0 V c).A w = V c (Pipeline.arrRef spec0 w) := by
  dsimp only [dat0]

/-- What the body leaves, window by window. -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) :
    (dat0 V c).after 3 t = out0_3 (iblk0 V c 0 t) (iblk0 V c 1 t) (iblk0 V c 2 t) := by dsimp only [dat0]

/-- Each input's current staging buffer holds its block at every point. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

/-! ## The body obligation, at a generic point -/

/-- What the body is called with at point t, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t))

/-- The body at any point: the inputs' memrefs hold their blocks, so the body's triple applies; the invariant and
    the core's debts pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).Φ t.succ = (dat0 V c).Φ t.castSucc from rfl,
    show (dat0 V c).owesAt () t.succ = (dat0 V c).owesAt () t.castSucc from rfl,
    after0_0, after0_1, after0_2, after0_3]
  iintro ⟨HΦ, Ho, ⟨%d0, H0⟩, ⟨%d1, H1⟩, ⟨%d2, H2⟩, ⟨%d3, H3⟩⟩
  iapply (sound_kernel0 c Set.univ _ _ _ _ _ _ _ _ _ (iblk0 V c 0 t) (iblk0 V c 1 t) (iblk0 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation0 (c : Dev nD) : BodyObligation (dat0 (F := F) V c) (defs₀ (F := F)) Variants.none () Set.univ := fun t => by
  rw [bigSep_W0, bigSep_W0]
  exact sound_body0 V c t

end Cert.KernelIdeal.Hand

end
-- ==== Proof.KI.MatmulShared.lean ====
/- The matmul region's body, what its three control cases share: the two branch conditions in
   closed form over the grid (the reduction coordinate is the innermost, 16 steps), where the
   windows are idle, and the staging and scratch memrefs the body is run on. -/
import proofs.«155001_j23046794510859_2_alg».proof.Proof.Gen.KernelIdeal.Launch
import proofs.«155001_j23046794510859_2_alg».proof.Proof.Gen.KernelIdeal.Skeleton
import proofs.«155001_j23046794510859_2_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The body's branch conditions -/

/-- The first conditional's condition (the accumulator is zeroed), from the grid coordinates:
    the reduction coordinate is 0. -/
abbrev cond1_0 (i : grid1.Coords) : Prop := (Scalar.cmpi .ne (Scalar.extui (Scalar.cmpi .eq (BitVec.ofNat 32 (i 2).val) 0#32)) 0#32) = 1#1
/-- It holds at the points ≡ 0 (mod 16) — decided over the grid. -/
theorem hcond1_0 : ∀ t : Fin cfg1.N, cond1_0 (grid1.coords t) ↔ t.val % 16 = 0 :=
  (by decide +kernel : ∀ t : Fin grid1.N, cond1_0 (grid1.coords t) ↔ t.val % 16 = 0)

/-- The second conditional's condition (the output block is stored): the reduction coordinate
    is the last, 15. -/
abbrev cond1_1 (i : grid1.Coords) : Prop := k1_cond2 i = 1#1
/-- It holds at the points ≡ 15 (mod 16) — decided over the grid. -/
theorem hcond1_1 : ∀ t : Fin cfg1.N, cond1_1 (grid1.coords t) ↔ t.val % 16 = 15 :=
  (by decide +kernel : ∀ t : Fin grid1.N, cond1_1 (grid1.coords t) ↔ t.val % 16 = 15)

/-! ## Where the windows are idle -/

/-- Window 0 (the activations' block) is never idle. -/
theorem liveAt1_0 : ∀ t : Fin cfg1.N, cfg1.idle 0 (grid1.coords t) = false := by decide +kernel
/-- Window 1 (the masked weight's block) is never idle. -/
theorem liveAt1_1 : ∀ t : Fin cfg1.N, cfg1.idle 1 (grid1.coords t) = false := by decide +kernel
/-- Window 2 (the bias row) is never idle. -/
theorem liveAt1_2 : ∀ t : Fin cfg1.N, cfg1.idle 2 (grid1.coords t) = false := by decide +kernel
/-- At the first step of a reduction the output window is idle: nothing is stored into it. -/
theorem idleAt1_3_A : ∀ t : Fin cfg1.N, cond1_0 (grid1.coords t) → ¬cond1_1 (grid1.coords t) → cfg1.idle 3 (grid1.coords t) = true := by decide +kernel
/-- And its block is not written back there. -/
theorem noFlush1_3_A : ∀ t : Fin cfg1.N, cond1_0 (grid1.coords t) → ¬cond1_1 (grid1.coords t) → (cfg1.win 3).flush t = false := by decide +kernel
/-- At the inner steps of a reduction the output window is idle. -/
theorem idleAt1_3_B : ∀ t : Fin cfg1.N, ¬cond1_0 (grid1.coords t) → ¬cond1_1 (grid1.coords t) → cfg1.idle 3 (grid1.coords t) = true := by decide +kernel
/-- And its block is not written back there. -/
theorem noFlush1_3_B : ∀ t : Fin cfg1.N, ¬cond1_0 (grid1.coords t) → ¬cond1_1 (grid1.coords t) → (cfg1.win 3).flush t = false := by decide +kernel
/-- At the last step of a reduction the output window is live: the block is stored. -/
theorem liveAt1_3_C : ∀ t : Fin cfg1.N, ¬cond1_0 (grid1.coords t) → cond1_1 (grid1.coords t) → cfg1.idle 3 (grid1.coords t) = false := by decide +kernel

/-! ## The memrefs the body is run on -/

/-- One staging buffer of the output window, through which its contents are stated. -/
abbrev VO1_3 : View sig .tc .vmem S1024x2048 .f32 := (Memref.whole cc1_stg3_0 : Memref sig .tc .vmem S1024x2048 .f32).view
/-- Each window's current staging memref at point `t`, as the pipeline passes it, and its wholeness. -/
abbrev ms1_0 (t : Fin cfg1.N) : Memref sig .tc .vmem S1024x256 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S2048x256 .bf16 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1x2048 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S1024x2048 .f32 := win1_3.stage (cfg1.slots t 3)
abbrev hs1_3 (t : Fin cfg1.N) : (ms1_3 t).IsWhole := hstage1_3 ((cfg1.slots t 3).cast nbuf1_3)
/-- The scratch accumulator: a whole scoped buffer of the kernel's own, passed beside the windows. -/
abbrev scM1_0 : Memref sig .tc .vmem S1024x2048 .f32 := Memref.whole cc1_scratch0
/-- The accumulator as a view: what it holds between points is stated through it. -/
abbrev VS1_0 : View sig .tc .vmem S1024x2048 .f32 := scM1_0.view

end Cert.KernelIdeal.Hand

end
-- ==== Proof.KI.MatmulRunA.lean ====
/- The matmul body run at the FIRST step of a reduction (the reduction coordinate is 0): the
   accumulator is zeroed, then the product of the two staged blocks is added into it; the
   bias row is not read and nothing is stored into the output block, which is handed back as
   it was found. The pieces the accumulator ends with are the witness the run finds. -/
import proofs.«155001_j23046794510859_2_alg».proof.Proof.KI.MatmulShared

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The body's triple at the first step of a reduction, on any whole memrefs: the inputs at
    their contents, the output block at contents `xi3` handed back untouched, the accumulator
    at anything; it ends with the accumulator's pieces `LS0` written (the zero store, then
    the accumulated store) and no piece for the output. -/
noncomputable def kernelRun1_A (c : Dev nD) (i : grid1.Coords) (arg3 : Memref sig .tc .vmem S1024x256 .f32) (harg3 : arg3.IsWhole) (arg4 : Memref sig .tc .vmem S2048x256 .bf16) (harg4 : arg4.IsWhole) (arg5 : Memref sig .tc .vmem S1x2048 .f32) (harg5 : arg5.IsWhole) (arg6 : Memref sig .tc .vmem S1024x2048 .f32) (harg6 : arg6.IsWhole) (arg7 : Memref sig .tc .vmem S1024x2048 .f32) (harg7 : arg7.IsWhole) (hc0 : cond1_0 i) (hc1 : ¬cond1_1 i)
    (x0 : Vec F S1024x256 .f32) (x1 : Vec F S2048x256 .bf16) (x2 : Vec F S1x2048 .f32) :
    Σ' (L3 : List (View.Piece (Elt F) S1024x2048 .f32)), { LS0 : List (View.Piece (Elt F) S1024x2048 .f32) //
      ∀ (xi3 : Vec F S1024x2048 .f32) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare xi3 ∗ (∃ d, owns (c : Thread nD τ) arg7 fullShare d)
            ∗ (iprop(owns (c : Thread nD τ) arg3 fullShare x0 ∗ owns (c : Thread nD τ) arg4 fullShare x1 ∗ owns (c : Thread nD τ) arg5 fullShare x2 ∗ owns (c : Thread nD τ) arg6 fullShare xi3 ∗ (∃ f, arg7.view.loc (c : Thread nD τ) ↦[arg7.view.set]{fullShare} arg7.view.writes (Elt F) f LS0)) -∗ K ⟨⟩))
          ⊢ wp frame (wpE (defs₀ (F := F)) Variants.none c none) E (cc1__matmul_kernel i arg3 harg3 arg4 harg4 arg5 harg5 arg6 harg6 arg7 harg7) K } := by
  refine ⟨[], ?_, fun xi3 E K => ?run⟩
  case run =>
    simp only [cc1__matmul_kernel_eq_skeleton]; unfold cc1__matmul_kernel_skel
    unfold owns
    iintro ⟨⟨%f0, %hf0, H0⟩, ⟨%f1, %hf1, H1⟩, ⟨%f2, %hf2, H2⟩, ⟨%f3, %hf3, H3⟩, ⟨%ds0, %fs0, -, HS0⟩, Hk⟩
    obtain rfl := harg3.eq_unread hf0; obtain rfl := harg4.eq_unread hf1; obtain rfl := harg5.eq_unread hf2; obtain rfl := harg6.eq_unread hf3
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    iexists _; iexact HS0

end Cert.KernelIdeal.Hand

end
-- ==== Proof.KI.MatmulRunB.lean ====
/- The matmul body run at an INNER step of a reduction (the reduction coordinate is neither 0
   nor the last): the product of the two staged blocks is added into the accumulator, which
   enters at the contents the step before left; the bias row is not read and nothing is
   stored into the output block, which is handed back as it was found. -/
import proofs.«155001_j23046794510859_2_alg».proof.Proof.KI.MatmulRunA

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The body's triple at an inner step of a reduction, on any whole memrefs: the inputs at
    their contents, the output block at contents `xi3` handed back untouched, the accumulator
    at the contents `xs0` the step before left; it ends with the accumulator's pieces `LS0`
    written (the accumulated store) and no piece for the output. -/
noncomputable def kernelRun1_B (c : Dev nD) (i : grid1.Coords) (arg3 : Memref sig .tc .vmem S1024x256 .f32) (harg3 : arg3.IsWhole) (arg4 : Memref sig .tc .vmem S2048x256 .bf16) (harg4 : arg4.IsWhole) (arg5 : Memref sig .tc .vmem S1x2048 .f32) (harg5 : arg5.IsWhole) (arg6 : Memref sig .tc .vmem S1024x2048 .f32) (harg6 : arg6.IsWhole) (arg7 : Memref sig .tc .vmem S1024x2048 .f32) (harg7 : arg7.IsWhole) (hc0 : ¬cond1_0 i) (hc1 : ¬cond1_1 i)
    (x0 : Vec F S1024x256 .f32) (x1 : Vec F S2048x256 .bf16) (x2 : Vec F S1x2048 .f32) (xs0 : Vec F S1024x2048 .f32) :
    Σ' (L3 : List (View.Piece (Elt F) S1024x2048 .f32)), { LS0 : List (View.Piece (Elt F) S1024x2048 .f32) //
      ∀ (xi3 : Vec F S1024x2048 .f32) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare xi3 ∗ owns (c : Thread nD τ) arg7 fullShare xs0
            ∗ (iprop(owns (c : Thread nD τ) arg3 fullShare x0 ∗ owns (c : Thread nD τ) arg4 fullShare x1 ∗ owns (c : Thread nD τ) arg5 fullShare x2 ∗ owns (c : Thread nD τ) arg6 fullShare xi3 ∗ (∃ f, arg7.view.loc (c : Thread nD τ) ↦[arg7.view.set]{fullShare} arg7.view.writes (Elt F) f LS0)) -∗ K ⟨⟩))
          ⊢ wp frame (wpE (defs₀ (F := F)) Variants.none c none) E (cc1__matmul_kernel i arg3 harg3 arg4 harg4 arg5 harg5 arg6 harg6 arg7 harg7) K } := by
  refine ⟨[], ?_, fun xi3 E K => ?run⟩
  case run =>
    simp only [cc1__matmul_kernel_eq_skeleton]; unfold cc1__matmul_kernel_skel
    unfold owns
    iintro ⟨⟨%f0, %hf0, H0⟩, ⟨%f1, %hf1, H1⟩, ⟨%f2, %hf2, H2⟩, ⟨%f3, %hf3, H3⟩, ⟨%fs0, %hfs0, HS0⟩, Hk⟩
    obtain rfl := harg3.eq_unread hf0; obtain rfl := harg4.eq_unread hf1; obtain rfl := harg5.eq_unread hf2; obtain rfl := harg6.eq_unread hf3; obtain rfl := harg7.eq_unread hfs0
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    iexists _; iexact HS0

end Cert.KernelIdeal.Hand

end
-- ==== Proof.KI.MatmulRunC.lean ====
/- The matmul body run at the LAST step of a reduction (the reduction coordinate is 15): the
   product of the two staged blocks is added into the accumulator, which enters at the
   contents the step before left; then the accumulator plus the bias row, broadcast along
   the rows, is stored as the output block. -/
import proofs.«155001_j23046794510859_2_alg».proof.Proof.KI.MatmulRunB

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The body's triple at the last step of a reduction, on any whole memrefs: the inputs at
    their contents, the output block at anything, the accumulator at the contents `xs0` the
    step before left; it ends with the accumulator's pieces `LS0` written (the accumulated
    store) and the output's pieces `L3` written (the biased sum). -/
noncomputable def kernelRun1_C (c : Dev nD) (i : grid1.Coords) (arg3 : Memref sig .tc .vmem S1024x256 .f32) (harg3 : arg3.IsWhole) (arg4 : Memref sig .tc .vmem S2048x256 .bf16) (harg4 : arg4.IsWhole) (arg5 : Memref sig .tc .vmem S1x2048 .f32) (harg5 : arg5.IsWhole) (arg6 : Memref sig .tc .vmem S1024x2048 .f32) (harg6 : arg6.IsWhole) (arg7 : Memref sig .tc .vmem S1024x2048 .f32) (harg7 : arg7.IsWhole) (hc0 : ¬cond1_0 i) (hc1 : cond1_1 i)
    (x0 : Vec F S1024x256 .f32) (x1 : Vec F S2048x256 .bf16) (x2 : Vec F S1x2048 .f32) (xs0 : Vec F S1024x2048 .f32) :
    Σ' (L3 : List (View.Piece (Elt F) S1024x2048 .f32)), { LS0 : List (View.Piece (Elt F) S1024x2048 .f32) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ (∃ d, owns (c : Thread nD τ) arg6 fullShare d) ∗ owns (c : Thread nD τ) arg7 fullShare xs0
            ∗ (iprop(owns (c : Thread nD τ) arg3 fullShare x0 ∗ owns (c : Thread nD τ) arg4 fullShare x1 ∗ owns (c : Thread nD τ) arg5 fullShare x2 ∗ (∃ f, arg6.view.loc (c : Thread nD τ) ↦[arg6.view.set]{fullShare} arg6.view.writes (Elt F) f L3) ∗ (∃ f, arg7.view.loc (c : Thread nD τ) ↦[arg7.view.set]{fullShare} arg7.view.writes (Elt F) f LS0)) -∗ K ⟨⟩))
          ⊢ wp frame (wpE (defs₀ (F := F)) Variants.none c none) E (cc1__matmul_kernel i arg3 harg3 arg4 harg4 arg5 harg5 arg6 harg6 arg7 harg7) K } := by
  refine ⟨?_, ?_, fun E K => ?run⟩
  case run =>
    simp only [cc1__matmul_kernel_eq_skeleton]; unfold cc1__matmul_kernel_skel
    unfold owns
    iintro ⟨⟨%f0, %hf0, H0⟩, ⟨%f1, %hf1, H1⟩, ⟨%f2, %hf2, H2⟩, ⟨%d3, %f3, -, H3⟩, ⟨%fs0, %hfs0, HS0⟩, Hk⟩
    obtain rfl := harg3.eq_unread hf0; obtain rfl := harg4.eq_unread hf1; obtain rfl := harg5.eq_unread hf2; obtain rfl := harg7.eq_unread hfs0
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]; · iexists _; iexact H3
    iexists _; iexact HS0

end Cert.KernelIdeal.Hand

end
-- ==== Proof.KI.MatmulPieces.lean ====
/- What each control case of the matmul body leaves in the accumulator and in the output
   block, read back from the pieces its run found, and that these are the body's arithmetic:
   the accumulator ends at (entry contents, or zero at a reduction's first step) plus the
   product of the two staged blocks; the output block, at a reduction's last step, at that
   sum plus the bias row broadcast along the rows. -/
import proofs.«155001_j23046794510859_2_alg».proof.Proof.KI.MatmulRunC
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The zero offsets of a whole-block rectangle, however spelt. -/
theorem matmul_hz : (![0, 0] : Fin 2 → Nat) = fun _ => 0 := funext fun a => by fin_cases a <;> rfl

/-! ## First step of a reduction -/

/-- The accumulator's pieces at a first step (the zero store, then the accumulated store) cover it. -/
theorem scover1_A (c : Dev nD) (i : grid1.Coords) (arg3 : Memref sig .tc .vmem S1024x256 .f32) (harg3 : arg3.IsWhole) (arg4 : Memref sig .tc .vmem S2048x256 .bf16) (harg4 : arg4.IsWhole) (arg5 : Memref sig .tc .vmem S1x2048 .f32) (harg5 : arg5.IsWhole) (arg6 : Memref sig .tc .vmem S1024x2048 .f32) (harg6 : arg6.IsWhole) (arg7 : Memref sig .tc .vmem S1024x2048 .f32) (harg7 : arg7.IsWhole) (hc0 : cond1_0 i) (hc1 : ¬cond1_1 i)
    (x0 : Vec F S1024x256 .f32) (x1 : Vec F S2048x256 .bf16) (x2 : Vec F S1x2048 .f32) (y : S1024x2048.Idx) :
    ∃ pc ∈ (kernelRun1_A c i arg3 harg3 arg4 harg4 arg5 harg5 arg6 harg6 arg7 harg7 hc0 hc1 x0 x1 x2).2.1, y ∈ pc.1.set :=
  View.cover_of_tiledL (kernelRun1_A c i arg3 harg3 arg4 harg4 arg5 harg5 arg6 harg6 arg7 harg7 hc0 hc1 x0 x1 x2).2.1 S1024x2048.size (by sl_kernel_rfl) y

/-- What a first step leaves in the accumulator: its pieces read back over junk. -/
def sout1_A (c : Dev nD) (i : grid1.Coords) (arg3 : Memref sig .tc .vmem S1024x256 .f32) (harg3 : arg3.IsWhole) (arg4 : Memref sig .tc .vmem S2048x256 .bf16) (harg4 : arg4.IsWhole) (arg5 : Memref sig .tc .vmem S1x2048 .f32) (harg5 : arg5.IsWhole) (arg6 : Memref sig .tc .vmem S1024x2048 .f32) (harg6 : arg6.IsWhole) (arg7 : Memref sig .tc .vmem S1024x2048 .f32) (harg7 : arg7.IsWhole) (hc0 : cond1_0 i) (hc1 : ¬cond1_1 i)
    (x0 : Vec F S1024x256 .f32) (x1 : Vec F S2048x256 .bf16) (x2 : Vec F S1x2048 .f32) : Vec F S1024x2048 .f32 :=
  VS1_0.read (Elt F) (VS1_0.writes (Elt F) VS1_0.junk (kernelRun1_A c i arg3 harg3 arg4 harg4 arg5 harg5 arg6 harg6 arg7 harg7 hc0 hc1 x0 x1 x2).2.1)

set_option maxHeartbeats 1000000 in
/-- A first step leaves zero plus the product of the two blocks: the zero block is stored, read
    back, and the product added to it. -/
theorem sout1_A_eq (c : Dev nD) (i : grid1.Coords) (arg3 : Memref sig .tc .vmem S1024x256 .f32) (harg3 : arg3.IsWhole) (arg4 : Memref sig .tc .vmem S2048x256 .bf16) (harg4 : arg4.IsWhole) (arg5 : Memref sig .tc .vmem S1x2048 .f32) (harg5 : arg5.IsWhole) (arg6 : Memref sig .tc .vmem S1024x2048 .f32) (harg6 : arg6.IsWhole) (arg7 : Memref sig .tc .vmem S1024x2048 .f32) (harg7 : arg7.IsWhole) (hc0 : cond1_0 i) (hc1 : ¬cond1_1 i)
    (x0 : Vec F S1024x256 .f32) (x1 : Vec F S2048x256 .bf16) (x2 : Vec F S1x2048 .f32) :
    sout1_A c i arg3 harg3 arg4 harg4 arg5 harg5 arg6 harg6 arg7 harg7 hc0 hc1 x0 x1 x2 = k1_pay2 x0 x1 (k1_pay1 (F := F)) := by
  unfold sout1_A
  rw [View.read_writes_eq_canon _ _ _ (scover1_A c i arg3 harg3 arg4 harg4 arg5 harg5 arg6 harg6 arg7 harg7 hc0 hc1 x0 x1 x2)]
  unfold kernelRun1_A
  dsimp only
  sl_unfold_words
  rw [View.canon_cons_unit_zero (S := S1024x2048) matmul_hz, View.readCov_unit_zero (S := S1024x2048) _ matmul_hz]
  simp only [View.readAt_eq_ld, harg3.read_unread, harg4.read_unread, View.ld_unit_zero (S := S1024x256) matmul_hz,
    View.ld_unit_zero (S := S2048x256) matmul_hz]

/-! ## Inner step of a reduction -/

/-- The accumulator's one piece at an inner step covers it. -/
theorem scover1_B (c : Dev nD) (i : grid1.Coords) (arg3 : Memref sig .tc .vmem S1024x256 .f32) (harg3 : arg3.IsWhole) (arg4 : Memref sig .tc .vmem S2048x256 .bf16) (harg4 : arg4.IsWhole) (arg5 : Memref sig .tc .vmem S1x2048 .f32) (harg5 : arg5.IsWhole) (arg6 : Memref sig .tc .vmem S1024x2048 .f32) (harg6 : arg6.IsWhole) (arg7 : Memref sig .tc .vmem S1024x2048 .f32) (harg7 : arg7.IsWhole) (hc0 : ¬cond1_0 i) (hc1 : ¬cond1_1 i)
    (x0 : Vec F S1024x256 .f32) (x1 : Vec F S2048x256 .bf16) (x2 : Vec F S1x2048 .f32) (xs0 : Vec F S1024x2048 .f32) (y : S1024x2048.Idx) :
    ∃ pc ∈ (kernelRun1_B c i arg3 harg3 arg4 harg4 arg5 harg5 arg6 harg6 arg7 harg7 hc0 hc1 x0 x1 x2 xs0).2.1, y ∈ pc.1.set :=
  View.cover_of_tiledL (kernelRun1_B c i arg3 harg3 arg4 harg4 arg5 harg5 arg6 harg6 arg7 harg7 hc0 hc1 x0 x1 x2 xs0).2.1 S1024x2048.size (by sl_kernel_rfl) y

/-- What an inner step leaves in the accumulator: its piece read back over junk. -/
def sout1_B (c : Dev nD) (i : grid1.Coords) (arg3 : Memref sig .tc .vmem S1024x256 .f32) (harg3 : arg3.IsWhole) (arg4 : Memref sig .tc .vmem S2048x256 .bf16) (harg4 : arg4.IsWhole) (arg5 : Memref sig .tc .vmem S1x2048 .f32) (harg5 : arg5.IsWhole) (arg6 : Memref sig .tc .vmem S1024x2048 .f32) (harg6 : arg6.IsWhole) (arg7 : Memref sig .tc .vmem S1024x2048 .f32) (harg7 : arg7.IsWhole) (hc0 : ¬cond1_0 i) (hc1 : ¬cond1_1 i)
    (x0 : Vec F S1024x256 .f32) (x1 : Vec F S2048x256 .bf16) (x2 : Vec F S1x2048 .f32) (xs0 : Vec F S1024x2048 .f32) : Vec F S1024x2048 .f32 :=
  VS1_0.read (Elt F) (VS1_0.writes (Elt F) VS1_0.junk (kernelRun1_B c i arg3 harg3 arg4 harg4 arg5 harg5 arg6 harg6 arg7 harg7 hc0 hc1 x0 x1 x2 xs0).2.1)

set_option maxHeartbeats 1000000 in
/-- An inner step leaves the entry contents plus the product of the two blocks. -/
theorem sout1_B_eq (c : Dev nD) (i : grid1.Coords) (arg3 : Memref sig .tc .vmem S1024x256 .f32) (harg3 : arg3.IsWhole) (arg4 : Memref sig .tc .vmem S2048x256 .bf16) (harg4 : arg4.IsWhole) (arg5 : Memref sig .tc .vmem S1x2048 .f32) (harg5 : arg5.IsWhole) (arg6 : Memref sig .tc .vmem S1024x2048 .f32) (harg6 : arg6.IsWhole) (arg7 : Memref sig .tc .vmem S1024x2048 .f32) (harg7 : arg7.IsWhole) (hc0 : ¬cond1_0 i) (hc1 : ¬cond1_1 i)
    (x0 : Vec F S1024x256 .f32) (x1 : Vec F S2048x256 .bf16) (x2 : Vec F S1x2048 .f32) (xs0 : Vec F S1024x2048 .f32) :
    sout1_B c i arg3 harg3 arg4 harg4 arg5 harg5 arg6 harg6 arg7 harg7 hc0 hc1 x0 x1 x2 xs0 = k1_pay2 x0 x1 xs0 := by
  unfold sout1_B
  rw [View.read_writes_eq_canon _ _ _ (scover1_B c i arg3 harg3 arg4 harg4 arg5 harg5 arg6 harg6 arg7 harg7 hc0 hc1 x0 x1 x2 xs0)]
  unfold kernelRun1_B
  dsimp only
  sl_unfold_words
  rw [View.canon_unit_zero (S := S1024x2048) matmul_hz]
  simp only [View.readAt_eq_ld, harg3.read_unread, harg4.read_unread, harg7.read_unread, View.ld_unit_zero (S := S1024x256) matmul_hz,
    View.ld_unit_zero (S := S2048x256) matmul_hz, View.ld_unit_zero (S := S1024x2048) matmul_hz]

/-! ## Last step of a reduction -/

/-- The accumulator's one piece at a last step covers it. -/
theorem scover1_C (c : Dev nD) (i : grid1.Coords) (arg3 : Memref sig .tc .vmem S1024x256 .f32) (harg3 : arg3.IsWhole) (arg4 : Memref sig .tc .vmem S2048x256 .bf16) (harg4 : arg4.IsWhole) (arg5 : Memref sig .tc .vmem S1x2048 .f32) (harg5 : arg5.IsWhole) (arg6 : Memref sig .tc .vmem S1024x2048 .f32) (harg6 : arg6.IsWhole) (arg7 : Memref sig .tc .vmem S1024x2048 .f32) (harg7 : arg7.IsWhole) (hc0 : ¬cond1_0 i) (hc1 : cond1_1 i)
    (x0 : Vec F S1024x256 .f32) (x1 : Vec F S2048x256 .bf16) (x2 : Vec F S1x2048 .f32) (xs0 : Vec F S1024x2048 .f32) (y : S1024x2048.Idx) :
    ∃ pc ∈ (kernelRun1_C c i arg3 harg3 arg4 harg4 arg5 harg5 arg6 harg6 arg7 harg7 hc0 hc1 x0 x1 x2 xs0).2.1, y ∈ pc.1.set :=
  View.cover_of_tiledL (kernelRun1_C c i arg3 harg3 arg4 harg4 arg5 harg5 arg6 harg6 arg7 harg7 hc0 hc1 x0 x1 x2 xs0).2.1 S1024x2048.size (by sl_kernel_rfl) y

/-- What a last step leaves in the accumulator: its piece read back over junk. -/
def sout1_C (c : Dev nD) (i : grid1.Coords) (arg3 : Memref sig .tc .vmem S1024x256 .f32) (harg3 : arg3.IsWhole) (arg4 : Memref sig .tc .vmem S2048x256 .bf16) (harg4 : arg4.IsWhole) (arg5 : Memref sig .tc .vmem S1x2048 .f32) (harg5 : arg5.IsWhole) (arg6 : Memref sig .tc .vmem S1024x2048 .f32) (harg6 : arg6.IsWhole) (arg7 : Memref sig .tc .vmem S1024x2048 .f32) (harg7 : arg7.IsWhole) (hc0 : ¬cond1_0 i) (hc1 : cond1_1 i)
    (x0 : Vec F S1024x256 .f32) (x1 : Vec F S2048x256 .bf16) (x2 : Vec F S1x2048 .f32) (xs0 : Vec F S1024x2048 .f32) : Vec F S1024x2048 .f32 :=
  VS1_0.read (Elt F) (VS1_0.writes (Elt F) VS1_0.junk (kernelRun1_C c i arg3 harg3 arg4 harg4 arg5 harg5 arg6 harg6 arg7 harg7 hc0 hc1 x0 x1 x2 xs0).2.1)

/-- The output block's one piece at a last step covers it. -/
theorem cover1_C_3 (c : Dev nD) (i : grid1.Coords) (arg3 : Memref sig .tc .vmem S1024x256 .f32) (harg3 : arg3.IsWhole) (arg4 : Memref sig .tc .vmem S2048x256 .bf16) (harg4 : arg4.IsWhole) (arg5 : Memref sig .tc .vmem S1x2048 .f32) (harg5 : arg5.IsWhole) (arg6 : Memref sig .tc .vmem S1024x2048 .f32) (harg6 : arg6.IsWhole) (arg7 : Memref sig .tc .vmem S1024x2048 .f32) (harg7 : arg7.IsWhole) (hc0 : ¬cond1_0 i) (hc1 : cond1_1 i)
    (x0 : Vec F S1024x256 .f32) (x1 : Vec F S2048x256 .bf16) (x2 : Vec F S1x2048 .f32) (xs0 : Vec F S1024x2048 .f32) (y : S1024x2048.Idx) :
    ∃ pc ∈ (kernelRun1_C c i arg3 harg3 arg4 harg4 arg5 harg5 arg6 harg6 arg7 harg7 hc0 hc1 x0 x1 x2 xs0).1, y ∈ pc.1.set :=
  View.cover_of_tiledL (kernelRun1_C c i arg3 harg3 arg4 harg4 arg5 harg5 arg6 harg6 arg7 harg7 hc0 hc1 x0 x1 x2 xs0).1 S1024x2048.size (by sl_kernel_rfl) y

/-- What a last step leaves in the output block: its piece read back over junk. -/
def out1_C_3 (c : Dev nD) (i : grid1.Coords) (arg3 : Memref sig .tc .vmem S1024x256 .f32) (harg3 : arg3.IsWhole) (arg4 : Memref sig .tc .vmem S2048x256 .bf16) (harg4 : arg4.IsWhole) (arg5 : Memref sig .tc .vmem S1x2048 .f32) (harg5 : arg5.IsWhole) (arg6 : Memref sig .tc .vmem S1024x2048 .f32) (harg6 : arg6.IsWhole) (arg7 : Memref sig .tc .vmem S1024x2048 .f32) (harg7 : arg7.IsWhole) (hc0 : ¬cond1_0 i) (hc1 : cond1_1 i)
    (x0 : Vec F S1024x256 .f32) (x1 : Vec F S2048x256 .bf16) (x2 : Vec F S1x2048 .f32) (xs0 : Vec F S1024x2048 .f32) : Vec F S1024x2048 .f32 :=
  VO1_3.read (Elt F) (VO1_3.writes (Elt F) VO1_3.junk (kernelRun1_C c i arg3 harg3 arg4 harg4 arg5 harg5 arg6 harg6 arg7 harg7 hc0 hc1 x0 x1 x2 xs0).1)

set_option maxHeartbeats 1000000 in
/-- A last step leaves in the accumulator the entry contents plus the product of the two blocks. -/
theorem sout1_C_eq (c : Dev nD) (i : grid1.Coords) (arg3 : Memref sig .tc .vmem S1024x256 .f32) (harg3 : arg3.IsWhole) (arg4 : Memref sig .tc .vmem S2048x256 .bf16) (harg4 : arg4.IsWhole) (arg5 : Memref sig .tc .vmem S1x2048 .f32) (harg5 : arg5.IsWhole) (arg6 : Memref sig .tc .vmem S1024x2048 .f32) (harg6 : arg6.IsWhole) (arg7 : Memref sig .tc .vmem S1024x2048 .f32) (harg7 : arg7.IsWhole) (hc0 : ¬cond1_0 i) (hc1 : cond1_1 i)
    (x0 : Vec F S1024x256 .f32) (x1 : Vec F S2048x256 .bf16) (x2 : Vec F S1x2048 .f32) (xs0 : Vec F S1024x2048 .f32) :
    sout1_C c i arg3 harg3 arg4 harg4 arg5 harg5 arg6 harg6 arg7 harg7 hc0 hc1 x0 x1 x2 xs0 = k1_pay2 x0 x1 xs0 := by
  unfold sout1_C
  rw [View.read_writes_eq_canon _ _ _ (scover1_C c i arg3 harg3 arg4 harg4 arg5 harg5 arg6 harg6 arg7 harg7 hc0 hc1 x0 x1 x2 xs0)]
  unfold kernelRun1_C
  dsimp only
  sl_unfold_words
  rw [View.canon_unit_zero (S := S1024x2048) matmul_hz]
  simp only [View.readAt_eq_ld, harg3.read_unread, harg4.read_unread, harg7.read_unread, View.ld_unit_zero (S := S1024x256) matmul_hz,
    View.ld_unit_zero (S := S2048x256) matmul_hz, View.ld_unit_zero (S := S1024x2048) matmul_hz]

set_option maxHeartbeats 1000000 in
/-- And in the output block that sum, read back from the accumulator, plus the bias row
    broadcast along the rows. -/
theorem out1_C_3_eq (c : Dev nD) (i : grid1.Coords) (arg3 : Memref sig .tc .vmem S1024x256 .f32) (harg3 : arg3.IsWhole) (arg4 : Memref sig .tc .vmem S2048x256 .bf16) (harg4 : arg4.IsWhole) (arg5 : Memref sig .tc .vmem S1x2048 .f32) (harg5 : arg5.IsWhole) (arg6 : Memref sig .tc .vmem S1024x2048 .f32) (harg6 : arg6.IsWhole) (arg7 : Memref sig .tc .vmem S1024x2048 .f32) (harg7 : arg7.IsWhole) (hc0 : ¬cond1_0 i) (hc1 : cond1_1 i)
    (x0 : Vec F S1024x256 .f32) (x1 : Vec F S2048x256 .bf16) (x2 : Vec F S1x2048 .f32) (xs0 : Vec F S1024x2048 .f32) :
    out1_C_3 c i arg3 harg3 arg4 harg4 arg5 harg5 arg6 harg6 arg7 harg7 hc0 hc1 x0 x1 x2 xs0 = k1_pay3 (k1_pay2 x0 x1 xs0) x2 := by
  unfold out1_C_3
  rw [View.read_writes_eq_canon _ _ _ (cover1_C_3 c i arg3 harg3 arg4 harg4 arg5 harg5 arg6 harg6 arg7 harg7 hc0 hc1 x0 x1 x2 xs0)]
  unfold kernelRun1_C
  dsimp only
  sl_unfold_words
  rw [View.canon_unit_zero (S := S1024x2048) matmul_hz, View.readCov_unit_zero (S := S1024x2048) _ matmul_hz]
  simp only [View.readAt_eq_ld, harg3.read_unread, harg4.read_unread, harg5.read_unread, harg7.read_unread,
    View.ld_unit_zero (S := S1024x256) matmul_hz, View.ld_unit_zero (S := S2048x256) matmul_hz,
    View.ld_unit_zero (S := S1024x2048) matmul_hz, View.ld_unit_zero (S := S1x2048) matmul_hz]

end Cert.KernelIdeal.Hand

end
-- ==== Proof.KI.MatmulData.lean ====
/-
  The matrix-product region's proof data. The accumulator the body carries from one grid point to the next holds,
  after the body at a point, the product of that point's activation block and masked-weight block added to what the
  point before left, or to zero at the first step of a reduction; the output block stored at the last step of a
  reduction is that accumulator plus the bias row. The region's invariant names the accumulator's contents between points.
-/
import proofs.«155001_j23046794510859_2_alg».proof.Proof.KI.MatmulShared

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The scoped buffers that are none of this region's staging buffers -/

/-- The other region's staging buffers, each whole at some contents. -/
def otherStg (c : Dev nD) : sProp 𝕄 :=
  iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg3_1), ((c : Thread nD τ).loc cc0_stg3_1) ↦{fullShare} f))

/-- They, beside the accumulator's buffer in state `S`. -/
def stgRest (c : Dev nD) (S : sProp 𝕄) : sProp 𝕄 :=
  iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg3_1), ((c : Thread nD τ).loc cc0_stg3_1) ↦{fullShare} f) ∗ S)

theorem stgRest_out (c : Dev nD) (S : sProp 𝕄) : stgRest (F := F) c S ⊢ iprop(otherStg (F := F) c ∗ S) := by
  unfold stgRest otherStg
  iintro ⟨H1, H2, H3, H4, H5, H6, H7, H8, HS⟩
  isplitl [H1 H2 H3 H4 H5 H6 H7 H8]
  · isplitl [H1]; · iexact H1
    isplitl [H2]; · iexact H2
    isplitl [H3]; · iexact H3
    isplitl [H4]; · iexact H4
    isplitl [H5]; · iexact H5
    isplitl [H6]; · iexact H6
    isplitl [H7]; · iexact H7
    iexact H8
  iexact HS

theorem stgRest_in (c : Dev nD) (S : sProp 𝕄) : iprop(otherStg (F := F) c ∗ S) ⊢ stgRest (F := F) c S := by
  unfold stgRest otherStg
  iintro ⟨⟨H1, H2, H3, H4, H5, H6, H7, H8⟩, HS⟩
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  iexact HS

/-- The class invariant with the accumulator as a memref owned at some contents. -/
theorem PhiA1_eq (c : Dev nD) :
    (Pipeline.ΦA spec1 c : sProp 𝕄)
      = iprop(stgRest (F := F) c (iprop(∃ d, owns (c : Thread nD τ) scM1_0 fullShare d)) ∗ (∃ r, prngReg c r)) := by
  unfold Pipeline.ΦA stgRest; rw [scopedRest1_eq]; simp only [scM1_0, owns_whole]; try rfl

variable (V : (c : Dev nD) → (b : Ref sig .tc) → Buf (Elt F) ((c : Thread nD τ).loc b))

/-! ## The windows' blocks -/

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's current staging buffer holds its block at every point, fetched there or not. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-! ## The accumulator after each point -/

/-- What the accumulator holds after the body at position `n`: this point's product added to zero at the first step
    of a reduction (positions ≡ 0 mod 16), to what the point before left otherwise. -/
def acc1 (c : Dev nD) : (n : ℕ) → n < cfg1.N → Vec F S1024x2048 .f32
  | 0, hn => k1_pay2 (iblk1 V c 0 ⟨0, hn⟩) (iblk1 V c 1 ⟨0, hn⟩) (k1_pay1 (F := F))
  | n + 1, hn =>
    if (n + 1) % 16 = 0 then k1_pay2 (iblk1 V c 0 ⟨n + 1, hn⟩) (iblk1 V c 1 ⟨n + 1, hn⟩) (k1_pay1 (F := F))
    else k1_pay2 (iblk1 V c 0 ⟨n + 1, hn⟩) (iblk1 V c 1 ⟨n + 1, hn⟩) (acc1 c n (Nat.lt_of_succ_lt hn))

theorem acc1_first (c : Dev nD) (t : Fin cfg1.N) (h0 : t.val % 16 = 0) :
    acc1 V c t.val t.isLt = k1_pay2 (iblk1 V c 0 t) (iblk1 V c 1 t) (k1_pay1 (F := F)) := by
  obtain ⟨n, hn⟩ := t
  cases n with
  | zero => exact rfl
  | succ n => exact (if_pos h0).trans rfl

theorem acc1_next (c : Dev nD) (t : Fin cfg1.N) (h0 : ¬t.val % 16 = 0) :
    acc1 V c t.val t.isLt = k1_pay2 (iblk1 V c 0 t) (iblk1 V c 1 t) (acc1 V c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact (if_neg h0).trans rfl

/-! ## The region's invariant -/

/-- Before position `n`: at the first point the class's invariant (every scoped buffer at anything); afterwards the
    accumulator at what the point before left, the other scoped buffers at anything, the generator register at some state. -/
def PhiS1 (c : Dev nD) : (n : ℕ) → n ≤ cfg1.N → sProp 𝕄
  | 0, _ => Pipeline.ΦA spec1 c
  | n + 1, hn => iprop(stgRest (F := F) c (owns (c : Thread nD τ) scM1_0 fullShare (acc1 V c n hn)) ∗ (∃ r, prngReg c r))

theorem PhiS1_zero (c : Dev nD) (n : ℕ) (h : n ≤ cfg1.N) (hz : n = 0) : PhiS1 V c n h = Pipeline.ΦA spec1 c := by
  subst hz; rfl
theorem PhiS1_succ (c : Dev nD) (n : ℕ) (hn : n < cfg1.N) :
    PhiS1 V c (n + 1) hn = iprop(stgRest (F := F) c (owns (c : Thread nD τ) scM1_0 fullShare (acc1 V c n hn)) ∗ (∃ r, prngReg c r)) := rfl
theorem PhiS1_pos (c : Dev nD) (n : ℕ) (h : n ≤ cfg1.N) (hz : n ≠ 0) :
    PhiS1 V c n h = iprop(stgRest (F := F) c (owns (c : Thread nD τ) scM1_0 fullShare (acc1 V c (n - 1) (by omega))) ∗ (∃ r, prngReg c r)) := by
  cases n with
  | zero => exact absurd rfl hz
  | succ n => rfl

/-! ## The proof data -/

/-- The arrays as the region finds them; after the body at a point each input's buffer at its block and the output's at
    the accumulator plus the bias row (consulted only where the block is stored); the invariant above; nothing owed. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => k1_pay3 (acc1 V c t.val t.isLt) (iblk1 V c 2 t)
  Φ t := PhiS1 V c t.val (Nat.le_of_lt_succ t.isLt)
  q _ := fullShare
  owed _ := 0

theorem A_eq1 (c : Dev nD) (w : Fin cfg1.W) : (dat1 V c).A w = V c (Pipeline.arrRef spec1 w) := by
  dsimp only [dat1]
theorem PhiS1_castSucc (c : Dev nD) (t : Fin cfg1.N) :
    (dat1 V c).Φ t.castSucc = PhiS1 V c t.val (Nat.le_of_lt t.isLt) := by
  dsimp only [dat1]; simp only [Fin.coe_castSucc]
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = k1_pay3 (acc1 V c t.val t.isLt) (iblk1 V c 2 t) := by dsimp only [dat1]
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

end Cert.KernelIdeal.Hand

end
-- ==== Proof.KI.Matmul.lean ====
/-
  The matrix-product region's body obligation: the body's run in each of its three control cases (first step of a
  reduction, inner step, last step) meets the invariant that names the accumulator's contents between points.
-/
import proofs.«155001_j23046794510859_2_alg».proof.Proof.KI.MatmulPieces
import proofs.«155001_j23046794510859_2_alg».proof.Proof.KI.MatmulData

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The body obligation -/

def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d)))

def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t)

set_option maxHeartbeats 4800000 in
/-- The body at any point: the inputs' memrefs hold their blocks; the position modulo 16 says which control case the
    point is in; the invariant hands the body the accumulator at what the point before left (at anything at the first
    point) and takes it back at this point's contents; the output's buffer is handed back untouched except at the last
    step of a reduction, where it is stored whole. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).owesAt () t.succ = (dat1 V c).owesAt () t.castSucc from rfl]
  rw [show (dat1 V c).Φ t.succ = PhiS1 V c (t.val + 1) t.isLt from rfl, PhiS1_succ]
  have hN : t.val < 256 := lt_of_lt_of_eq t.isLt (show cfg1.N = 256 from N_1)
  rw [show (dat1 V c).leavesExact 0 t = owns (c : Thread nD τ) (ms1_0 t) fullShare ((dat1 V c).after 0 t) from by
    unfold Dat.leavesExact; rw [liveAt1_0 t], after1_0]
  rw [show (dat1 V c).leavesExact 1 t = owns (c : Thread nD τ) (ms1_1 t) fullShare ((dat1 V c).after 1 t) from by
    unfold Dat.leavesExact; rw [liveAt1_1 t], after1_1]
  rw [show (dat1 V c).leavesExact 2 t = owns (c : Thread nD τ) (ms1_2 t) fullShare ((dat1 V c).after 2 t) from by
    unfold Dat.leavesExact; rw [liveAt1_2 t], after1_2]
  by_cases h0 : t.val % 16 = 0
  · by_cases h1 : t.val % 16 = 15
    · exfalso; omega
    · rw [Dat.leavesExact_idle (dat1 V c) 3 t (idleAt1_3_A t ((hcond1_0 t).mpr h0) (fun h => h1 ((hcond1_1 t).mp h))) (noFlush1_3_A t ((hcond1_0 t).mpr h0) (fun h => h1 ((hcond1_1 t).mp h)))]
      rw [acc1_first V c t h0, ← sout1_A_eq c (grid1.coords t) (ms1_0 t) (hs1_0 t) (ms1_1 t) (hs1_1 t) (ms1_2 t) (hs1_2 t) (ms1_3 t) (hs1_3 t) scM1_0 (Memref.isWhole_whole _) ((hcond1_0 t).mpr h0) (fun h => h1 ((hcond1_1 t).mp h)) (iblk1 V c 0 t) (iblk1 V c 1 t) (iblk1 V c 2 t)]
      unfold sout1_A; (try dsimp only)
      by_cases hz : t.val = 0
      · rw [PhiS1_castSucc V c t, PhiS1_zero V c _ _ hz, PhiA1_eq]
        iintro ⟨⟨HR, Hg⟩, Ho, ⟨%d0, H0⟩, ⟨%d1, H1⟩, ⟨%d2, H2⟩, ⟨%d3, H3⟩⟩
        ihave HR' := (stgRest_out c _) $$ HR
        icases HR' with ⟨Hoth, HS0⟩
        iapply ((kernelRun1_A c (grid1.coords t) (ms1_0 t) (hs1_0 t) (ms1_1 t) (hs1_1 t) (ms1_2 t) (hs1_2 t) (ms1_3 t) (hs1_3 t) scM1_0 (Memref.isWhole_whole _) ((hcond1_0 t).mpr h0) (fun h => h1 ((hcond1_1 t).mp h)) (iblk1 V c 0 t) (iblk1 V c 1 t) (iblk1 V c 2 t)).2.2 _ Set.univ _)
        isplitl [H0]; · iexact H0
        isplitl [H1]; · iexact H1
        isplitl [H2]; · iexact H2
        isplitl [H3]; · iexact H3
        isplitl [HS0]; · iexact HS0
        iintro ⟨H0, H1, H2, H3, ⟨%es0, HS0⟩⟩
        isplitl [HS0 Hoth Hg]
        · isplitl [HS0 Hoth]
          · iapply (stgRest_in c _)
            isplitl [Hoth]; · iexact Hoth
            unfold owns; iexists _; isplitr
            swap; · iexact HS0
            ipureintro; exact View.read_writes_of_cover _ _ _ _ _ (scover1_A c (grid1.coords t) (ms1_0 t) (hs1_0 t) (ms1_1 t) (hs1_1 t) (ms1_2 t) (hs1_2 t) (ms1_3 t) (hs1_3 t) scM1_0 (Memref.isWhole_whole _) ((hcond1_0 t).mpr h0) (fun h => h1 ((hcond1_1 t).mp h)) (iblk1 V c 0 t) (iblk1 V c 1 t) (iblk1 V c 2 t))
          iexact Hg
        isplitl [Ho]; · iexact Ho
        isplitl [H0]; · iexact H0
        isplitl [H1]; · iexact H1
        isplitl [H2]; · iexact H2
        iexists _; iexact H3
      · rw [PhiS1_castSucc V c t, PhiS1_pos V c _ _ hz]
        iintro ⟨⟨HR, Hg⟩, Ho, ⟨%d0, H0⟩, ⟨%d1, H1⟩, ⟨%d2, H2⟩, ⟨%d3, H3⟩⟩
        ihave HR' := (stgRest_out c _) $$ HR
        icases HR' with ⟨Hoth, HS0⟩
        iapply ((kernelRun1_A c (grid1.coords t) (ms1_0 t) (hs1_0 t) (ms1_1 t) (hs1_1 t) (ms1_2 t) (hs1_2 t) (ms1_3 t) (hs1_3 t) scM1_0 (Memref.isWhole_whole _) ((hcond1_0 t).mpr h0) (fun h => h1 ((hcond1_1 t).mp h)) (iblk1 V c 0 t) (iblk1 V c 1 t) (iblk1 V c 2 t)).2.2 _ Set.univ _)
        isplitl [H0]; · iexact H0
        isplitl [H1]; · iexact H1
        isplitl [H2]; · iexact H2
        isplitl [H3]; · iexact H3
        isplitl [HS0]; · iexists _; iexact HS0
        iintro ⟨H0, H1, H2, H3, ⟨%es0, HS0⟩⟩
        isplitl [HS0 Hoth Hg]
        · isplitl [HS0 Hoth]
          · iapply (stgRest_in c _)
            isplitl [Hoth]; · iexact Hoth
            unfold owns; iexists _; isplitr
            swap; · iexact HS0
            ipureintro; exact View.read_writes_of_cover _ _ _ _ _ (scover1_A c (grid1.coords t) (ms1_0 t) (hs1_0 t) (ms1_1 t) (hs1_1 t) (ms1_2 t) (hs1_2 t) (ms1_3 t) (hs1_3 t) scM1_0 (Memref.isWhole_whole _) ((hcond1_0 t).mpr h0) (fun h => h1 ((hcond1_1 t).mp h)) (iblk1 V c 0 t) (iblk1 V c 1 t) (iblk1 V c 2 t))
          iexact Hg
        isplitl [Ho]; · iexact Ho
        isplitl [H0]; · iexact H0
        isplitl [H1]; · iexact H1
        isplitl [H2]; · iexact H2
        iexists _; iexact H3
  · by_cases h1 : t.val % 16 = 15
    · rw [show (dat1 V c).leavesExact 3 t = owns (c : Thread nD τ) (ms1_3 t) fullShare ((dat1 V c).after 3 t) from by
        unfold Dat.leavesExact; rw [liveAt1_3_C t (fun h => h0 ((hcond1_0 t).mp h)) ((hcond1_1 t).mpr h1)], after1_3]
      rw [acc1_next V c t h0, ← out1_C_3_eq c (grid1.coords t) (ms1_0 t) (hs1_0 t) (ms1_1 t) (hs1_1 t) (ms1_2 t) (hs1_2 t) (ms1_3 t) (hs1_3 t) scM1_0 (Memref.isWhole_whole _) (fun h => h0 ((hcond1_0 t).mp h)) ((hcond1_1 t).mpr h1) (iblk1 V c 0 t) (iblk1 V c 1 t) (iblk1 V c 2 t) (acc1 V c (t.val - 1) (Nat.lt_of_le_of_lt (Nat.sub_le _ _) t.isLt)),
        ← sout1_C_eq c (grid1.coords t) (ms1_0 t) (hs1_0 t) (ms1_1 t) (hs1_1 t) (ms1_2 t) (hs1_2 t) (ms1_3 t) (hs1_3 t) scM1_0 (Memref.isWhole_whole _) (fun h => h0 ((hcond1_0 t).mp h)) ((hcond1_1 t).mpr h1) (iblk1 V c 0 t) (iblk1 V c 1 t) (iblk1 V c 2 t) (acc1 V c (t.val - 1) (Nat.lt_of_le_of_lt (Nat.sub_le _ _) t.isLt))]
      unfold out1_C_3 sout1_C; (try dsimp only)
      by_cases hz : t.val = 0
      · exfalso; omega
      · rw [PhiS1_castSucc V c t, PhiS1_pos V c _ _ hz]
        iintro ⟨⟨HR, Hg⟩, Ho, ⟨%d0, H0⟩, ⟨%d1, H1⟩, ⟨%d2, H2⟩, ⟨%d3, H3⟩⟩
        ihave HR' := (stgRest_out c _) $$ HR
        icases HR' with ⟨Hoth, HS0⟩
        iapply ((kernelRun1_C c (grid1.coords t) (ms1_0 t) (hs1_0 t) (ms1_1 t) (hs1_1 t) (ms1_2 t) (hs1_2 t) (ms1_3 t) (hs1_3 t) scM1_0 (Memref.isWhole_whole _) (fun h => h0 ((hcond1_0 t).mp h)) ((hcond1_1 t).mpr h1) (iblk1 V c 0 t) (iblk1 V c 1 t) (iblk1 V c 2 t) _).2.2 Set.univ _)
        isplitl [H0]; · iexact H0
        isplitl [H1]; · iexact H1
        isplitl [H2]; · iexact H2
        isplitl [H3]; · iexists _; iexact H3
        isplitl [HS0]; · iexact HS0
        iintro ⟨H0, H1, H2, ⟨%e3, H3⟩, ⟨%es0, HS0⟩⟩
        isplitl [HS0 Hoth Hg]
        · isplitl [HS0 Hoth]
          · iapply (stgRest_in c _)
            isplitl [Hoth]; · iexact Hoth
            unfold owns; iexists _; isplitr
            swap; · iexact HS0
            ipureintro; exact View.read_writes_of_cover _ _ _ _ _ (scover1_C c (grid1.coords t) (ms1_0 t) (hs1_0 t) (ms1_1 t) (hs1_1 t) (ms1_2 t) (hs1_2 t) (ms1_3 t) (hs1_3 t) scM1_0 (Memref.isWhole_whole _) (fun h => h0 ((hcond1_0 t).mp h)) ((hcond1_1 t).mpr h1) (iblk1 V c 0 t) (iblk1 V c 1 t) (iblk1 V c 2 t) _)
          iexact Hg
        isplitl [Ho]; · iexact Ho
        isplitl [H0]; · iexact H0
        isplitl [H1]; · iexact H1
        isplitl [H2]; · iexact H2
        unfold owns; iexists _; isplitr
        swap; · iexact H3
        ipureintro; exact View.read_writes_of_cover _ _ _ _ _ (cover1_C_3 c (grid1.coords t) (ms1_0 t) (hs1_0 t) (ms1_1 t) (hs1_1 t) (ms1_2 t) (hs1_2 t) (ms1_3 t) (hs1_3 t) scM1_0 (Memref.isWhole_whole _) (fun h => h0 ((hcond1_0 t).mp h)) ((hcond1_1 t).mpr h1) (iblk1 V c 0 t) (iblk1 V c 1 t) (iblk1 V c 2 t) _)
    · rw [Dat.leavesExact_idle (dat1 V c) 3 t (idleAt1_3_B t (fun h => h0 ((hcond1_0 t).mp h)) (fun h => h1 ((hcond1_1 t).mp h))) (noFlush1_3_B t (fun h => h0 ((hcond1_0 t).mp h)) (fun h => h1 ((hcond1_1 t).mp h)))]
      rw [acc1_next V c t h0, ← sout1_B_eq c (grid1.coords t) (ms1_0 t) (hs1_0 t) (ms1_1 t) (hs1_1 t) (ms1_2 t) (hs1_2 t) (ms1_3 t) (hs1_3 t) scM1_0 (Memref.isWhole_whole _) (fun h => h0 ((hcond1_0 t).mp h)) (fun h => h1 ((hcond1_1 t).mp h)) (iblk1 V c 0 t) (iblk1 V c 1 t) (iblk1 V c 2 t) (acc1 V c (t.val - 1) (Nat.lt_of_le_of_lt (Nat.sub_le _ _) t.isLt))]
      unfold sout1_B; (try dsimp only)
      by_cases hz : t.val = 0
      · exfalso; omega
      · rw [PhiS1_castSucc V c t, PhiS1_pos V c _ _ hz]
        iintro ⟨⟨HR, Hg⟩, Ho, ⟨%d0, H0⟩, ⟨%d1, H1⟩, ⟨%d2, H2⟩, ⟨%d3, H3⟩⟩
        ihave HR' := (stgRest_out c _) $$ HR
        icases HR' with ⟨Hoth, HS0⟩
        iapply ((kernelRun1_B c (grid1.coords t) (ms1_0 t) (hs1_0 t) (ms1_1 t) (hs1_1 t) (ms1_2 t) (hs1_2 t) (ms1_3 t) (hs1_3 t) scM1_0 (Memref.isWhole_whole _) (fun h => h0 ((hcond1_0 t).mp h)) (fun h => h1 ((hcond1_1 t).mp h)) (iblk1 V c 0 t) (iblk1 V c 1 t) (iblk1 V c 2 t) _).2.2 _ Set.univ _)
        isplitl [H0]; · iexact H0
        isplitl [H1]; · iexact H1
        isplitl [H2]; · iexact H2
        isplitl [H3]; · iexact H3
        isplitl [HS0]; · iexact HS0
        iintro ⟨H0, H1, H2, H3, ⟨%es0, HS0⟩⟩
        isplitl [HS0 Hoth Hg]
        · isplitl [HS0 Hoth]
          · iapply (stgRest_in c _)
            isplitl [Hoth]; · iexact Hoth
            unfold owns; iexists _; isplitr
            swap; · iexact HS0
            ipureintro; exact View.read_writes_of_cover _ _ _ _ _ (scover1_B c (grid1.coords t) (ms1_0 t) (hs1_0 t) (ms1_1 t) (hs1_1 t) (ms1_2 t) (hs1_2 t) (ms1_3 t) (hs1_3 t) scM1_0 (Memref.isWhole_whole _) (fun h => h0 ((hcond1_0 t).mp h)) (fun h => h1 ((hcond1_1 t).mp h)) (iblk1 V c 0 t) (iblk1 V c 1 t) (iblk1 V c 2 t) _)
          iexact Hg
        isplitl [Ho]; · iexact Ho
        isplitl [H0]; · iexact H0
        isplitl [H1]; · iexact H1
        isplitl [H2]; · iexact H2
        iexists _; iexact H3

/-- The library's body obligation, at every point. -/
theorem body_obligation1 (c : Dev nD) : BodyObligation (dat1 (F := F) V c) (defs₀ (F := F)) Variants.none () Set.univ := fun t => by
  rw [bigSep_W1, bigSep_W1]
  exact sound_body1 V c t

/-- What the launch hands the region is the invariant before the first point. -/
theorem hin1 (c : Dev nD) : Pipeline.ΦA spec1 c ⊢ (dat1 V c).Φ 0 := by
  rw [show (dat1 V c).Φ 0 = PhiS1 V c 0 (Nat.zero_le _) from rfl, PhiS1_zero V c 0 _ rfl]
  try exact Idealize.SL.BI.Entails.refl _

/-- After any point but the first the invariant gives the class's back: the accumulator's contents are forgotten. -/
theorem Phi_out1 (c : Dev nD) (t : Fin (cfg1.N + 1)) (ht : t.val ≠ 0) : (dat1 V c).Φ t ⊢ Pipeline.ΦA spec1 c := by
  rw [show (dat1 V c).Φ t = PhiS1 V c t.val (Nat.le_of_lt_succ t.isLt) from rfl, PhiS1_pos V c _ _ ht, PhiA1_eq]
  iintro ⟨HR, Hg⟩
  ihave HR' := (stgRest_out c _) $$ HR
  icases HR' with ⟨Hoth, HS0⟩
  isplitl [Hoth HS0]
  · iapply (stgRest_in c _)
    isplitl [Hoth]; · iexact Hoth
    iexists _; iexact HS0
  iexact Hg

theorem hout1 (c : Dev nD) : (dat1 V c).Φ (Fin.last cfg1.N) ⊢ Pipeline.ΦA spec1 c :=
  Phi_out1 V c _ (by rw [Fin.val_last]; have : cfg1.N = 256 := N_1; omega)

end Cert.KernelIdeal.Hand

end
-- ==== Proof.KI.Run.lean ====
/-
  The whole run of the program: a host slice, the masking region, a host reshape, the matrix-product region.
  Between two items a core holds every unscoped buffer whole; a region takes its windows' arrays out of them, runs its
  pipeline over its proof data, and puts the arrays back at what the write-backs leave. The last state read against the
  final memory gives every unscoped buffer's final contents: the arguments as launched, the result at what region 1's
  write-backs leave.
-/
import proofs.«155001_j23046794510859_2_alg».proof.Proof.KI.Mask
import proofs.«155001_j23046794510859_2_alg».proof.Proof.KI.Matmul

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers' contents between items -/

/-- Core `c`'s buffers at launch. -/
abbrev B0 : Dev nD → Valuation τ sig (Elt F) := fun c b => (s₀ m ρ).mem ((c : Dev nD), b)
/-- After the slice of the kind matrix's first row. -/
abbrev B1 : Dev nD → Valuation τ sig (Elt F) := fun c => StableHlo.after hostOps0 (B0 m ρ c)
/-- The same at the TensorCore's references: what the masking region is entered from. -/
abbrev E1 : (c : Dev nD) → (b : Ref sig .tc) → Buf (Elt F) ((c : Thread nD τ).loc b) := fun c b => B1 m ρ c b
/-- After the masking region: its arrays at what its pipeline leaves, every other buffer as entered. -/
def B2 (c : Dev nD) : Valuation τ sig (Elt F) :=
  Pipeline.withArrays spec0 c (B1 m ρ c) fun w => (dat0 (E1 m ρ) c).arrAt w cfg0.N
theorem B2_arr (c : Dev nD) (w : Fin cfg0.W) :
    B2 m ρ c (Proc.devRef .tc (Pipeline.arrRef spec0 w)) = (dat0 (E1 m ρ) c).arrAt w cfg0.N := by
  unfold B2; exact Pipeline.withArrays_arr spec0 launch0.win.arr_inj c _ _ w
theorem B2_of_ne (c : Dev nD) (b : Ref sig .tc) (hb : ∀ w, Pipeline.arrRef spec0 w ≠ b) :
    B2 m ρ c (Proc.devRef .tc b) = B1 m ρ c (Proc.devRef .tc b) := by
  unfold B2; exact Pipeline.withArrays_of_ne spec0 c _ _ b hb
abbrev E2 : (c : Dev nD) → (b : Ref sig .tc) → Buf (Elt F) ((c : Thread nD τ).loc b) := fun c b => B2 m ρ c b
theorem hF0 (c : Dev nD) (w : Fin cfg0.W) : (dat0 (E1 m ρ) c).arrAt w cfg0.N = E2 m ρ c (Pipeline.arrRef spec0 w) :=
  (B2_arr m ρ c w).symm
theorem hrest0 (c : Dev nD) : ∀ b, b ∉ Finset.univ.image (Pipeline.arrRef spec0) → E2 m ρ c b = E1 m ρ c b :=
  fun b hb => B2_of_ne m ρ c b fun w e => hb (Finset.mem_image.mpr ⟨w, Finset.mem_univ _, e⟩)

/-- After the reshape of the bias to one row. -/
abbrev B3 : Dev nD → Valuation τ sig (Elt F) := fun c => StableHlo.after hostOps1 (B2 m ρ c)
/-- What the matrix-product region is entered from. -/
abbrev E3 : (c : Dev nD) → (b : Ref sig .tc) → Buf (Elt F) ((c : Thread nD τ).loc b) := fun c b => B3 m ρ c b
/-- After the matrix-product region. -/
def B4 (c : Dev nD) : Valuation τ sig (Elt F) :=
  Pipeline.withArrays spec1 c (B3 m ρ c) fun w => (dat1 (E3 m ρ) c).arrAt w cfg1.N
theorem B4_arr (c : Dev nD) (w : Fin cfg1.W) :
    B4 m ρ c (Proc.devRef .tc (Pipeline.arrRef spec1 w)) = (dat1 (E3 m ρ) c).arrAt w cfg1.N := by
  unfold B4; exact Pipeline.withArrays_arr spec1 launch1.win.arr_inj c _ _ w
theorem B4_of_ne (c : Dev nD) (b : Ref sig .tc) (hb : ∀ w, Pipeline.arrRef spec1 w ≠ b) :
    B4 m ρ c (Proc.devRef .tc b) = B3 m ρ c (Proc.devRef .tc b) := by
  unfold B4; exact Pipeline.withArrays_of_ne spec1 c _ _ b hb
abbrev E4 : (c : Dev nD) → (b : Ref sig .tc) → Buf (Elt F) ((c : Thread nD τ).loc b) := fun c b => B4 m ρ c b
theorem hF1 (c : Dev nD) (w : Fin cfg1.W) : (dat1 (E3 m ρ) c).arrAt w cfg1.N = E4 m ρ c (Pipeline.arrRef spec1 w) :=
  (B4_arr m ρ c w).symm
theorem hrest1 (c : Dev nD) : ∀ b, b ∉ Finset.univ.image (Pipeline.arrRef spec1) → E4 m ρ c b = E3 m ρ c b :=
  fun b hb => B4_of_ne m ρ c b fun w e => hb (Finset.mem_image.mpr ⟨w, Finset.mem_univ _, e⟩)

/-! ## A host stretch leaves every buffer it does not write -/

theorem hostOps0_keeps (Wv : Valuation τ sig (Elt F)) (b : Ref sig .tc) (hb : b ≠ main_v0) :
    StableHlo.after hostOps0 Wv (Proc.devRef .tc b) = Wv (Proc.devRef .tc b) :=
  StableHlo.after_of_forall_not_mem (b := Proc.devRef .tc b) _ _ (List.forall_iff_forall_mem.mp (by
    simp only [hostOps0, List.Forall, StableHlo.unary_writes, StableHlo.reshape_writes, Finset.mem_singleton]
    exact StableHlo.devRef_ne_of_ne hb))
theorem hostOps1_keeps (Wv : Valuation τ sig (Elt F)) (b : Ref sig .tc) (hb : b ≠ main_v2) :
    StableHlo.after hostOps1 Wv (Proc.devRef .tc b) = Wv (Proc.devRef .tc b) :=
  StableHlo.after_of_forall_not_mem (b := Proc.devRef .tc b) _ _ (List.forall_iff_forall_mem.mp (by
    simp only [hostOps1, List.Forall, StableHlo.unary_writes, StableHlo.reshape_writes, Finset.mem_singleton]
    exact StableHlo.devRef_ne_of_ne hb))

/-! ## The arguments end as launched -/

theorem B4_main_arg0 (c : Dev nD) : B4 m ρ c (Proc.devRef .tc main_arg0) = m ((c : Thread nD τ).loc main_arg0) :=
  calc B4 m ρ c (Proc.devRef .tc main_arg0)
    _ = B3 m ρ c (Proc.devRef .tc main_arg0) := (B4_arr m ρ c 0).trans (((dat1 (E3 m ρ) c).arrAt_in 0 rfl _).trans (A_eq1 (E3 m ρ) c 0))
    _ = B2 m ρ c (Proc.devRef .tc main_arg0) := hostOps1_keeps _ main_arg0 (by decide)
    _ = B1 m ρ c (Proc.devRef .tc main_arg0) := B2_of_ne m ρ c main_arg0 (by decide)
    _ = B0 m ρ c (Proc.devRef .tc main_arg0) := hostOps0_keeps _ main_arg0 (by decide)
    _ = m ((c : Thread nD τ).loc main_arg0) := rfl
theorem B4_main_arg1 (c : Dev nD) : B4 m ρ c (Proc.devRef .tc main_arg1) = m ((c : Thread nD τ).loc main_arg1) :=
  calc B4 m ρ c (Proc.devRef .tc main_arg1)
    _ = B3 m ρ c (Proc.devRef .tc main_arg1) := B4_of_ne m ρ c main_arg1 (by decide)
    _ = B2 m ρ c (Proc.devRef .tc main_arg1) := hostOps1_keeps _ main_arg1 (by decide)
    _ = B1 m ρ c (Proc.devRef .tc main_arg1) := (B2_arr m ρ c 0).trans (((dat0 (E1 m ρ) c).arrAt_in 0 rfl _).trans (A_eq0 (E1 m ρ) c 0))
    _ = B0 m ρ c (Proc.devRef .tc main_arg1) := hostOps0_keeps _ main_arg1 (by decide)
    _ = m ((c : Thread nD τ).loc main_arg1) := rfl
theorem B4_main_arg2 (c : Dev nD) : B4 m ρ c (Proc.devRef .tc main_arg2) = m ((c : Thread nD τ).loc main_arg2) :=
  calc B4 m ρ c (Proc.devRef .tc main_arg2)
    _ = B3 m ρ c (Proc.devRef .tc main_arg2) := B4_of_ne m ρ c main_arg2 (by decide)
    _ = B2 m ρ c (Proc.devRef .tc main_arg2) := hostOps1_keeps _ main_arg2 (by decide)
    _ = B1 m ρ c (Proc.devRef .tc main_arg2) := B2_of_ne m ρ c main_arg2 (by decide)
    _ = B0 m ρ c (Proc.devRef .tc main_arg2) := hostOps0_keeps _ main_arg2 (by decide)
    _ = m ((c : Thread nD τ).loc main_arg2) := rfl
theorem B4_main_arg3 (c : Dev nD) : B4 m ρ c (Proc.devRef .tc main_arg3) = m ((c : Thread nD τ).loc main_arg3) :=
  calc B4 m ρ c (Proc.devRef .tc main_arg3)
    _ = B3 m ρ c (Proc.devRef .tc main_arg3) := B4_of_ne m ρ c main_arg3 (by decide)
    _ = B2 m ρ c (Proc.devRef .tc main_arg3) := hostOps1_keeps _ main_arg3 (by decide)
    _ = B1 m ρ c (Proc.devRef .tc main_arg3) := B2_of_ne m ρ c main_arg3 (by decide)
    _ = B0 m ρ c (Proc.devRef .tc main_arg3) := hostOps0_keeps _ main_arg3 (by decide)
    _ = m ((c : Thread nD τ).loc main_arg3) := rfl
theorem B4_main_arg4 (c : Dev nD) : B4 m ρ c (Proc.devRef .tc main_arg4) = m ((c : Thread nD τ).loc main_arg4) :=
  calc B4 m ρ c (Proc.devRef .tc main_arg4)
    _ = B3 m ρ c (Proc.devRef .tc main_arg4) := B4_of_ne m ρ c main_arg4 (by decide)
    _ = B2 m ρ c (Proc.devRef .tc main_arg4) := hostOps1_keeps _ main_arg4 (by decide)
    _ = B1 m ρ c (Proc.devRef .tc main_arg4) := (B2_arr m ρ c 2).trans (((dat0 (E1 m ρ) c).arrAt_in 2 rfl _).trans (A_eq0 (E1 m ρ) c 2))
    _ = B0 m ρ c (Proc.devRef .tc main_arg4) := hostOps0_keeps _ main_arg4 (by decide)
    _ = m ((c : Thread nD τ).loc main_arg4) := rfl

/-- The result buffer ends at what region 1's write-backs leave in its output window's array. -/
theorem B4_main_v3 (c : Dev nD) : B4 m ρ c (Proc.devRef .tc main_v3) = (dat1 (E3 m ρ) c).arrAt 3 cfg1.N :=
  B4_arr m ρ c 3

/-! ## The proof data family and the thread state -/

abbrev adm : (p : Fin 2) → (pcfgs (F := F) p).Adm := fun p => (cfgs p).toPCfg_adm
/-- Every pipeline's proof data, each at its region's entry contents. -/
def pdats : (p : Fin 2) → (c : Dev nD) → Dat τ (Elt F) Unit ℕ (UR sig nD τ) ℕ (Pipeline.pin (pcfgs (F := F)) adm p) c
  | ⟨0, _⟩ => fun c => dat0 (E1 m ρ) c
  | ⟨1, _⟩ => fun c => dat1 (E3 m ρ) c
abbrev 𝒱₀ : Variants := Variants.none
abbrev L : GSem nD τ sig → Finset Unit := fun _ => ∅
abbrev lv : GSem nD τ sig → Unit → ℕ := fun _ _ => 0
/-- What rides beside the buffers through every item: the core's generator register at some state and its dues, at nothing. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (Wv : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) Wv R

theorem hostOps0_fresh' : (hostOps0 : List (HloOp τ sig (Elt F))).Forall fun op => op.fresh = ∅ := by
  simp only [List.Forall]; repeat' constructor
theorem hostOps1_fresh' : (hostOps1 : List (HloOp τ sig (Elt F))).Forall fun op => op.fresh = ∅ := by
  simp only [List.Forall]; repeat' constructor
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the dues. -/
abbrev Tn (c : Dev nD) : sProp 𝕄 := iprop(StableHlo.held (c : Thread nD τ) (Pipeline.ucRefs τ sig) (B4 m ρ c) ∗ ∃ r, prngReg c r)

/-! ## The regions as segments -/

set_option backward.isDefEq.respectTransparency.types false in
/-- The masking region: entered from every unscoped buffer at `B1`, left at `B2`. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (E1 m ρ) c).loose
  hwaits := Pipeline.hwaits_of_owed_zero _ _ _ _ L lv 0 fun _ _ => rfl
  pre c := iprop(StableHlo.held (c : Thread nD τ) (Pipeline.ucRefs τ sig) (B1 m ρ c) ∗ R c)
  post c := iprop(StableHlo.held (c : Thread nD τ) (Pipeline.ucRefs τ sig) (B2 m ρ c) ∗ R c)
  X c := iprop(∃ r, prngReg c r)
  Y c := iprop(∃ r, prngReg c r)
  Z c := Pipeline.unscopedRest (Ix := Unit) (Name := ℕ) (U := UR sig nD τ) (Lvl := ℕ) spec0 c (E1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (E1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (E1 m ρ c) (E2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The matrix-product region: entered from every unscoped buffer at `B3`, left at `B4`. Its invariant starts as
    the scoped rest with the generator register and ends as it, the accumulator's contents forgotten. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (E3 m ρ) c).loose
  hwaits := Pipeline.hwaits_of_owed_zero _ _ _ _ L lv 1 fun _ _ => rfl
  pre c := iprop(StableHlo.held (c : Thread nD τ) (Pipeline.ucRefs τ sig) (B3 m ρ c) ∗ R c)
  post c := iprop(Tn m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (E3 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (E3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none]
    have hgive : (Pipeline.ΦA spec1 c : sProp 𝕄)
        ⊢ iprop((∃ r, prngReg c r) ∗ BI.emp ∗ Pipeline.scopedRest (Pipeline.pin (pcfgs (F := F)) adm 1).spec c) := by
      unfold Pipeline.ΦA
      iintro ⟨Hr, Hp⟩
      isplitl [Hp]; · iexact Hp
      isplitr; · iempintro
      iexact Hr
    exact (hout1 (E3 m ρ) c).trans hgive
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (E3 m ρ c) (E4 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## The program as its items, and the launch -/

abbrev segs : List (Pipeline.Seg (pcfgs (F := F)) adm (pdats m ρ) () defs₀ 𝒱₀ L lv) :=
  [ .host (hseg hostOps0 hostOps0_sub hostOps0_fresh' (B0 m ρ)),
    .region (reg0 m ρ),
    .host (hseg hostOps1 hostOps1_sub hostOps1_fresh' (B2 m ρ)),
    .region (reg1 m ρ) ]
theorem main_run (c : Dev nD) : main (F := F) c = Pipeline.Seg.run (segs m ρ) := (main_chain c).trans (by chain_rfl)

set_option backward.isDefEq.respectTransparency.types false in
/-- Every weakly fair execution of the program from memory `m` with zero counters terminates, nothing faulting, and every
    final memory holds each unscoped buffer at `B4`. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = B4 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (B0 m ρ c) ∗ R c)) (Tₙ := Tn m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (B0 m ρ c)
        from Pipeline.unscopedBufs_held c (B0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = B4 m ρ c b)
    (hfin := fun c s' => by
      iintro ⟨⟨Hh, -⟩, HSI⟩
      unfold StableHlo.held
      imodintro
      iapply (pointsTo_read_all (Pipeline.ucRefs τ sig) (fun b => (((c : Thread nD τ)).1, b)) (B4 m ρ c) s')
      isplitl [Hh] <;> iassumption)
    (hQ := fun s h => h)

/-- The frame: every argument array ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c =>
    ⟨(h c _ (mem_uc main_arg0 (by decide))).trans (B4_main_arg0 m ρ c),
     (h c _ (mem_uc main_arg1 (by decide))).trans (B4_main_arg1 m ρ c),
     (h c _ (mem_uc main_arg2 (by decide))).trans (B4_main_arg2 m ρ c),
     (h c _ (mem_uc main_arg3 (by decide))).trans (B4_main_arg3 m ρ c),
     (h c _ (mem_uc main_arg4 (by decide))).trans (B4_main_arg4 m ρ c)⟩) (run_all m ρ)

/-- The run with the result named: the result buffer ends at what region 1's write-backs leave, the arguments as launched. -/
theorem run_result : θ_run defs (onTc (τ := τ) (main (F := F))) ⟨m, fun _ => 0, ρ⟩ (fun r => ∀ c : Dev nD,
      r.2.mem ((c.tc : Thread nD τ).loc main_v3) = (dat1 (E3 m ρ) c).arrAt 3 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c =>
    ⟨(h c _ (mem_uc main_v3 (by decide))).trans (B4_main_v3 m ρ c),
     (h c _ (mem_uc main_arg0 (by decide))).trans (B4_main_arg0 m ρ c),
     (h c _ (mem_uc main_arg1 (by decide))).trans (B4_main_arg1 m ρ c),
     (h c _ (mem_uc main_arg2 (by decide))).trans (B4_main_arg2 m ρ c),
     (h c _ (mem_uc main_arg3 (by decide))).trans (B4_main_arg3 m ρ c),
     (h c _ (mem_uc main_arg4 (by decide))).trans (B4_main_arg4 m ρ c)⟩) (run_all m ρ)

end Cert.KernelIdeal.Hand

end
-- ==== Proof.Spec.lean ====
/-
  The layer both programs compute, as one function of the argument arrays at the extended reals.

  A synapse from neuron k to neuron n carries the weight w(n,k) times its 0/1 connection word s(n,k); the column
  k is excitatory when its kind word d is 1, and then the product is floored at 0, otherwise it is capped at 0.
  The output at (b, n) is the sum over k of x(b,k) times that masked weight, plus the bias of n.
-/
import Idealize.ShloMosaic.PureOps.Ideal
import Idealize.ShloMosaic.Lib.ValueIdx

noncomputable section

open scoped BigOperators

namespace Cert.Spec

open Idealize.ShloMosaic Idealize.ShloMosaic.ValueIdx

/-- One masked weight: the weight times its connection word, floored at zero in an excitatory column (kind word 1)
    and capped at zero in any other. -/
def maskedWeight (w : EReal) (s d : BitVec 32) : EReal :=
  Scalar.select (IntOp.cmpi .eq d 1#32)
    (max (w * ((s.toInt : ℝ) : EReal)) (Ideal.ofBits .f32 0x00000000#32))
    (min (w * ((s.toInt : ℝ) : EReal)) (Ideal.ofBits .f32 0x00000000#32))

/-- The masked weight matrix at (n, k), the kind of column k read in row `r` of the kind matrix. -/
def maskedAt (weight : (⟨2, ![4096, 4096]⟩ : Shape).Idx → EReal) (dale sparse : (⟨2, ![4096, 4096]⟩ : Shape).Idx → BitVec 32)
    (r n k : Fin 4096) : EReal :=
  maskedWeight (weight (ix2 n k)) (sparse (ix2 n k)) (dale (ix2 r k))

/-- The output at (b, n): the sum over k of x(b,k) times the masked weight (n,k), each column's kind read in its
    own row n, plus the bias of n. -/
def out (x : (⟨2, ![8192, 4096]⟩ : Shape).Idx → EReal) (weight : (⟨2, ![4096, 4096]⟩ : Shape).Idx → EReal)
    (bias : (⟨1, ![4096]⟩ : Shape).Idx → EReal) (dale sparse : (⟨2, ![4096, 4096]⟩ : Shape).Idx → BitVec 32)
    (b : Fin 8192) (n : Fin 4096) : EReal :=
  (∑ k : Fin 4096, x (ix2 b k) * maskedAt weight dale sparse n n k) + bias (ix1 n)

/-- The same with every column's kind read in row 0 of the kind matrix. -/
def outRow0 (x : (⟨2, ![8192, 4096]⟩ : Shape).Idx → EReal) (weight : (⟨2, ![4096, 4096]⟩ : Shape).Idx → EReal)
    (bias : (⟨1, ![4096]⟩ : Shape).Idx → EReal) (dale sparse : (⟨2, ![4096, 4096]⟩ : Shape).Idx → BitVec 32)
    (b : Fin 8192) (n : Fin 4096) : EReal :=
  (∑ k : Fin 4096, x (ix2 b k) * maskedAt weight dale sparse 0 n k) + bias (ix1 n)

/-- When every row of the kind matrix is its row 0 the two agree. -/
theorem out_eq_outRow0 (x : (⟨2, ![8192, 4096]⟩ : Shape).Idx → EReal) (weight : (⟨2, ![4096, 4096]⟩ : Shape).Idx → EReal)
    (bias : (⟨1, ![4096]⟩ : Shape).Idx → EReal) (dale sparse : (⟨2, ![4096, 4096]⟩ : Shape).Idx → BitVec 32)
    (hrows : ∀ n k : Fin 4096, dale (ix2 n k) = dale (ix2 (0 : Fin 4096) k)) (b : Fin 8192) (n : Fin 4096) :
    out x weight bias dale sparse b n = outRow0 x weight bias dale sparse b n := by
  unfold out outRow0 maskedAt
  simp only [hrows n]

end Cert.Spec

end
-- ==== Proof.KI.MaskValue.lean ====
/-
  What region 0 leaves in the masked-weight array, at the extended reals.

  At an index (n, k) the body's payload is the weight times the connection word, floored at zero when the kind word
  of column k is 1 and capped at zero otherwise; rounding to the narrower format is the identity at the extended
  reals. Every grid point writes its own block of one whole-array function, and the blocks tile the array.
-/
import proofs.«155001_j23046794510859_2_alg».proof.Proof.KI.Mask
import proofs.«155001_j23046794510859_2_alg».proof.Proof.Spec
import Idealize.ShloMosaic.Lib.ValueIdx
import Idealize.ShloMosaic.Lib.Pipeline.Value
import Idealize.ShloMosaic.Lib.ValueLayout

set_option maxRecDepth 16384

noncomputable section

namespace Cert.KernelIdeal.Hand

open Cert.KernelIdeal Cert.KernelIdeal.Gen
open Idealize.ShloMosaic Idealize.ShloMosaic.TcCoe Idealize.SL.Sem
open Idealize.ShloMosaic.ValueIdx
open Idealize.ShloMosaic.Pipeline (Dat)

/-! ## The payload at an index -/

set_option maxHeartbeats 400000 in
/-- The stored value at (p, q) of a block: the masked weight of the weight and connection words at (p, q) and the
    kind word at (0, q) of the row block. -/
theorem pay_ix (x0 : FVec Ideal S512x512 .f32) (x2 : IVec S512x512 32) (x1 : IVec S1x512 32) (p q : Fin 512) :
    k0_pay1 (F := Ideal) x0 x2 x1 (ix2 p q)
      = Cert.Spec.maskedWeight (x0 (ix2 p q)) (x2 (ix2 p q)) (x1 (ix2 (0 : Fin 1) q)) := by
  unfold k0_pay1 Cert.Spec.maskedWeight
  simp only [shapeCast_self]
  have hb : broadcastTo S512x512 x1 broadcasts_S1x512_S512x512 (ix2 p q) = x1 (ix2 (0 : Fin 1) q) :=
    broadcastTo_apply x1 _ (ix2 p q) (ix2 (0 : Fin 1) q) (fun a => by match a with | ⟨0, _⟩ => rfl | ⟨1, _⟩ => rfl)
  rw [truncf_apply, select_apply, maximumf_apply, minimumf_apply, mulf_apply, sitofp_apply, broadcast_apply]
  show Scalar.select (IntOp.cmpi .eq (broadcastTo S512x512 x1 broadcasts_S1x512_S512x512 (ix2 p q)) 1#32) _ _ = _
  rw [hb]
  rfl

/-- The same at any index of the block. -/
theorem pay_apply (x0 : FVec Ideal S512x512 .f32) (x2 : IVec S512x512 32) (x1 : IVec S1x512 32) (j : S512x512.Idx) :
    k0_pay1 (F := Ideal) x0 x2 x1 j
      = Cert.Spec.maskedWeight (x0 j) (x2 j) (x1 (ix2 (0 : Fin 1) (j 1))) := by
  obtain ⟨p, q, rfl⟩ : ∃ (p : Fin 512) (q : Fin 512), j = ix2 p q := ⟨j 0, j 1, eq_ix2 j⟩
  exact pay_ix x0 x2 x1 p q

/-! ## The grid's index maps -/

theorem hz : (![0, 0] : Fin 2 → Nat) = fun _ => 0 := funext fun a => by fin_cases a <;> rfl

/-- The printed index maps, decided over the 64 grid points: the weight and connection windows move with the output
    window, the kind-row window stays in block row 0 and moves with the output's block column; the output's block
    indices stay below 8. -/
theorem idx_facts : ∀ t : Fin cfg0.N,
    win0_0.index t (0 : Fin 2) = win0_3.index t (0 : Fin 2) ∧ win0_0.index t (1 : Fin 2) = win0_3.index t (1 : Fin 2)
    ∧ win0_1.index t (0 : Fin 2) = 0 ∧ win0_1.index t (1 : Fin 2) = win0_3.index t (1 : Fin 2)
    ∧ win0_2.index t (0 : Fin 2) = win0_3.index t (0 : Fin 2) ∧ win0_2.index t (1 : Fin 2) = win0_3.index t (1 : Fin 2)
    ∧ win0_3.index t (0 : Fin 2) ≤ 7 ∧ win0_3.index t (1 : Fin 2) ≤ 7 :=
  (by decide +kernel : ∀ t : Fin grid0.N, _)

/-- Every block of the array is some point's. -/
theorem idx_onto : ∀ (q0 : Fin 8) (q1 : Fin 8), ∃ t : Fin cfg0.N, win0_3.index t = ![q0.val, q1.val] :=
  (by decide +kernel : ∀ (q0 : Fin 8) (q1 : Fin 8), ∃ t : Fin grid0.N, win0_3.index t = ![q0.val, q1.val])

/-! ## From blocks to the array -/

section Region
-- the TensorCore's buffer contents when the region is entered
variable (V : (c : Dev nD) → (b : Ref sig .tc) → Buf (Elt Ideal) ((c : Thread nD τ).loc b))

/-- The masked weight array as one function of the weight array, the connection array and the kind row. -/
abbrev maskedArr (a1 : S4096x4096.Idx → Elt Ideal .f32) (a4 : S4096x4096.Idx → Elt Ideal .i32) (a0 : S1x4096.Idx → Elt Ideal .i32) :
    S4096x4096.Idx → Elt Ideal .bf16 :=
  fun i => Cert.Spec.maskedWeight (a1 i) (a4 i) (a0 (ix2 (0 : Fin 1) (i 1)))

set_option maxHeartbeats 1000000 in
/-- What point t writes back is block t of the masked weight array: the weight and connection blocks sit where the
    output block sits, the kind-row block in row 0 over the same columns. -/
theorem flushed_eq (c : Dev nD) (t : Fin cfg0.N) :
    (dat0 (F := Ideal) V c).flushed 3 t
      = ((cfg0.win 3).blk t).view.read (Elt Ideal) (maskedArr (V c main_arg1) (V c main_arg4) (V c main_v0)) := by
  show (cfg0.win 3).cut (grid0.coords t) ((dat0 (F := Ideal) V c).after 3 t) = _
  rw [after0_3]
  unfold out0_3
  rw [View.canon_unit_zero hz]
  simp only [View.ld_unit_zero (S := S512x512) hz, View.ld_unit_zero (S := S1x512) hz]
  obtain ⟨e00, e01, e10, e11, e20, e21, -, -⟩ := idx_facts t
  funext j
  show k0_pay1 (F := Ideal) (iblk0 V c 0 t) (iblk0 V c 2 t) (iblk0 V c 1 t) j
      = Cert.Spec.maskedWeight (V c main_arg1 (((cfg0.win 3).blk t).view.emb j)) (V c main_arg4 (((cfg0.win 3).blk t).view.emb j))
          (V c main_v0 (ix2 (0 : Fin 1) ((((cfg0.win 3).blk t).view.emb j) 1)))
  refine (pay_apply _ _ _ j).trans ?_
  have hj0 : (j 0).val < 512 := (j 0).isLt
  have hj1 : (j 1).val < 512 := (j 1).isLt
  have h0 : ((cfg0.win 0).blk t).view.emb j = ((cfg0.win 3).blk t).view.emb j := by
    funext a; apply Fin.ext
    match a with
    | ⟨0, _⟩ => show win0_0.index t (0 : Fin 2) * 512 + 1 * (j 0).val = win0_3.index t (0 : Fin 2) * 512 + 1 * (j 0).val; omega
    | ⟨1, _⟩ => show win0_0.index t (1 : Fin 2) * 512 + 1 * (j 1).val = win0_3.index t (1 : Fin 2) * 512 + 1 * (j 1).val; omega
  have h2 : ((cfg0.win 2).blk t).view.emb j = ((cfg0.win 3).blk t).view.emb j := by
    funext a; apply Fin.ext
    match a with
    | ⟨0, _⟩ => show win0_2.index t (0 : Fin 2) * 512 + 1 * (j 0).val = win0_3.index t (0 : Fin 2) * 512 + 1 * (j 0).val; omega
    | ⟨1, _⟩ => show win0_2.index t (1 : Fin 2) * 512 + 1 * (j 1).val = win0_3.index t (1 : Fin 2) * 512 + 1 * (j 1).val; omega
  have h1 : ((cfg0.win 1).blk t).view.emb (ix2 (0 : Fin 1) (j 1)) = ix2 (0 : Fin 1) ((((cfg0.win 3).blk t).view.emb j) 1) := by
    funext a; apply Fin.ext
    match a with
    | ⟨0, _⟩ => show win0_1.index t (0 : Fin 2) * 1 + 1 * 0 = 0; omega
    | ⟨1, _⟩ => show win0_1.index t (1 : Fin 2) * 512 + 1 * (j 1).val = win0_3.index t (1 : Fin 2) * 512 + 1 * (j 1).val; omega
  show Cert.Spec.maskedWeight (V c main_arg1 (((cfg0.win 0).blk t).view.emb j)) (V c main_arg4 (((cfg0.win 2).blk t).view.emb j))
      (V c main_v0 (((cfg0.win 1).blk t).view.emb (ix2 (0 : Fin 1) (j 1)))) = _
  rw [h0, h2, h1]
  rfl

/-- An index of the array is in point t's block iff each coordinate is in the block's range on its axis. -/
theorem mem_blk (t : Fin cfg0.N) (i : S4096x4096.Idx) :
    i ∈ ((cfg0.win 3).blk t).view.set
      ↔ ∀ a : Fin 2, win0_3.index t a * S512x512.size a ≤ (i a).val ∧ (i a).val < win0_3.index t a * S512x512.size a + S512x512.size a := by
  show i ∈ ((View.whole main_v1).slice (win0_3.rect t)).set ↔ _
  rw [View.set_slice_whole, Rect.mem_set_unit]
  exact Iff.rfl

/-- The blocks tile the array: the index (n, k) lies in the block (n / 512, k / 512), which some point writes back. -/
theorem cover (i : S4096x4096.Idx) : ∃ t : Fin cfg0.N, (cfg0.win 3).flush t = true ∧ i ∈ ((cfg0.win 3).blk t).view.set := by
  have hi0 : (i 0).val < 4096 := (i 0).isLt
  have hi1 : (i 1).val < 4096 := (i 1).isLt
  obtain ⟨t, ht⟩ := idx_onto ⟨(i 0).val / 512, by omega⟩ ⟨(i 1).val / 512, by omega⟩
  have q0 : win0_3.index t (0 : Fin 2) = (i 0).val / 512 := congrFun ht 0
  have q1 : win0_3.index t (1 : Fin 2) = (i 1).val / 512 := congrFun ht 1
  refine ⟨t, flush0_3 t, ?_⟩
  rw [mem_blk]
  intro a
  match a with
  | ⟨0, _⟩ => show win0_3.index t (0 : Fin 2) * 512 ≤ (i 0).val ∧ (i 0).val < win0_3.index t (0 : Fin 2) * 512 + 512; omega
  | ⟨1, _⟩ => show win0_3.index t (1 : Fin 2) * 512 ≤ (i 1).val ∧ (i 1).val < win0_3.index t (1 : Fin 2) * 512 + 512; omega

/-- What region 0 leaves in the masked weight array: at (n, k) the masked weight of the weight and connection words
    at (n, k) and the kind word at (0, k), of the arrays as the region finds them. -/
theorem final0 (c : Dev nD) :
    (dat0 (F := Ideal) V c).arrAt 3 cfg0.N
      = fun i => Cert.Spec.maskedWeight (V c main_arg1 i) (V c main_arg4 i) (V c main_v0 (ix2 (0 : Fin 1) (i 1))) :=
  (dat0 (F := Ideal) V c).arrAt_eq_of_cover 3 (maskedArr (V c main_arg1) (V c main_arg4) (V c main_v0))
    (fun t _ => flushed_eq V c t) cover

end Region

end Cert.KernelIdeal.Hand

end
-- ==== Proof.LibSumReshape.lean ====
/-
  Sums over index sets of arrays, re-indexed.

  A reshape keeps the elements and their row-major order, so it is a bijection of index sets and a sum over the
  reshaped array is the sum over the original (`sum_reshapeEquiv`, `sum_shapeCast`). A rank-1 index set is its one
  coordinate range (`sum_idx1`). A rank-2 array of `m * n` rows cut into `m` consecutive blocks of `n` rows: the sum
  over the array is the sum over the blocks of each block's sum, the element `(r, l)` of block `t` being the
  array's `(n * t + r, l)` (`blockIdx`, `sum_rowBlocks`).
-/
import Idealize.ShloMosaic.Lib.ValueIdx

noncomputable section

open scoped BigOperators

namespace Idealize.ShloMosaic.SumReshape

open Idealize.ShloMosaic Idealize.ShloMosaic.ValueIdx

variable {M : Type*} [AddCommMonoid M]

/-- A sum read through the reshape bijection is the sum itself. -/
theorem sum_reshapeEquiv {s t : Shape} (h : t.numel = s.numel) (f : s.Idx → M) :
    ∑ j : t.Idx, f (Shape.reshapeEquiv h j) = ∑ i : s.Idx, f i :=
  Equiv.sum_comp (Shape.reshapeEquiv h) f

/-- The sum of the elements of a shape cast is the sum of the elements. -/
theorem sum_shapeCast_self {N : Type} [AddCommMonoid N] {s t : Shape} (x : s.Idx → N) (h : s.ShapeCasts t) :
    ∑ j : t.Idx, shapeCast t x h j = ∑ i : s.Idx, x i :=
  sum_reshapeEquiv h x

/-- The sum of a function of the elements of a shape cast is the sum of that function of the elements. -/
theorem sum_shapeCast {s t : Shape} {α : Type} (x : s.Idx → α) (h : s.ShapeCasts t) (g : α → M) :
    ∑ j : t.Idx, g (shapeCast t x h j) = ∑ i : s.Idx, g (x i) :=
  sum_reshapeEquiv h fun i => g (x i)

/-- A rank-1 index set is its coordinate range … -/
def idxEquiv1 {n : Nat} : (⟨1, ![n]⟩ : Shape).Idx ≃ Fin n where
  toFun i := i 0
  invFun a := ix1 a
  left_inv i := (eq_ix1 i).symm
  right_inv _ := rfl

/-- … so a sum over it is the sum over the coordinate. -/
theorem sum_idx1 {n : Nat} (f : (⟨1, ![n]⟩ : Shape).Idx → M) : ∑ i, f i = ∑ a : Fin n, f (ix1 a) :=
  (Equiv.sum_comp (idxEquiv1 (n := n)).symm f).symm

/-- Row `r` of block `t`, of `n` rows each, is row `n * t + r`. -/
def blockRow {m n : Nat} (t : Fin m) (r : Fin n) : Fin (m * n) :=
  ⟨n * t.val + r.val, by
    have h1 := t.isLt; have h2 := r.isLt
    calc n * t.val + r.val < n * t.val + n := by omega
      _ = n * (t.val + 1) := by ring
      _ ≤ n * m := Nat.mul_le_mul_left _ h1
      _ = m * n := Nat.mul_comm _ _⟩

theorem blockRow_val {m n : Nat} (t : Fin m) (r : Fin n) : (blockRow t r).val = n * t.val + r.val := rfl

/-- The rows of `m` consecutive blocks of `n` rows are all the `m * n` rows, each once. -/
theorem sum_blockRow {m n : Nat} (f : Fin (m * n) → M) : ∑ a, f a = ∑ t : Fin m, ∑ r : Fin n, f (blockRow t r) := by
  rw [← Fintype.sum_prod_type', ← Equiv.sum_comp finProdFinEquiv f]
  refine Finset.sum_congr rfl fun p _ => congrArg f (Fin.ext ?_)
  show p.2.val + n * p.1.val = n * p.1.val + p.2.val
  omega

/-- Entry `y` of block `t`, in the array of `N = m * n` rows: row `n * t + y₀`, column `y₁`. -/
def blockIdx {N k : Nat} (m n : Nat) (hN : N = m * n) (t : Fin m) (y : (⟨2, ![n, k]⟩ : Shape).Idx) :
    (⟨2, ![N, k]⟩ : Shape).Idx :=
  ix2 ⟨n * t.val + (y 0).val, by subst hN; exact (blockRow t ⟨(y 0).val, idx2_lt0 y⟩).isLt⟩ ⟨(y 1).val, idx2_lt1 y⟩

theorem blockIdx_row {N k : Nat} (m n : Nat) (hN : N = m * n) (t : Fin m) (y : (⟨2, ![n, k]⟩ : Shape).Idx) :
    (blockIdx m n hN t y 0).val = n * t.val + (y 0).val := rfl

theorem blockIdx_col {N k : Nat} (m n : Nat) (hN : N = m * n) (t : Fin m) (y : (⟨2, ![n, k]⟩ : Shape).Idx) :
    (blockIdx m n hN t y 1).val = (y 1).val := rfl

/-- A sum over an array of `N = m * n` rows is the sum over its `m` row blocks of the blocks' sums. -/
theorem sum_rowBlocks {N k : Nat} (m n : Nat) (hN : N = m * n) (f : (⟨2, ![N, k]⟩ : Shape).Idx → M) :
    ∑ i, f i = ∑ t : Fin m, ∑ y : (⟨2, ![n, k]⟩ : Shape).Idx, f (blockIdx m n hN t y) := by
  subst hN
  rw [sum_idx2, sum_blockRow]
  refine Finset.sum_congr rfl fun t _ => ?_
  rw [sum_idx2]
  rfl

end Idealize.ShloMosaic.SumReshape

end
-- ==== Proof.LibRunningSum.lean ====
/-
  A sum accumulated one term at a time from a starting value — z + f 0, then + f 1, and so on — is the starting value
  plus the plain sum of the terms: addition in a commutative monoid is associative, so the order of accumulation does
  not matter. Stated for terms indexed by the naturals, and with the plain sum taken over Fin (n + 1).
-/
import Mathlib.Algebra.BigOperators.Fin

namespace Idealize.ShloMosaic.RunningSum

variable {M : Type*} [AddCommMonoid M]

/-- The accumulated sum after term n: z + f 0 at n = 0, and the previous value plus f (n + 1) after that. -/
def runningSum (z : M) (f : ℕ → M) : ℕ → M
  | 0 => z + f 0
  | n + 1 => runningSum z f n + f (n + 1)

theorem runningSum_zero (z : M) (f : ℕ → M) : runningSum z f 0 = z + f 0 := rfl

theorem runningSum_succ (z : M) (f : ℕ → M) (n : ℕ) : runningSum z f (n + 1) = runningSum z f n + f (n + 1) := rfl

/-- It is the starting value plus the sum of the terms up to n. -/
theorem runningSum_eq_range (z : M) (f : ℕ → M) (n : ℕ) :
    runningSum z f n = z + ∑ k ∈ Finset.range (n + 1), f k := by
  induction n with
  | zero => rw [runningSum_zero, Finset.sum_range_one]
  | succ n ih => rw [runningSum_succ, ih, Finset.sum_range_succ _ (n + 1), add_assoc]

/-- The same with the terms indexed by Fin (n + 1). -/
theorem runningSum_eq_sum (z : M) (f : ℕ → M) (n : ℕ) :
    runningSum z f n = z + ∑ k : Fin (n + 1), f k.val := by
  rw [runningSum_eq_range, Finset.sum_range]

end Idealize.ShloMosaic.RunningSum
-- ==== Proof.BlockSum.lean ====
/-
  A sum of 4096 terms taken in 16 consecutive blocks of 256, and accumulated block by block.

  The 4096 columns are the 16 blocks of 256 consecutive columns, column kk of block kb being column kb * 256 + kk,
  so the sum over the columns is the sum over the blocks of each block's sum. A value that starts at s₀ + g 0 and
  then takes g (j + 1) at each further step is, after step j, s₀ plus the sum of g over the steps 0 … j; with the
  block sums for g and 0 for s₀, after the last of the 16 steps it is the whole sum.
-/
import Mathlib.Algebra.BigOperators.Fin
import proofs.«155001_j23046794510859_2_alg».proof.Proof.LibSumReshape
import proofs.«155001_j23046794510859_2_alg».proof.Proof.LibRunningSum

noncomputable section

open scoped BigOperators

namespace Cert.BlockSum

open Idealize.ShloMosaic.SumReshape Idealize.ShloMosaic.RunningSum

variable {M : Type*} [AddCommMonoid M]

/-- Column kk of block kb, of 256 columns each: column kb * 256 + kk. -/
def blockCol (kb : Fin 16) (kk : Fin 256) : Fin 4096 :=
  ⟨kb.val * 256 + kk.val, by have h1 := kb.isLt; have h2 := kk.isLt; omega⟩

theorem blockCol_val (kb : Fin 16) (kk : Fin 256) : (blockCol kb kk).val = kb.val * 256 + kk.val := rfl

/-- The sum over the 4096 columns is the sum over the 16 blocks of the sums over each block's 256 columns. -/
theorem sum_blocks (f : Fin 4096 → M) : ∑ k : Fin 4096, f k = ∑ kb : Fin 16, ∑ kk : Fin 256, f (blockCol kb kk) := by
  refine (sum_blockRow (m := 16) (n := 256) f).trans ?_
  refine Finset.sum_congr rfl fun kb _ => Finset.sum_congr rfl fun kk _ => congrArg f (Fin.ext ?_)
  show 256 * kb.val + kk.val = kb.val * 256 + kk.val
  omega

/-- The same with the column written out. -/
theorem sum_blocks' (f : Fin 4096 → M) :
    ∑ k : Fin 4096, f k
      = ∑ kb : Fin 16, ∑ kk : Fin 256, f ⟨kb.val * 256 + kk.val, by have h1 := kb.isLt; have h2 := kk.isLt; omega⟩ :=
  sum_blocks f

/-- A value that is s₀ + g 0 at step 0 and takes g (j + 1) at each further step is, after step j, s₀ plus the sum
    of g over the steps 0 … j. -/
theorem running_eq (s₀ : M) (g a : ℕ → M) (h0 : a 0 = s₀ + g 0) (hs : ∀ j, a (j + 1) = a j + g (j + 1)) (j : ℕ) :
    a j = s₀ + ∑ j' ∈ Finset.range (j + 1), g j' := by
  induction j with
  | zero => rw [h0, Finset.sum_range_one]
  | succ j ih => rw [hs, ih, Finset.sum_range_succ _ (j + 1), add_assoc]

/-- The same when the steps are only known below a bound N. -/
theorem running_eq_of_lt (N : ℕ) (s₀ : M) (g a : ℕ → M) (h0 : a 0 = s₀ + g 0)
    (hs : ∀ j, j + 1 < N → a (j + 1) = a j + g (j + 1)) (j : ℕ) (hj : j < N) :
    a j = s₀ + ∑ j' ∈ Finset.range (j + 1), g j' := by
  induction j with
  | zero => rw [h0, Finset.sum_range_one]
  | succ j ih => rw [hs j hj, ih (by omega), Finset.sum_range_succ _ (j + 1), add_assoc]

/-- The sum accumulated by recursion, one term at a time from s₀, is such a value. -/
theorem runningSum_eq (s₀ : M) (g : ℕ → M) (j : ℕ) :
    runningSum s₀ g j = s₀ + ∑ j' ∈ Finset.range (j + 1), g j' :=
  runningSum_eq_range s₀ g j

/-- With the block sums for the steps' terms, the sum of the terms of the 16 steps is the whole sum. -/
theorem sum_eq_range_blocks (f : Fin 4096 → M) (g : ℕ → M)
    (hg : ∀ kb : Fin 16, g kb.val = ∑ kk : Fin 256, f (blockCol kb kk)) :
    ∑ j' ∈ Finset.range 16, g j' = ∑ k : Fin 4096, f k := by
  rw [sum_blocks, Finset.sum_range]
  exact Finset.sum_congr rfl fun kb _ => hg kb

/-- A value that starts from zero plus the first block's sum and takes the next block's sum at each further step
    is, after the last of the 16 steps, the sum over all 4096 columns. -/
theorem running_blocks_last (f : Fin 4096 → M) (g a : ℕ → M)
    (hg : ∀ kb : Fin 16, g kb.val = ∑ kk : Fin 256, f (blockCol kb kk))
    (h0 : a 0 = 0 + g 0) (hs : ∀ j, j + 1 < 16 → a (j + 1) = a j + g (j + 1)) :
    a 15 = ∑ k : Fin 4096, f k := by
  rw [running_eq_of_lt 16 0 g a h0 hs 15 (by decide), zero_add, sum_eq_range_blocks f g hg]

end Cert.BlockSum

end
-- ==== Proof.LibDotNT.lean ====
/-
  The dimension numbers of a matrix product with the right operand transposed — both operands contracted on their last axis,
  no batch axes — read at an index. At result position (i, q) and contraction position k the left operand is read at (i, k) and the
  right at (q, k); the contraction shape has one axis of the shared extent, so the sum over it is the ordinary sum over k of
  l(i, k) · r(q, k): a row of the left against a row of the right. A matrix unit product of that form, at the ideal instance, reads as
  its accumulator plus that sum, whatever the extents.
-/
import Idealize.ShloMosaic.PureOps.Ideal.Laws
import Idealize.ShloMosaic.Lib.ValueIdx

noncomputable section

open scoped BigOperators

namespace Idealize.ShloMosaic.DotNT

open Idealize.ShloMosaic Idealize.ShloMosaic.ValueIdx

variable {M K N : Nat} (d : DotDims ⟨2, ![M, K]⟩ ⟨2, ![N, K]⟩ ⟨2, ![M, N]⟩)

/-- The dimension numbers: [1] × [1] contracted, [0] and [0] kept, no batch axes. -/
structure IsNT : Prop where
  lc : d.lhsContracting = [1]
  rc : d.rhsContracting = [1]
  ln : d.lhsNonContracting = [0]
  rn : d.rhsNonContracting = [0]
  lb : d.lhsBatch = []
  rb : d.rhsBatch = []

variable {d}

theorem rank_one (h : IsNT d) : d.contr.rank = 1 := by rw [d.rank_contr, h.lc]; rfl

theorem size_zero (h : IsNT d) : d.contr.size ⟨0, by rw [rank_one h]; exact Nat.one_pos⟩ = K := by
  rw [d.size_contr 0 (by rw [h.lc]; exact Nat.one_pos)]
  have e : d.lhsContracting[0]'(by rw [h.lc]; exact Nat.one_pos) = (1 : Fin 2) := by simp [h.lc]
  rw [e]; rfl

/-- The contraction positions are the numbers below the shared extent. -/
def pos (h : IsNT d) : d.contr.Idx ≃ Fin K := contrEquiv1 d K (rank_one h) (size_zero h)

private theorem val_congr {n : Nat} {s : Fin n → Nat} (j : (i : Fin n) → Fin (s i)) :
    ∀ (p q : Nat) (hp : p < n) (hq : q < n), p = q → (j ⟨p, hp⟩).val = (j ⟨q, hq⟩).val :=
  fun p q hp hq e => by subst e; rfl

theorem lhsIdx_row (h : IsNT d) (j : (⟨2, ![M, N]⟩ : Shape).Idx) (k : d.contr.Idx) :
    (d.lhsIdx j k 0).val = (j 0).val := by
  have hb : (0 : Fin 2) ∉ d.lhsBatch := by rw [h.lb]; exact List.not_mem_nil
  have hn : (0 : Fin 2) ∈ d.lhsNonContracting := by rw [h.ln]; exact List.mem_singleton.mpr rfl
  unfold DotDims.lhsIdx
  rw [dif_neg hb, dif_pos hn]
  simp only [Fin.val_cast]
  exact val_congr j _ _ _ _ (by simp [h.lb, h.ln])

theorem lhsIdx_col (h : IsNT d) (j : (⟨2, ![M, N]⟩ : Shape).Idx) (k : d.contr.Idx) :
    (d.lhsIdx j k 1).val = (pos h k).val := by
  rw [d.lhsIdx_val_of_single h.lc j k]; rfl

theorem rhsIdx_row (h : IsNT d) (j : (⟨2, ![M, N]⟩ : Shape).Idx) (k : d.contr.Idx) :
    (d.rhsIdx j k 0).val = (j 1).val := by
  have hb : (0 : Fin 2) ∉ d.rhsBatch := by rw [h.rb]; exact List.not_mem_nil
  have hn : (0 : Fin 2) ∈ d.rhsNonContracting := by rw [h.rn]; exact List.mem_singleton.mpr rfl
  unfold DotDims.rhsIdx
  rw [dif_neg hb, dif_pos hn]
  simp only [Fin.val_cast]
  exact val_congr j _ _ _ _ (by simp [h.lb, h.ln, h.rn])

theorem rhsIdx_col (h : IsNT d) (j : (⟨2, ![M, N]⟩ : Shape).Idx) (k : d.contr.Idx) :
    (d.rhsIdx j k 1).val = (pos h k).val := by
  rw [d.rhsIdx_val_of_single h.rc j k]; rfl

theorem lhsIdx_eq (h : IsNT d) (j : (⟨2, ![M, N]⟩ : Shape).Idx) (k : d.contr.Idx) :
    d.lhsIdx j k = ix2 (j 0) (pos h k) := by
  funext a; apply Fin.ext
  match a with
  | ⟨0, _⟩ => exact lhsIdx_row h j k
  | ⟨1, _⟩ => exact lhsIdx_col h j k

theorem rhsIdx_eq (h : IsNT d) (j : (⟨2, ![M, N]⟩ : Shape).Idx) (k : d.contr.Idx) :
    d.rhsIdx j k = ix2 (j 1) (pos h k) := by
  funext a; apply Fin.ext
  match a with
  | ⟨0, _⟩ => exact rhsIdx_row h j k
  | ⟨1, _⟩ => exact rhsIdx_col h j k

/-- THE CONTRACTION SUM: the sum over k below the shared extent of l(i, k) · r(q, k). -/
theorem sum_eq (h : IsNT d) (l : (⟨2, ![M, K]⟩ : Shape).Idx → EReal) (r : (⟨2, ![N, K]⟩ : Shape).Idx → EReal)
    (j : (⟨2, ![M, N]⟩ : Shape).Idx) :
    ∑ k : d.contr.Idx, l (d.lhsIdx j k) * r (d.rhsIdx j k) = ∑ k : Fin K, l (ix2 (j 0) k) * r (ix2 (j 1) k) := by
  rw [← Equiv.sum_comp (pos h) (fun k : Fin K => l (ix2 (j 0) k) * r (ix2 (j 1) k))]
  exact Finset.sum_congr rfl fun k _ => by rw [lhsIdx_eq h j k, rhsIdx_eq h j k]; rfl

/-- A matrix unit product of that form into any accumulator, at the ideal instance and at an index. -/
theorem matmul_apply (h : IsNT d) (prec : Option ContractPrecision) {φ₁ φ₂ : FTy}
    (l : FVec Ideal ⟨2, ![M, K]⟩ φ₁) (r : FVec Ideal ⟨2, ![N, K]⟩ φ₂) (acc : FVec Ideal ⟨2, ![M, N]⟩ .f32) (j : (⟨2, ![M, N]⟩ : Shape).Idx) :
    matmul d prec l r acc j = acc j + ∑ k : Fin K, l (ix2 (j 0) k) * r (ix2 (j 1) k) :=
  (Ideal.matmul_apply d prec l r acc j).trans (congrArg (acc j + ·) (sum_eq h l r j))

/-- Into a zero accumulator: just the sum. -/
theorem matmul_zero_apply (h : IsNT d) (prec : Option ContractPrecision) {φ₁ φ₂ : FTy}
    (l : FVec Ideal ⟨2, ![M, K]⟩ φ₁) (r : FVec Ideal ⟨2, ![N, K]⟩ φ₂) (j : (⟨2, ![M, N]⟩ : Shape).Idx) :
    matmul d prec l r (constant (F := Ideal) ⟨2, ![M, N]⟩ .f32 0x00000000#32) j = ∑ k : Fin K, l (ix2 (j 0) k) * r (ix2 (j 1) k) :=
  (Ideal.matmul_constant_zero_apply d prec l r j).trans (sum_eq h l r j)

end Idealize.ShloMosaic.DotNT

end
-- ==== Proof.KI.MatmulValue.lean ====
/-
  What the matrix-product region leaves in the output array, at the extended reals.

  At an index (p, q) of a block the body's product payload is what the accumulator held there plus the sum over the
  256 columns kk of the activation block at (p, kk) times the masked-weight block at (q, kk): rounding to the narrower
  format is the identity at the extended reals, and the matrix unit contracts both operands on their last axis into a
  zero accumulator. The accumulator starts a reduction at zero, so after the last of the 16 steps of a reduction it
  holds the sum over all 4096 columns; the stored block is that plus the bias row. The stored blocks tile the array.
-/
import proofs.«155001_j23046794510859_2_alg».proof.Proof.KI.MatmulData
import proofs.«155001_j23046794510859_2_alg».proof.Proof.BlockSum
import proofs.«155001_j23046794510859_2_alg».proof.Proof.LibDotNT
import Idealize.ShloMosaic.Lib.ValueIdx
import Idealize.ShloMosaic.Lib.Pipeline.Value
import Idealize.ShloMosaic.Lib.ValueLayout
import Idealize.ShloMosaic.PureOps.Ideal.Laws

set_option maxRecDepth 16384

noncomputable section

open scoped BigOperators

namespace Cert.KernelIdeal.Hand

open Cert.KernelIdeal Cert.KernelIdeal.Gen
open Idealize.ShloMosaic Idealize.ShloMosaic.TcCoe Idealize.SL.Sem
open Idealize.ShloMosaic.ValueIdx
open Idealize.ShloMosaic.Pipeline (Dat)

/-! ## The payloads at an index -/

/-- The matrix unit's dimension numbers: both operands contracted on their last axis, no batch axes. -/
theorem dot_isNT : DotNT.IsNT dot_S1024x256_S2048x256_S1024x2048_1_1_0_0_n_n := ⟨rfl, rfl, rfl, rfl, rfl, rfl⟩

/-- The value a reduction starts from is zero everywhere. -/
theorem pay1_apply (j : S1024x2048.Idx) : k1_pay1 (F := Ideal) j = (0 : EReal) := by
  unfold k1_pay1
  simp only [shapeCast_self]
  exact Ideal.ofBits_zero_f32

set_option maxHeartbeats 400000 in
/-- The product payload at (p, q): what the accumulator held there plus the sum over the block's 256 columns of the
    activation at (p, kk) times the masked weight at (q, kk). -/
theorem pay2_ix (x : FVec Ideal S1024x256 .f32) (w : FVec Ideal S2048x256 .bf16) (s : FVec Ideal S1024x2048 .f32)
    (p : Fin 1024) (q : Fin 2048) :
    k1_pay2 (F := Ideal) x w s (ix2 p q) = s (ix2 p q) + ∑ kk : Fin 256, x (ix2 p kk) * w (ix2 q kk) := by
  unfold k1_pay2
  simp only [shapeCast_self]
  rw [addf_apply]
  refine congrArg (s (ix2 p q) + ·) ?_
  exact DotNT.matmul_zero_apply dot_isNT none _ _ (ix2 p q)

/-- The same at any index of the block. -/
theorem pay2_apply (x : FVec Ideal S1024x256 .f32) (w : FVec Ideal S2048x256 .bf16) (s : FVec Ideal S1024x2048 .f32)
    (j : S1024x2048.Idx) :
    k1_pay2 (F := Ideal) x w s j = s j + ∑ kk : Fin 256, x (ix2 (j 0) kk) * w (ix2 (j 1) kk) := by
  obtain ⟨p, q, rfl⟩ : ∃ (p : Fin 1024) (q : Fin 2048), j = ix2 p q := ⟨j 0, j 1, eq_ix2 j⟩
  exact pay2_ix x w s p q

set_option maxHeartbeats 400000 in
/-- The stored payload at (p, q): the accumulator there plus the bias row's entry of column q. -/
theorem pay3_ix (a : FVec Ideal S1024x2048 .f32) (b : FVec Ideal S1x2048 .f32) (p : Fin 1024) (q : Fin 2048) :
    k1_pay3 (F := Ideal) a b (ix2 p q) = a (ix2 p q) + b (ix2 (0 : Fin 1) q) := by
  unfold k1_pay3
  simp only [shapeCast_self]
  rw [addf_apply]
  refine congrArg (a (ix2 p q) + ·) ?_
  exact broadcastTo_apply b _ (ix2 p q) (ix2 (0 : Fin 1) q) (fun a => by match a with | ⟨0, _⟩ => rfl | ⟨1, _⟩ => rfl)

/-- The same at any index of the block. -/
theorem pay3_apply (a : FVec Ideal S1024x2048 .f32) (b : FVec Ideal S1x2048 .f32) (j : S1024x2048.Idx) :
    k1_pay3 (F := Ideal) a b j = a j + b (ix2 (0 : Fin 1) (j 1)) := by
  obtain ⟨p, q, rfl⟩ : ∃ (p : Fin 1024) (q : Fin 2048), j = ix2 p q := ⟨j 0, j 1, eq_ix2 j⟩
  exact pay3_ix a b p q

/-! ## The grid's index maps -/

/-- The printed index maps, decided over the 256 grid points t = (i * 2 + j) * 16 + kb: the activation window sits at
    block (i, kb), the masked-weight window at (j, kb), the bias-row window at (0, j), the output window at (i, j). -/
theorem idx_facts1 : ∀ t : Fin cfg1.N,
    win1_0.index t (0 : Fin 2) = t.val / 32 ∧ win1_0.index t (1 : Fin 2) = t.val % 16
    ∧ win1_1.index t (0 : Fin 2) = t.val / 16 % 2 ∧ win1_1.index t (1 : Fin 2) = t.val % 16
    ∧ win1_2.index t (0 : Fin 2) = 0 ∧ win1_2.index t (1 : Fin 2) = t.val / 16 % 2
    ∧ win1_3.index t (0 : Fin 2) = t.val / 32 ∧ win1_3.index t (1 : Fin 2) = t.val / 16 % 2 :=
  (by decide +kernel : ∀ t : Fin grid1.N, _)

/-- Every block of the output array is the block of some last step of a reduction. -/
theorem idx_onto1 : ∀ (q0 : Fin 8) (q1 : Fin 2), ∃ t : Fin cfg1.N, t.val % 16 = 15 ∧ win1_3.index t = ![q0.val, q1.val] :=
  (by decide +kernel : ∀ (q0 : Fin 8) (q1 : Fin 2), ∃ t : Fin grid1.N, t.val % 16 = 15 ∧ win1_3.index t = ![q0.val, q1.val])

/-! ## Rows and columns by number -/

/-- Row r of an array of 8192 rows. -/
def row8 (r : ℕ) : Fin 8192 := ⟨r % 8192, Nat.mod_lt _ (by decide)⟩
/-- Row or column k of an array of 4096. -/
def col4 (k : ℕ) : Fin 4096 := ⟨k % 4096, Nat.mod_lt _ (by decide)⟩

theorem row8_val (r : ℕ) : (row8 r).val = r % 8192 := rfl
theorem col4_val (k : ℕ) : (col4 k).val = k % 4096 := rfl

/-- Column kk of block kb, by number, is that block column. -/
theorem col4_block (kb : Fin 16) (kk : Fin 256) : col4 (kb.val * 256 + kk.val) = BlockSum.blockCol kb kk := by
  apply Fin.ext
  show (kb.val * 256 + kk.val) % 4096 = kb.val * 256 + kk.val
  have h1 := kb.isLt; have h2 := kk.isLt
  omega

/-! ## From blocks to the array -/

section Region
-- the TensorCore's buffer contents when the region is entered
variable (V : (c : Dev nD) → (b : Ref sig .tc) → Buf (Elt Ideal) ((c : Thread nD τ).loc b))

/-- The activation array, the masked-weight array and the bias row as the region finds them, as arrays of extended reals. -/
abbrev actArr (c : Dev nD) : S8192x4096.Idx → EReal := V c main_arg0
abbrev mwArr (c : Dev nD) : S4096x4096.Idx → EReal := V c main_v1
abbrev biasRow (c : Dev nD) : S1x4096.Idx → EReal := V c main_v2

/-- The activation block at point t, at (p, kk): the activation array at row (t / 32) * 1024 + p, column
    (t % 16) * 256 + kk. -/
theorem read1_0 (c : Dev nD) (t : Fin cfg1.N) (p : Fin 1024) (kk : Fin 256) :
    iblk1 (F := Ideal) V c 0 t (ix2 p kk)
      = V c main_arg0 (ix2 (row8 (t.val / 32 * 1024 + p.val)) (col4 (t.val % 16 * 256 + kk.val))) := by
  obtain ⟨e00, e01, -⟩ := idx_facts1 t
  have ht : t.val < 256 := lt_of_lt_of_eq t.isLt (show cfg1.N = 256 from N_1)
  have hp := p.isLt
  have hk := kk.isLt
  show V c main_arg0 (((cfg1.win 0).blk t).view.emb (ix2 p kk)) = _
  refine congrArg (V c main_arg0) (funext fun a => Fin.ext ?_)
  match a with
  | ⟨0, _⟩ => show win1_0.index t (0 : Fin 2) * 1024 + 1 * p.val = (t.val / 32 * 1024 + p.val) % 8192; omega
  | ⟨1, _⟩ => show win1_0.index t (1 : Fin 2) * 256 + 1 * kk.val = (t.val % 16 * 256 + kk.val) % 4096; omega

/-- The masked-weight block at point t, at (q, kk): the masked-weight array at row (t / 16 % 2) * 2048 + q, column
    (t % 16) * 256 + kk. -/
theorem read1_1 (c : Dev nD) (t : Fin cfg1.N) (q : Fin 2048) (kk : Fin 256) :
    iblk1 (F := Ideal) V c 1 t (ix2 q kk)
      = V c main_v1 (ix2 (col4 (t.val / 16 % 2 * 2048 + q.val)) (col4 (t.val % 16 * 256 + kk.val))) := by
  obtain ⟨-, -, e10, e11, -⟩ := idx_facts1 t
  have ht : t.val < 256 := lt_of_lt_of_eq t.isLt (show cfg1.N = 256 from N_1)
  have hq := q.isLt
  have hk := kk.isLt
  show V c main_v1 (((cfg1.win 1).blk t).view.emb (ix2 q kk)) = _
  refine congrArg (V c main_v1) (funext fun a => Fin.ext ?_)
  match a with
  | ⟨0, _⟩ => show win1_1.index t (0 : Fin 2) * 2048 + 1 * q.val = (t.val / 16 % 2 * 2048 + q.val) % 4096; omega
  | ⟨1, _⟩ => show win1_1.index t (1 : Fin 2) * 256 + 1 * kk.val = (t.val % 16 * 256 + kk.val) % 4096; omega

/-- The bias-row block at point t, at (0, q): the bias row at column (t / 16 % 2) * 2048 + q. -/
theorem read1_2 (c : Dev nD) (t : Fin cfg1.N) (q : Fin 2048) :
    iblk1 (F := Ideal) V c 2 t (ix2 (0 : Fin 1) q)
      = V c main_v2 (ix2 (0 : Fin 1) (col4 (t.val / 16 % 2 * 2048 + q.val))) := by
  obtain ⟨-, -, -, -, e20, e21, -⟩ := idx_facts1 t
  have ht : t.val < 256 := lt_of_lt_of_eq t.isLt (show cfg1.N = 256 from N_1)
  have hq := q.isLt
  show V c main_v2 (((cfg1.win 2).blk t).view.emb (ix2 (0 : Fin 1) q)) = _
  refine congrArg (V c main_v2) (funext fun a => Fin.ext ?_)
  match a with
  | ⟨0, _⟩ => show win1_2.index t (0 : Fin 2) * 1 + 1 * 0 = 0; omega
  | ⟨1, _⟩ => show win1_2.index t (1 : Fin 2) * 2048 + 1 * q.val = (t.val / 16 % 2 * 2048 + q.val) % 4096; omega

/-! ## The accumulation -/

/-- The sum over the 256 columns of block column j' of the activation row r times the masked-weight row n. -/
def stepSum (X : S8192x4096.Idx → EReal) (W : S4096x4096.Idx → EReal) (r n j' : ℕ) : EReal :=
  ∑ kk : Fin 256, X (ix2 (row8 r) (col4 (j' * 256 + kk.val))) * W (ix2 (col4 n) (col4 (j' * 256 + kk.val)))

set_option maxHeartbeats 400000 in
/-- One step: the body at point n adds to what the accumulator held at (p, q) the block-column sum of its step. -/
theorem step_ix (c : Dev nD) (n : ℕ) (hn : n < cfg1.N) (s : FVec Ideal S1024x2048 .f32) (p : Fin 1024) (q : Fin 2048) :
    k1_pay2 (F := Ideal) (iblk1 V c 0 ⟨n, hn⟩) (iblk1 V c 1 ⟨n, hn⟩) s (ix2 p q)
      = s (ix2 p q) + stepSum (V c main_arg0) (V c main_v1) (n / 32 * 1024 + p.val) (n / 16 % 2 * 2048 + q.val) (n % 16) := by
  refine (pay2_ix _ _ _ p q).trans ?_
  refine congrArg (s (ix2 p q) + ·) (Finset.sum_congr rfl fun kk _ => ?_)
  exact congrArg₂ (· * ·) (read1_0 V c ⟨n, hn⟩ p kk) (read1_1 V c ⟨n, hn⟩ q kk)

set_option maxHeartbeats 400000 in
/-- After the body at point n the accumulator holds, at (p, q), the sum of the block-column sums of the steps of its
    reduction so far: steps 0 … n % 16. -/
theorem acc_ix (c : Dev nD) (n : ℕ) (hn : n < cfg1.N) (p : Fin 1024) (q : Fin 2048) :
    acc1 (F := Ideal) V c n hn (ix2 p q)
      = ∑ j' ∈ Finset.range (n % 16 + 1),
          stepSum (V c main_arg0) (V c main_v1) (n / 32 * 1024 + p.val) (n / 16 % 2 * 2048 + q.val) j' := by
  induction n with
  | zero =>
    refine (congrFun (acc1_first V c ⟨0, hn⟩ rfl) (ix2 p q)).trans ?_
    refine (step_ix V c 0 hn _ p q).trans ?_
    rw [pay1_apply, zero_add]
    exact (Finset.sum_range_one _).symm
  | succ m ih =>
    by_cases h0 : (m + 1) % 16 = 0
    · refine (congrFun (acc1_first V c ⟨m + 1, hn⟩ h0) (ix2 p q)).trans ?_
      refine (step_ix V c (m + 1) hn _ p q).trans ?_
      rw [pay1_apply, zero_add, h0]
      exact (Finset.sum_range_one _).symm
    · refine (congrFun (acc1_next V c ⟨m + 1, hn⟩ h0) (ix2 p q)).trans ?_
      refine (step_ix V c (m + 1) hn _ p q).trans ?_
      have e1 : (m + 1) / 32 = m / 32 := by omega
      have e2 : (m + 1) / 16 % 2 = m / 16 % 2 := by omega
      have e3 : (m + 1) % 16 = m % 16 + 1 := by omega
      show acc1 (F := Ideal) V c m (Nat.lt_of_succ_lt hn) (ix2 p q) + _ = _
      rw [ih (Nat.lt_of_succ_lt hn), e1, e2, e3, Finset.sum_range_succ _ (m % 16 + 1)]

/-- After the last step of a reduction the accumulator holds, at (p, q), the sum over all 4096 columns of the
    activation row times the masked-weight row. -/
theorem acc_last_ix (c : Dev nD) (n : ℕ) (hn : n < cfg1.N) (h15 : n % 16 = 15) (p : Fin 1024) (q : Fin 2048) :
    acc1 (F := Ideal) V c n hn (ix2 p q)
      = ∑ k : Fin 4096, actArr V c (ix2 (row8 (n / 32 * 1024 + p.val)) k) * mwArr V c (ix2 (col4 (n / 16 % 2 * 2048 + q.val)) k) := by
  rw [acc_ix V c n hn p q, h15]
  exact BlockSum.sum_eq_range_blocks
    (fun k : Fin 4096 => actArr V c (ix2 (row8 (n / 32 * 1024 + p.val)) k) * mwArr V c (ix2 (col4 (n / 16 % 2 * 2048 + q.val)) k))
    (stepSum (V c main_arg0) (V c main_v1) (n / 32 * 1024 + p.val) (n / 16 % 2 * 2048 + q.val))
    (fun kb => Finset.sum_congr rfl fun kk _ => by rw [col4_block kb kk])

/-- The same at any index of the block. -/
theorem acc_last_apply (c : Dev nD) (n : ℕ) (hn : n < cfg1.N) (h15 : n % 16 = 15) (j : S1024x2048.Idx) :
    acc1 (F := Ideal) V c n hn j
      = ∑ k : Fin 4096, actArr V c (ix2 (row8 (n / 32 * 1024 + (j 0).val)) k) * mwArr V c (ix2 (col4 (n / 16 % 2 * 2048 + (j 1).val)) k) := by
  obtain ⟨p, q, rfl⟩ : ∃ (p : Fin 1024) (q : Fin 2048), j = ix2 p q := ⟨j 0, j 1, eq_ix2 j⟩
  exact acc_last_ix V c n hn h15 p q

/-! ## What is written back, and where -/

/-- The output array as one function of the activation array, the masked-weight array and the bias row. -/
abbrev outArr (X : S8192x4096.Idx → EReal) (W : S4096x4096.Idx → EReal) (B : S1x4096.Idx → EReal) : S8192x4096.Idx → EReal :=
  fun i => (∑ k : Fin 4096, X (ix2 (i 0) k) * W (ix2 (i 1) k)) + B (ix2 (0 : Fin 1) (i 1))

/-- The output block of point t sits at rows (t / 32) * 1024 … and columns (t / 16 % 2) * 2048 … of the array. -/
theorem emb1_3 (t : Fin cfg1.N) (j : S1024x2048.Idx) :
    ((cfg1.win 3).blk t).view.emb j
      = ix2 (row8 (t.val / 32 * 1024 + (j 0).val)) (col4 (t.val / 16 % 2 * 2048 + (j 1).val)) := by
  obtain ⟨-, -, -, -, -, -, e30, e31⟩ := idx_facts1 t
  have ht : t.val < 256 := lt_of_lt_of_eq t.isLt (show cfg1.N = 256 from N_1)
  have hj0 : (j 0).val < 1024 := (j 0).isLt
  have hj1 : (j 1).val < 2048 := (j 1).isLt
  funext a; apply Fin.ext
  match a with
  | ⟨0, _⟩ => show win1_3.index t (0 : Fin 2) * 1024 + 1 * (j 0).val = (t.val / 32 * 1024 + (j 0).val) % 8192; omega
  | ⟨1, _⟩ => show win1_3.index t (1 : Fin 2) * 2048 + 1 * (j 1).val = (t.val / 16 % 2 * 2048 + (j 1).val) % 4096; omega

set_option maxHeartbeats 1000000 in
/-- What a last step of a reduction writes back is its block of the output array: the accumulator holds the sum over
    all columns, and the bias-row block sits over the output block's columns. -/
theorem flushed_eq1 (c : Dev nD) (t : Fin cfg1.N) (hf : (cfg1.win 3).flush t = true) :
    (dat1 (F := Ideal) V c).flushed 3 t
      = ((cfg1.win 3).blk t).view.read (Elt Ideal) (outArr (V c main_arg0) (V c main_v1) (V c main_v2)) := by
  have h15 : t.val % 16 = 15 := (flush1_3 t).mp hf
  show (cfg1.win 3).cut (grid1.coords t) ((dat1 (F := Ideal) V c).after 3 t) = _
  rw [after1_3]
  funext j
  show k1_pay3 (F := Ideal) (acc1 V c t.val t.isLt) (iblk1 V c 2 t) j
      = outArr (V c main_arg0) (V c main_v1) (V c main_v2) (((cfg1.win 3).blk t).view.emb j)
  refine (pay3_apply _ _ j).trans ?_
  refine Eq.trans ?_ (congrArg (outArr (V c main_arg0) (V c main_v1) (V c main_v2)) (emb1_3 t j)).symm
  exact congrArg₂ (· + ·) (acc_last_apply V c t.val t.isLt h15 j) (read1_2 V c t (j 1))

/-- An index of the array is in point t's block iff each coordinate is in the block's range on its axis. -/
theorem mem_blk1 (t : Fin cfg1.N) (i : S8192x4096.Idx) :
    i ∈ ((cfg1.win 3).blk t).view.set
      ↔ ∀ a : Fin 2, win1_3.index t a * S1024x2048.size a ≤ (i a).val ∧ (i a).val < win1_3.index t a * S1024x2048.size a + S1024x2048.size a := by
  show i ∈ ((View.whole main_v3).slice (win1_3.rect t)).set ↔ _
  rw [View.set_slice_whole, Rect.mem_set_unit]
  exact Iff.rfl

/-- The stored blocks tile the array: the index (r, n) lies in the block (r / 1024, n / 2048), which the last step of
    that block's reduction writes back. -/
theorem cover1 (i : S8192x4096.Idx) : ∃ t : Fin cfg1.N, (cfg1.win 3).flush t = true ∧ i ∈ ((cfg1.win 3).blk t).view.set := by
  have hi0 : (i 0).val < 8192 := (i 0).isLt
  have hi1 : (i 1).val < 4096 := (i 1).isLt
  obtain ⟨t, h15, ht⟩ := idx_onto1 ⟨(i 0).val / 1024, by omega⟩ ⟨(i 1).val / 2048, by omega⟩
  have q0 : win1_3.index t (0 : Fin 2) = (i 0).val / 1024 := congrFun ht 0
  have q1 : win1_3.index t (1 : Fin 2) = (i 1).val / 2048 := congrFun ht 1
  refine ⟨t, (flush1_3 t).mpr h15, ?_⟩
  rw [mem_blk1]
  intro a
  match a with
  | ⟨0, _⟩ => show win1_3.index t (0 : Fin 2) * 1024 ≤ (i 0).val ∧ (i 0).val < win1_3.index t (0 : Fin 2) * 1024 + 1024; omega
  | ⟨1, _⟩ => show win1_3.index t (1 : Fin 2) * 2048 ≤ (i 1).val ∧ (i 1).val < win1_3.index t (1 : Fin 2) * 2048 + 2048; omega

/-- What the matrix-product region leaves in the output array: at (r, n) the sum over the 4096 columns k of the
    activation at (r, k) times the masked weight at (n, k), plus the bias row's entry of column n, of the arrays as the
    region finds them. -/
theorem final1 (c : Dev nD) :
    (dat1 (F := Ideal) V c).arrAt 3 cfg1.N
      = fun i => (∑ k : Fin 4096, actArr V c (ix2 (i 0) k) * mwArr V c (ix2 (i 1) k)) + biasRow V c (ix2 (0 : Fin 1) (i 1)) :=
  (dat1 (F := Ideal) V c).arrAt_eq_of_cover 3 (outArr (V c main_arg0) (V c main_v1) (V c main_v2))
    (fun t hf => flushed_eq1 V c t hf) cover1

end Region

end Cert.KernelIdeal.Hand

end
-- ==== Proof.KI.Result.lean ====
/-
  The program's result as the specification, at the extended reals.

  The matrix-product region is entered from the launch memory after a host slice, the masking region and a host
  reshape. Its activation array is the launched one; its weight array is what the masking region left, the masked
  weight of the launched weight, connection and kind arrays with every column's kind read in row 0; its bias row is
  the launched bias. So what its write-backs leave is the layer's output with the kinds read in row 0, which is the
  layer's output when every row of the kind matrix is its row 0.
-/
import proofs.«155001_j23046794510859_2_alg».proof.Proof.KI.Run
import proofs.«155001_j23046794510859_2_alg».proof.Proof.KI.MaskValue
import proofs.«155001_j23046794510859_2_alg».proof.Proof.KI.MatmulValue
import proofs.«155001_j23046794510859_2_alg».proof.Proof.Spec
import Idealize.ShloMosaic.Lib.ValueIdx
import Idealize.ShloMosaic.Lib.Pipeline.Value
import Idealize.ShloMosaic.Lib.StableHlo.Run

set_option maxRecDepth 16384

noncomputable section

open scoped BigOperators

namespace Cert.KernelIdeal.Hand

open Cert.KernelIdeal Cert.KernelIdeal.Gen
open Idealize.ShloMosaic Idealize.ShloMosaic.TcCoe Idealize.SL.Sem
open Idealize.ShloMosaic.ValueIdx
open Idealize.ShloMosaic.Pipeline (Dat)

variable (m : (ℓ : Loc nD τ sig) → Buf (Elt Ideal) ℓ) (ρ : Dev nD → PrngReg)

/-! ## What the masking region is entered from -/

/-- The weight array is the launched one: the slice before the region writes another buffer. -/
theorem E1_main_arg1 (c : Dev nD) : E1 m ρ c main_arg1 = m ((c : Thread nD τ).loc main_arg1) :=
  (hostOps0_keeps (B0 m ρ c) main_arg1 (by decide)).trans rfl

/-- The connection array is the launched one. -/
theorem E1_main_arg4 (c : Dev nD) : E1 m ρ c main_arg4 = m ((c : Thread nD τ).loc main_arg4) :=
  (hostOps0_keeps (B0 m ρ c) main_arg4 (by decide)).trans rfl

set_option maxHeartbeats 400000 in
/-- The kind row is row 0 of the launched kind matrix. -/
theorem E1_main_v0 (c : Dev nD) :
    (E1 m ρ c main_v0 : S1x4096.Idx → BitVec 32)
      = extractStridedSlice S1x4096 ![0, 0] (m ((c : Thread nD τ).loc main_arg3) : S4096x4096.Idx → BitVec 32) slices_S4096x4096_S1x4096_0_0 := by
  show StableHlo.after hostOps0 (B0 m ρ c) (Proc.devRef .tc main_v0) = _
  after_results

/-- The kind row at column k is the launched kind matrix at (0, k). -/
theorem E1_main_v0_ix (c : Dev nD) (k : Fin 4096) :
    E1 m ρ c main_v0 (ix2 (0 : Fin 1) k) = m ((c : Thread nD τ).loc main_arg3) (ix2 (0 : Fin 4096) k) := by
  refine (congrFun (E1_main_v0 m ρ c) (ix2 (0 : Fin 1) k)).trans ?_
  refine extractStridedSlice_apply _ _ slices_S4096x4096_S1x4096_0_0 (ix2 (0 : Fin 1) k) (ix2 (0 : Fin 4096) k) (fun a => ?_)
  match a with
  | ⟨0, _⟩ => rfl
  | ⟨1, _⟩ => show k.val = 0 + k.val; rw [Nat.zero_add]

/-! ## What the matrix-product region is entered from -/

/-- The bias as launched survives the slice and the masking region. -/
theorem B2_main_arg2 (c : Dev nD) : B2 m ρ c (Proc.devRef .tc main_arg2) = m ((c : Thread nD τ).loc main_arg2) :=
  calc B2 m ρ c (Proc.devRef .tc main_arg2)
    _ = B1 m ρ c (Proc.devRef .tc main_arg2) := B2_of_ne m ρ c main_arg2 (by decide)
    _ = B0 m ρ c (Proc.devRef .tc main_arg2) := hostOps0_keeps _ main_arg2 (by decide)
    _ = m ((c : Thread nD τ).loc main_arg2) := rfl

/-- The activation array is the launched one. -/
theorem E3_main_arg0 (c : Dev nD) : E3 m ρ c main_arg0 = m ((c : Thread nD τ).loc main_arg0) :=
  calc B3 m ρ c (Proc.devRef .tc main_arg0)
    _ = B2 m ρ c (Proc.devRef .tc main_arg0) := hostOps1_keeps _ main_arg0 (by decide)
    _ = B1 m ρ c (Proc.devRef .tc main_arg0) := B2_of_ne m ρ c main_arg0 (by decide)
    _ = B0 m ρ c (Proc.devRef .tc main_arg0) := hostOps0_keeps _ main_arg0 (by decide)
    _ = m ((c : Thread nD τ).loc main_arg0) := rfl

/-- The weight array is what the masking region's write-backs left. -/
theorem E3_main_v1 (c : Dev nD) : E3 m ρ c main_v1 = (dat0 (F := Ideal) (E1 m ρ) c).arrAt 3 cfg0.N :=
  (hostOps1_keeps (B2 m ρ c) main_v1 (by decide)).trans (B2_arr m ρ c 3)

/-- So at (n, k) it is the masked weight of the launched weight and connection words at (n, k) and the launched kind
    word at (0, k). -/
theorem E3_main_v1_ix (c : Dev nD) (n k : Fin 4096) :
    E3 m ρ c main_v1 (ix2 n k)
      = Cert.Spec.maskedWeight (m ((c : Thread nD τ).loc main_arg1) (ix2 n k)) (m ((c : Thread nD τ).loc main_arg4) (ix2 n k))
          (m ((c : Thread nD τ).loc main_arg3) (ix2 (0 : Fin 4096) k)) := by
  refine (congrFun ((E3_main_v1 m ρ c).trans (final0 (E1 m ρ) c)) (ix2 n k)).trans ?_
  show Cert.Spec.maskedWeight (E1 m ρ c main_arg1 (ix2 n k)) (E1 m ρ c main_arg4 (ix2 n k)) (E1 m ρ c main_v0 (ix2 (0 : Fin 1) k)) = _
  rw [E1_main_arg1, E1_main_arg4, E1_main_v0_ix]

set_option maxHeartbeats 400000 in
/-- The bias row is the launched bias, reshaped to one row. -/
theorem E3_main_v2 (c : Dev nD) :
    (E3 m ρ c main_v2 : S1x4096.Idx → EReal)
      = shapeCast S1x4096 (m ((c : Thread nD τ).loc main_arg2) : S4096.Idx → EReal) shapeCasts_S4096_S1x4096 := by
  show StableHlo.after hostOps1 (B2 m ρ c) (Proc.devRef .tc main_v2) = _
  after_results
  rw [B2_main_arg2]
  rfl

/-- The bias row at column n is the launched bias at n. -/
theorem E3_main_v2_ix (c : Dev nD) (n : Fin 4096) :
    E3 m ρ c main_v2 (ix2 (0 : Fin 1) n) = m ((c : Thread nD τ).loc main_arg2) (ix1 n) := by
  refine (congrFun (E3_main_v2 m ρ c) (ix2 (0 : Fin 1) n)).trans ?_
  refine shapeCast_apply _ shapeCasts_S4096_S1x4096 (ix2 (0 : Fin 1) n) (ix1 n) ?_
  rw [Shape.rowMajor_val_one, Shape.rowMajor_val_two]
  show n.val = 0 * 4096 + n.val
  omega

/-! ## The result -/

set_option maxHeartbeats 1000000 in
/-- What the matrix-product region's write-backs leave in the result array is the layer's output of the launched
    arrays, when every row of the launched kind matrix is its row 0. -/
theorem kernel_value (c : Dev nD)
    (hrows : ∀ n k : Fin 4096, m ((c : Thread nD τ).loc main_arg3) (ix2 n k) = m ((c : Thread nD τ).loc main_arg3) (ix2 (0 : Fin 4096) k)) :
    (dat1 (F := Ideal) (E3 m ρ) c).arrAt 3 cfg1.N
      = fun i => Cert.Spec.out (m ((c : Thread nD τ).loc main_arg0)) (m ((c : Thread nD τ).loc main_arg1)) (m ((c : Thread nD τ).loc main_arg2))
          (m ((c : Thread nD τ).loc main_arg3)) (m ((c : Thread nD τ).loc main_arg4)) (i 0) (i 1) := by
  refine (final1 (E3 m ρ) c).trans (funext fun (i : S8192x4096.Idx) => ?_)
  refine Eq.trans ?_ (Cert.Spec.out_eq_outRow0 (m ((c : Thread nD τ).loc main_arg0)) (m ((c : Thread nD τ).loc main_arg1))
    (m ((c : Thread nD τ).loc main_arg2)) (m ((c : Thread nD τ).loc main_arg3)) (m ((c : Thread nD τ).loc main_arg4)) hrows (i 0) (i 1)).symm
  unfold Cert.Spec.outRow0 Cert.Spec.maskedAt
  refine congrArg₂ (· + ·) (Finset.sum_congr rfl fun k _ => ?_) (E3_main_v2_ix m ρ c (i 1))
  exact congrArg₂ (· * ·) (congrFun (E3_main_arg0 m ρ c) (ix2 (i 0) k)) (E3_main_v1_ix m ρ c (i 1) k)

end Cert.KernelIdeal.Hand

end
-- ==== Proof.RefValue.lean ====
/-
  The reference's run read back: its result array is the layer's output, index by index.
-/
import proofs.«155001_j23046794510859_2_alg».proof.Defs
import proofs.«155001_j23046794510859_2_alg».proof.Proof.Gen.ReferenceIdeal.Run
import proofs.«155001_j23046794510859_2_alg».proof.Proof.Gen.ReferenceIdeal.Read
import proofs.«155001_j23046794510859_2_alg».proof.Proof.Gen.Pre_finite_inputs
import proofs.«155001_j23046794510859_2_alg».proof.Proof.Spec

noncomputable section

namespace Cert.RefValue

open Cert.ReferenceIdeal Cert.ReferenceIdeal.Gen Cert.ReferenceIdeal.Read Idealize.ShloMosaic Idealize.ShloMosaic.TcCoe
  Idealize.SL.Sem Idealize.ShloMosaic.StableHlo Idealize.ShloMosaic.ValueIdx

/-- The left operand of the contraction at output (b, n), term k: x at (b, k). -/
theorem lidx_eq (b : Fin 8192) (n k : Fin 4096) : lidx_main_v10 (ix2 b n) k = ix2 b k :=
  funext fun a => Fin.ext (by match a with | ⟨0, _⟩ => rfl | ⟨1, _⟩ => rfl)

/-- The right operand of the contraction at output (b, n), term k, read through the transpose: the masked weight at (n, k). -/
theorem ridx_eq (b : Fin 8192) (n k : Fin 4096) : idx_main_v9 (ridx_main_v10 (ix2 b n) k) = ix2 n k :=
  funext fun a => Fin.ext (by match a with | ⟨0, _⟩ => rfl | ⟨1, _⟩ => rfl)

/-- The bias at output (b, n), read through its two broadcasts: the bias of n. -/
theorem bidx_eq (b : Fin 8192) (n : Fin 4096) : idx_main_v11 (idx_main_v12 (ix2 b n)) = ix1 n :=
  funext fun a => Fin.ext (by match a with | ⟨0, _⟩ => rfl)

/-- The masked weight the reference builds, at (n, k): the weight times its connection word, floored at zero when
    the kind word at (n, k) is 1 and capped at zero otherwise. -/
theorem masked_apply (x1 : (⟨S4096x4096, .f32⟩ : BufTy).Contents (Elt Ideal)) (x3 x4 : (⟨S4096x4096, .i32⟩ : BufTy).Contents (Elt Ideal))
    (n k : Fin 4096) :
    val_main_v8 (F := Ideal) x1 x3 x4 (ix2 n k) = Cert.Spec.maskedAt x1 x3 x4 n n k := by
  rw [val_main_v8_apply, val_main_v3_apply, val_main_v5_apply, val_main_v7_apply, val_main_v1_apply, val_main_v0_apply,
    val_main_v2_apply, val_main_v4_apply, val_main_v6_apply, val_main_c_apply, val_main_cst_apply, val_main_cst_0_apply]
  rfl

/-- The reference's result term is the layer's output, index by index. -/
theorem result_eq (x0 : (⟨S8192x4096, .f32⟩ : BufTy).Contents (Elt Ideal)) (x1 : (⟨S4096x4096, .f32⟩ : BufTy).Contents (Elt Ideal))
    (x2 : (⟨S4096, .f32⟩ : BufTy).Contents (Elt Ideal)) (x3 x4 : (⟨S4096x4096, .i32⟩ : BufTy).Contents (Elt Ideal)) :
    val_main_v13 (F := Ideal) x0 x1 x2 x3 x4 = fun i => Cert.Spec.out x0 x1 x2 x3 x4 (i 0) (i 1) := by
  funext i
  obtain ⟨b, n, rfl⟩ : ∃ (b : Fin 8192) (n : Fin 4096), i = ix2 b n := ⟨i 0, i 1, eq_ix2 i⟩
  rw [val_main_v13_apply, val_main_v10_apply, val_main_v12_apply, val_main_v11_apply, bidx_eq]
  show (∑ k : Fin 4096, x0 (lidx_main_v10 (ix2 b n) k) * val_main_v9 (F := Ideal) x1 x3 x4 (ridx_main_v10 (ix2 b n) k)) + x2 (ix1 n)
    = (∑ k : Fin 4096, x0 (ix2 b k) * Cert.Spec.maskedAt x1 x3 x4 n n k) + x2 (ix1 n)
  refine congrArg (· + x2 (ix1 n)) (Finset.sum_congr rfl fun k _ => ?_)
  rw [lidx_eq, val_main_v9_apply, ridx_eq, masked_apply]

/-- Every weakly fair execution of the reference terminates with its result array the layer's output of the
    argument arrays, index by index, and the arguments unchanged. -/
theorem run (m' : (ℓ : Loc Cert.ReferenceIdeal.nD Cert.ReferenceIdeal.τ Cert.ReferenceIdeal.sig) → Buf (Elt Ideal) ℓ)
    (ρ' : Dev Cert.ReferenceIdeal.nD → PrngReg) :
    θ_run (Cert.ReferenceIdeal.defs (F := Ideal)) (onTc (τ := Cert.ReferenceIdeal.τ) (Cert.ReferenceIdeal.main (F := Ideal))) ⟨m', fun _ => 0, ρ'⟩ (fun r => ∀ c : Dev Cert.ReferenceIdeal.nD,
      r.2.mem ((c.tc : Thread Cert.ReferenceIdeal.nD Cert.ReferenceIdeal.τ).loc Cert.ReferenceIdeal.main_v13)
        = (fun i => Cert.Spec.out
            (m' ((c.tc : Thread Cert.ReferenceIdeal.nD Cert.ReferenceIdeal.τ).loc Cert.ReferenceIdeal.main_arg0))
            (m' ((c.tc : Thread Cert.ReferenceIdeal.nD Cert.ReferenceIdeal.τ).loc Cert.ReferenceIdeal.main_arg1))
            (m' ((c.tc : Thread Cert.ReferenceIdeal.nD Cert.ReferenceIdeal.τ).loc Cert.ReferenceIdeal.main_arg2))
            (m' ((c.tc : Thread Cert.ReferenceIdeal.nD Cert.ReferenceIdeal.τ).loc Cert.ReferenceIdeal.main_arg3))
            (m' ((c.tc : Thread Cert.ReferenceIdeal.nD Cert.ReferenceIdeal.τ).loc Cert.ReferenceIdeal.main_arg4)) (i 0) (i 1))
      ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)) :=
  (θ_run (Cert.ReferenceIdeal.defs (F := Ideal)) _ _).mono
    (fun _ h c => ⟨(h c).1.trans ((val_main_v13_eq (F := Ideal) _ _ _ _ _).trans (result_eq _ _ _ _ _)), (h c).2⟩)
    (Cert.ReferenceIdeal.Value.run (F := Ideal) m' ρ')

/-- The reference runs and leaves its argument arrays unchanged. -/
theorem frame : Cert.frame_ReferenceIdeal (hReferenceIdeal := Cert.ReferenceIdeal.Gen.facts)
    (hPre_finite_inputs := Cert.Pre_finite_inputs.Gen.facts) :=
  fun m ρ _ => (θ_run (Cert.ReferenceIdeal.defs (F := Ideal)) _ _).mono (fun _ h c => (h c).2) (run m ρ)

end Cert.RefValue

end
-- ==== Proof.PreRows.lean ====
/-
  The precondition's fourth conjunct read back: every row of the column-kind matrix equals its row 0.

  The printed predicate ends in the conjunction of three finiteness tests with "all entries of the kind matrix
  equal the entry of row 0 in the same column": the row 0 is sliced out, broadcast back over the rows, compared
  entry by entry with the matrix, and the comparison words are reduced by "and". When the predicate is 1, that
  last reduction is 1, so every comparison word is 1, so every entry equals the entry above it in row 0.
-/
import proofs.«155001_j23046794510859_2_alg».proof.Pre_finite_inputs
import Idealize.ShloMosaic.Lib.ReduceAll
import Idealize.ShloMosaic.Lib.ValueIdx
import Idealize.ShloMosaic.Lib.Pipeline.Value

noncomputable section

namespace Cert.PreRows

open Cert.Pre_finite_inputs Idealize.ShloMosaic Idealize.ShloMosaic.ValueIdx

/-- The scalar shape has one index. -/
instance subsingleton_S_ : Subsingleton S_.Idx := ⟨fun _ _ => funext fun d => d.elim0⟩

/-- Row 0 of the matrix, broadcast back over the rows, read at (n, k): the matrix at (0, k). -/
theorem row0_apply [Cert.Pre_finite_inputs.Facts] (a3 : IVec S4096x4096 32) (n k : Fin 4096) :
    broadcastInDim S4096x4096 ![0, 1] Facts.bcast_S1x4096_S4096x4096_0_1
      (extractStridedSlice S1x4096 ![0, 0] a3 Facts.slices_S4096x4096_S1x4096_0_0) (ix2 n k) = a3 (ix2 (0 : Fin 4096) k) := by
  refine (broadcastInDim_apply _ Facts.bcast_S1x4096_S4096x4096_0_1 _ (ix2 n k) (ix2 (0 : Fin 1) k) (fun a => ?_)).trans ?_
  · match a with
    | ⟨0, _⟩ => show 0 = if (1 : Nat) = 1 then 0 else n.val; rw [if_pos rfl]
    | ⟨1, _⟩ => show k.val = if (4096 : Nat) = 1 then 0 else k.val; rw [if_neg (by decide)]
  · refine extractStridedSlice_apply _ a3 Facts.slices_S4096x4096_S1x4096_0_0 (ix2 (0 : Fin 1) k) (ix2 (0 : Fin 4096) k) (fun a => ?_)
    match a with
    | ⟨0, _⟩ => rfl
    | ⟨1, _⟩ => show k.val = 0 + k.val; rw [Nat.zero_add]

/-- When the printed precondition holds, every row of the kind matrix is its row 0. -/
theorem rows_of_pre [Cert.Pre_finite_inputs.Facts] (a0 : FVec Ideal S8192x4096 .f32) (a1 : FVec Ideal S4096x4096 .f32)
    (a2 : FVec Ideal S4096 .f32) (a3 a4 : IVec S4096x4096 32)
    (h : Cert.Pre_finite_inputs.fn (F := Ideal) a0 a1 a2 a3 a4 = fun _ => 1#1) :
    ∀ n k : Fin 4096, a3 (ix2 n k) = a3 (ix2 (0 : Fin 4096) k) := by
  intro n k
  have e := congrFun h ix0
  dsimp only [Cert.Pre_finite_inputs.fn, Cert.Pre_finite_inputs.fn_part1, andi] at e
  have e2 := (IntOp.andi_eq_one.1 e).2
  have e3 := Host.reduce_andi_all _ _ _ _ _ e2 (ix2 n k)
  exact (IntOp.cmpi_eq.1 e3).trans (row0_apply a3 n k)

end Cert.PreRows

end
-- ==== Proof.lean ====
/-
  The certificate's five claims.

  Both programs compute one layer: each synapse weight times its 0/1 connection word, floored at zero in an excitatory
  column and capped at zero in any other, then the activations times the transposed masked weights plus the bias. The
  kernel reads a column's kind in row 0 of the kind matrix and the reference in the synapse's own row; under the
  precondition that every row of the kind matrix equals its row 0 the two readings agree. The kernel's matrix product
  is accumulated over sixteen blocks of 256 columns starting from zero, which on the extended reals is the one sum over
  all 4096 columns (addition there is commutative and associative), and its roundings to a narrower format are the
  identity at the ideal instance. Each program's frame (it terminates, faults nowhere, leaves its arguments unchanged)
  is its run read at the argument arrays.
-/
import proofs.«155001_j23046794510859_2_alg».proof.Defs
import proofs.«155001_j23046794510859_2_alg».proof.Proof.Gen.Kernel
import proofs.«155001_j23046794510859_2_alg».proof.Proof.Gen.KernelIdeal
import proofs.«155001_j23046794510859_2_alg».proof.Proof.Gen.ReferenceIdeal
import proofs.«155001_j23046794510859_2_alg».proof.Proof.Gen.Pre_finite_inputs
import proofs.«155001_j23046794510859_2_alg».proof.Proof.K.Run
import proofs.«155001_j23046794510859_2_alg».proof.Proof.KI.Run
import proofs.«155001_j23046794510859_2_alg».proof.Proof.KI.Result
import proofs.«155001_j23046794510859_2_alg».proof.Proof.RefValue
import proofs.«155001_j23046794510859_2_alg».proof.Proof.PreRows
import Idealize.ShloMosaic.Adequacy
import Idealize.ShloMosaic.Init

noncomputable section

namespace Cert.Proof

open Idealize.ShloMosaic Idealize.SL.Sem

/-- The word-level kernel's frame: its run over both regions, read at the argument arrays. -/
theorem frame_kernel : Cert.frame_Kernel (hKernel := Cert.Kernel.Gen.facts) (hPre_finite_inputs := Cert.Pre_finite_inputs.Gen.facts) :=
  fun m ρ _ => Cert.Kernel.Hand.frame m ρ

/-- The idealized kernel's frame: the same run at the extended reals. -/
theorem frame_kernelIdeal : Cert.frame_KernelIdeal (hKernelIdeal := Cert.KernelIdeal.Gen.facts) (hPre_finite_inputs := Cert.Pre_finite_inputs.Gen.facts) :=
  fun m ρ _ => Cert.KernelIdeal.Hand.frame m ρ

/-- From memories agreeing on the arguments both idealized programs end with the layer's output in their result
    buffers: the kernel's accumulated, biased blocks are the specification with every column's kind read in row 0,
    which under the precondition is the specification itself; the reference's operations are it by reading them at an
    index. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' hpre hagree
  refine ⟨fun c => fun i => Cert.Spec.out
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4)) (i 0) (i 1), ?_, ?_⟩
  · refine (θ_run Cert.KernelIdeal.defs _ _).mono (fun _ h c => ⟨(h c).1.trans ?_, (h c).2⟩)
      (Cert.KernelIdeal.Hand.run_result m ρ)
    exact Cert.KernelIdeal.Hand.kernel_value m ρ c (Cert.PreRows.rows_of_pre _ _ _ _ _ (hpre c))
  · refine (θ_run Cert.ReferenceIdeal.defs _ _).mono (fun _ h c => ⟨(h c).1.trans ?_, (h c).2⟩)
      (Cert.RefValue.run m' ρ')
    rw [(hagree c).1, (hagree c).2.1, (hagree c).2.2.1, (hagree c).2.2.2.1, (hagree c).2.2.2.2]
    rfl

theorem claim : Cert.Claim :=
  ⟨Cert.Kernel.Gen.facts, Cert.KernelIdeal.Gen.facts, Cert.ReferenceIdeal.Gen.facts, Cert.Pre_finite_inputs.Gen.facts,
    frame_kernel, frame_kernelIdeal, Cert.RefValue.frame, trivial, algebraic⟩

end Cert.Proof

end
